-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x6 : Shape := ⟨2, ![4000000, 6]⟩
abbrev S4000000x1 : Shape := ⟨2, ![4000000, 1]⟩
abbrev S_ : Shape := ⟨0, ![]⟩

class Facts : Prop where
  bcast_S_S4000000x6 : S_.BroadcastsInDim S4000000x6 (![] : Fin 0 → Fin S4000000x6.rank)
  reducesTo_S4000000x6_S_d0_1 : S4000000x6.ReducesTo [0, 1] S_
  h_S_ : 0 < S_.numel
  bcast_S_S4000000x1 : S_.BroadcastsInDim S4000000x1 (![] : Fin 0 → Fin S4000000x1.rank)
  reducesTo_S4000000x1_S_d0_1 : S4000000x1.ReducesTo [0, 1] S_

variable [Facts]

def fn {F : FTy → Type} [FloatOps F] (main_arg0 : FVec F S4000000x6 .f32) (main_arg1 : FVec F S4000000x1 .f32) : IVec S_ 1 :=
  let main_v0 : FVec F S4000000x6 .f32 := Host.absf main_arg0
  let main_cst : FVec F S_ .f32 := constant S_ .f32 0x7F800000#32
  let main_v1 : FVec F S4000000x6 .f32 := broadcastInDim S4000000x6 ![] bcast_S_S4000000x6 main_cst
  let main_v2 : IVec S4000000x6 1 := cmpf .olt main_v0 main_v1
  let main_c : IVec S_ 1 := constantI S_ 1 1#1
  let main_v3 : IVec S_ 1 := (fun x v => Host.reduce IntOp.andi x v reducesTo_S4000000x6_S_d0_1 h_S_) main_v2 main_c
  let main_v4 : FVec F S4000000x1 .f32 := Host.absf main_arg1
  let main_cst_0 : FVec F S_ .f32 := constant S_ .f32 0x7F800000#32
  let main_v5 : FVec F S4000000x1 .f32 := broadcastInDim S4000000x1 ![] bcast_S_S4000000x1 main_cst_0
  let main_v6 : IVec S4000000x1 1 := cmpf .olt main_v4 main_v5
  let main_c_1 : IVec S_ 1 := constantI S_ 1 1#1
  let main_v7 : IVec S_ 1 := (fun x v => Host.reduce IntOp.andi x v reducesTo_S4000000x1_S_d0_1 h_S_) main_v6 main_c_1
  let main_v8 : IVec S_ 1 := andi main_v3 main_v7
  main_v8
-- ==== Kernel.lean ====
abbrev S4000000x6 : Shape := ⟨2, ![4000000, 6]⟩
abbrev S4000000x1 : Shape := ⟨2, ![4000000, 1]⟩
abbrev S6x4000000 : Shape := ⟨2, ![6, 4000000]⟩
abbrev S1x4000000 : Shape := ⟨2, ![1, 4000000]⟩
abbrev S16x128 : Shape := ⟨2, ![16, 128]⟩
abbrev S6x80000 : Shape := ⟨2, ![6, 80000]⟩
abbrev S1x80000 : Shape := ⟨2, ![1, 80000]⟩
abbrev S8x128 : Shape := ⟨2, ![8, 128]⟩
abbrev S6 : Shape := ⟨1, ![6]⟩
abbrev S6x1 : Shape := ⟨2, ![6, 1]⟩
abbrev S1 : Shape := ⟨1, ![1]⟩
abbrev S1x1 : Shape := ⟨2, ![1, 1]⟩
abbrev S80000 : Shape := ⟨1, ![80000]⟩
abbrev S_ : Shape := ⟨0, ![]⟩

abbrev nBuf : Space → Nat
  | .hbm => 101
  | .vmem => 6
  | .smem => 0
  | _ => 0

abbrev bufTy : (tb : Table) → Fin (tcTables nBuf tb) → BufTy
  | .hbm, ⟨0, _⟩ => ⟨S4000000x6, .f32⟩
  | .hbm, ⟨1, _⟩ => ⟨S4000000x1, .f32⟩
  | .hbm, ⟨2, _⟩ => ⟨S6x4000000, .f32⟩
  | .hbm, ⟨3, _⟩ => ⟨S1x4000000, .f32⟩
  | .hbm, ⟨4, _⟩ => ⟨S16x128, .f32⟩
  | .hbm, ⟨5, _⟩ => ⟨S8x128, .f32⟩
  | .hbm, ⟨6, _⟩ => ⟨S8x128, .f32⟩
  | .hbm, ⟨7, _⟩ => ⟨S6x1, .f32⟩
  | .hbm, ⟨8, _⟩ => ⟨S6, .f32⟩
  | .hbm, ⟨9, _⟩ => ⟨S6x1, .f32⟩
  | .hbm, ⟨10, _⟩ => ⟨S6, .f32⟩
  | .hbm, ⟨11, _⟩ => ⟨S6, .f32⟩
  | .hbm, ⟨12, _⟩ => ⟨S6x1, .f32⟩
  | .hbm, ⟨13, _⟩ => ⟨S6, .f32⟩
  | .hbm, ⟨14, _⟩ => ⟨S6x1, .f32⟩
  | .hbm, ⟨15, _⟩ => ⟨S6, .f32⟩
  | .hbm, ⟨16, _⟩ => ⟨S6, .f32⟩
  | .hbm, ⟨17, _⟩ => ⟨S6x1, .f32⟩
  | .hbm, ⟨18, _⟩ => ⟨S6, .f32⟩
  | .hbm, ⟨19, _⟩ => ⟨S6x1, .f32⟩
  | .hbm, ⟨20, _⟩ => ⟨S6, .f32⟩
  | .hbm, ⟨21, _⟩ => ⟨S6, .f32⟩
  | .hbm, ⟨22, _⟩ => ⟨S1x1, .f32⟩
  | .hbm, ⟨23, _⟩ => ⟨S_, .f32⟩
  | .hbm, ⟨24, _⟩ => ⟨S1x1, .f32⟩
  | .hbm, ⟨25, _⟩ => ⟨S_, .f32⟩
  | .hbm, ⟨26, _⟩ => ⟨S_, .f32⟩
  | .hbm, ⟨27, _⟩ => ⟨S1x1, .f32⟩
  | .hbm, ⟨28, _⟩ => ⟨S_, .f32⟩
  | .hbm, ⟨29, _⟩ => ⟨S1x1, .f32⟩
  | .hbm, ⟨30, _⟩ => ⟨S_, .f32⟩
  | .hbm, ⟨31, _⟩ => ⟨S_, .f32⟩
  | .hbm, ⟨32, _⟩ => ⟨S1x1, .f32⟩
  | .hbm, ⟨33, _⟩ => ⟨S_, .f32⟩
  | .hbm, ⟨34, _⟩ => ⟨S1x1, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S6, .f32⟩
  | .hbm, ⟨42, _⟩ => ⟨S6, .f32⟩
  | .hbm, ⟨43, _⟩ => ⟨S_, .f32⟩
  | .hbm, ⟨44, _⟩ => ⟨S6, .f32⟩
  | .hbm, ⟨45, _⟩ => ⟨S6, .f32⟩
  | .hbm, ⟨46, _⟩ => ⟨S6, .f32⟩
  | .hbm, ⟨47, _⟩ => ⟨S6, .f32⟩
  | .hbm, ⟨48, _⟩ => ⟨S_, .f32⟩
  | .hbm, ⟨49, _⟩ => ⟨S6, .f32⟩
  | .hbm, ⟨50, _⟩ => ⟨S6, .f32⟩
  | .hbm, ⟨51, _⟩ => ⟨S6, .f32⟩
  | .hbm, ⟨52, _⟩ => ⟨S6, .f32⟩
  | .hbm, ⟨53, _⟩ => ⟨S_, .f32⟩
  | .hbm, ⟨54, _⟩ => ⟨S6, .f32⟩
  | .hbm, ⟨55, _⟩ => ⟨S6, .f32⟩
  | .hbm, ⟨56, _⟩ => ⟨S6, .f32⟩
  | .hbm, ⟨57, _⟩ => ⟨S1, .f32⟩
  | .hbm, ⟨58, _⟩ => ⟨S_, .f32⟩
  | .hbm, ⟨59, _⟩ => ⟨S1, .f32⟩
  | .hbm, ⟨60, _⟩ => ⟨S_, .f32⟩
  | .hbm, ⟨61, _⟩ => ⟨S1, .f32⟩
  | .hbm, ⟨62, _⟩ => ⟨S_, .f32⟩
  | .hbm, ⟨63, _⟩ => ⟨S1, .f32⟩
  | .hbm, ⟨64, _⟩ => ⟨S_, .f32⟩
  | .hbm, ⟨65, _⟩ => ⟨S1, .f32⟩
  | .hbm, ⟨66, _⟩ => ⟨S_, .f32⟩
  | .hbm, ⟨67, _⟩ => ⟨S1, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .local _ .vmem, ⟨0, _⟩ => ⟨S6x80000, .f32⟩
  | .local _ .vmem, ⟨1, _⟩ => ⟨S6x80000, .f32⟩
  | .local _ .vmem, ⟨2, _⟩ => ⟨S1x80000, .f32⟩
  | .local _ .vmem, ⟨3, _⟩ => ⟨S1x80000, .f32⟩
  | .local _ .vmem, ⟨4, _⟩ => ⟨S8x128, .f32⟩
  | .local _ .vmem, ⟨5, _⟩ => ⟨S8x128, .f32⟩
  | _, _ => ⟨S4000000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_cst : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_cst_0 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_cst_1 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_cst_2 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_cst_3 : Ref sig .tc := ⟨.hbm, 75, rfl⟩
abbrev main_v69 : Ref sig .tc := ⟨.hbm, 76, rfl⟩
abbrev main_v70 : Ref sig .tc := ⟨.hbm, 77, rfl⟩
abbrev main_cst_4 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_cst_5 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_cst_6 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_cst_7 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_cst_8 : Ref sig .tc := ⟨.hbm, 95, rfl⟩
abbrev main_v84 : Ref sig .tc := ⟨.hbm, 96, rfl⟩
abbrev main_v85 : Ref sig .tc := ⟨.hbm, 97, rfl⟩
abbrev main_cst_9 : Ref sig .tc := ⟨.hbm, 98, rfl⟩
abbrev main_v86 : Ref sig .tc := ⟨.hbm, 99, rfl⟩
abbrev main_v87 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S6x80000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x80000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S4000000x6_S6x4000000_1_0 : S4000000x6.Transposes [1, 0] S6x4000000
  shapeCasts_S4000000x1_S1x4000000 : S4000000x1.ShapeCasts S1x4000000
  inb_S8x128_S8x128_0_0 : ∀ a, (![0, 0] : Fin 2 → Nat) a + S8x128.size a ≤ S8x128.size a
  h_S8x128 : 0 < S8x128.numel
  inb_S6x80000_S6x80000_0_0 : ∀ a, (![0, 0] : Fin 2 → Nat) a + S6x80000.size a ≤ S6x80000.size a
  h_S6x80000 : 0 < S6x80000.numel
  shapeCasts_S6x80000_S6x80000 : S6x80000.ShapeCasts S6x80000
  inb_S1x80000_S1x80000_0_0 : ∀ a, (![0, 0] : Fin 2 → Nat) a + S1x80000.size a ≤ S1x80000.size a
  h_S1x80000 : 0 < S1x80000.numel
  shapeCasts_S1x80000_S1x80000 : S1x80000.ShapeCasts S1x80000
  broadcasts_S1x80000_S6x80000 : S1x80000.Broadcasts S6x80000
  reduces_S6x80000_S6 : S6x80000.Reduces [1] S6
  shapeCasts_S6_S6x1 : S6.ShapeCasts S6x1
  reduces_S1x80000_S1 : S1x80000.Reduces [1] S1
  shapeCasts_S1_S1x1 : S1.ShapeCasts S1x1
  iota_S6x80000_d0_w32 : S6x80000.Iotas .tc 32 [0]
  reduces_S6x80000_S80000 : S6x80000.Reduces [0] S80000
  shapeCasts_S80000_S1x80000 : S80000.ShapeCasts S1x80000
  inb_S8x128_S6x1_0_0 : ∀ a, (![0, 0] : Fin 2 → Nat) a + S6x1.size a ≤ S8x128.size a
  h_S6x1 : 0 < S6x1.numel
  shapeCasts_S6x1_S6x1 : S6x1.ShapeCasts S6x1
  inb_S8x128_S6x1_0_1 : ∀ a, (![0, 1] : Fin 2 → Nat) a + S6x1.size a ≤ S8x128.size a
  inb_S8x128_S6x1_0_2 : ∀ a, (![0, 2] : Fin 2 → Nat) a + S6x1.size a ≤ S8x128.size a
  inb_S8x128_S1x1_0_3 : ∀ a, (![0, 3] : Fin 2 → Nat) a + S1x1.size a ≤ S8x128.size a
  h_S1x1 : 0 < S1x1.numel
  shapeCasts_S1x1_S1x1 : S1x1.ShapeCasts S1x1
  inb_S8x128_S1x1_0_4 : ∀ a, (![0, 4] : Fin 2 → Nat) a + S1x1.size a ≤ S8x128.size a
  inb_S8x128_S1x1_0_5 : ∀ a, (![0, 5] : Fin 2 → Nat) a + S1x1.size a ≤ S8x128.size a
  slices_S16x128_S8x128_0_0 : S16x128.Slices ![0, 0] S8x128
  slices_S16x128_S8x128_8_0 : S16x128.Slices ![8, 0] S8x128
  slices_S8x128_S6x1_0_0 : S8x128.Slices ![0, 0] S6x1
  shapeCasts_S6x1_S6 : S6x1.ShapeCasts S6
  slices_S8x128_S6x1_0_1 : S8x128.Slices ![0, 1] S6x1
  slices_S8x128_S6x1_0_2 : S8x128.Slices ![0, 2] S6x1
  slices_S8x128_S1x1_0_3 : S8x128.Slices ![0, 3] S1x1
  shapeCasts_S1x1_S_ : S1x1.ShapeCasts S_
  slices_S8x128_S1x1_0_4 : S8x128.Slices ![0, 4] S1x1
  slices_S8x128_S1x1_0_5 : S8x128.Slices ![0, 5] S1x1
  bcast_S_S6 : S_.BroadcastsInDim S6 (![] : Fin 0 → Fin S6.rank)
  slices_S6_S1_0 : S6.Slices ![0] S1
  shapeCasts_S1_S_ : S1.ShapeCasts S_
  slices_S6_S1_1 : S6.Slices ![1] S1
  slices_S6_S1_2 : S6.Slices ![2] S1
  slices_S6_S1_3 : S6.Slices ![3] S1
  slices_S6_S1_4 : S6.Slices ![4] S1
  slices_S6_S1_5 : S6.Slices ![5] S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6x80000.size a ≤ S6x4000000.size a
  hwx0_0 : ∀ i : grid0.Coords, EltTy.bits .f32 = 32 ∨ (Rect.block (s := S6x4000000) S6x80000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x80000.size a ≤ S1x4000000.size a
  hwx0_1 : ∀ i : grid0.Coords, EltTy.bits .f32 = 32 ∨ (Rect.block (s := S1x4000000) S1x80000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_v0) S6x80000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x80000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x6 : Shape := ⟨2, ![4000000, 6]⟩
abbrev S4000000x1 : Shape := ⟨2, ![4000000, 1]⟩
abbrev S4000000 : Shape := ⟨1, ![4000000]⟩
abbrev S_ : Shape := ⟨0, ![]⟩
abbrev S4000000x5 : Shape := ⟨2, ![4000000, 5]⟩

abbrev nBuf : Space → Nat
  | .hbm => 228
  | .vmem => 0
  | .smem => 0
  | _ => 0

abbrev hbmTy0_0 (i : Nat) : BufTy := match i % 128 with
  | 0 => ⟨S4000000x6, .f32⟩
  | 1 => ⟨S4000000x1, .f32⟩
  | 2 => ⟨S4000000, .f32⟩
  | 3 => ⟨S4000000x1, .f32⟩
  | 4 => ⟨S4000000, .f32⟩
  | 5 => ⟨S_, .f32⟩
  | 6 => ⟨S_, .f32⟩
  | 7 => ⟨S_, .f32⟩
  | 8 => ⟨S_, .f32⟩
  | 9 => ⟨S4000000, .f32⟩
  | 10 => ⟨S4000000, .f32⟩
  | 11 => ⟨S_, .f32⟩
  | 12 => ⟨S_, .f32⟩
  | 13 => ⟨S_, .f32⟩
  | 14 => ⟨S_, .f32⟩
  | 15 => ⟨S4000000, .f32⟩
  | 16 => ⟨S4000000, .f32⟩
  | 17 => ⟨S4000000, .f32⟩
  | 18 => ⟨S_, .f32⟩
  | 19 => ⟨S_, .f32⟩
  | 20 => ⟨S4000000, .f32⟩
  | 21 => ⟨S_, .f32⟩
  | 22 => ⟨S_, .f32⟩
  | 23 => ⟨S_, .f32⟩
  | 24 => ⟨S4000000, .f32⟩
  | 25 => ⟨S_, .f32⟩
  | 26 => ⟨S_, .f32⟩
  | 27 => ⟨S_, .f32⟩
  | 28 => ⟨S_, .f32⟩
  | 29 => ⟨S_, .f32⟩
  | 30 => ⟨S4000000x1, .f32⟩
  | 31 => ⟨S4000000, .f32⟩
  | 32 => ⟨S_, .f32⟩
  | 33 => ⟨S_, .f32⟩
  | 34 => ⟨S_, .f32⟩
  | 35 => ⟨S_, .f32⟩
  | 36 => ⟨S4000000, .f32⟩
  | 37 => ⟨S4000000, .f32⟩
  | 38 => ⟨S_, .f32⟩
  | 39 => ⟨S_, .f32⟩
  | 40 => ⟨S_, .f32⟩
  | 41 => ⟨S_, .f32⟩
  | 42 => ⟨S4000000, .f32⟩
  | 43 => ⟨S4000000, .f32⟩
  | 44 => ⟨S4000000, .f32⟩
  | 45 => ⟨S_, .f32⟩
  | 46 => ⟨S_, .f32⟩
  | 47 => ⟨S4000000, .f32⟩
  | 48 => ⟨S_, .f32⟩
  | 49 => ⟨S_, .f32⟩
  | 50 => ⟨S_, .f32⟩
  | 51 => ⟨S4000000, .f32⟩
  | 52 => ⟨S_, .f32⟩
  | 53 => ⟨S_, .f32⟩
  | 54 => ⟨S_, .f32⟩
  | 55 => ⟨S_, .f32⟩
  | 56 => ⟨S_, .f32⟩
  | 57 => ⟨S4000000x1, .f32⟩
  | 58 => ⟨S4000000, .f32⟩
  | 59 => ⟨S_, .f32⟩
  | 60 => ⟨S_, .f32⟩
  | 61 => ⟨S_, .f32⟩
  | 62 => ⟨S_, .f32⟩
  | 63 => ⟨S4000000, .f32⟩
  | 64 => ⟨S4000000, .f32⟩
  | 65 => ⟨S_, .f32⟩
  | 66 => ⟨S_, .f32⟩
  | 67 => ⟨S_, .f32⟩
  | 68 => ⟨S_, .f32⟩
  | 69 => ⟨S4000000, .f32⟩
  | 70 => ⟨S4000000, .f32⟩
  | 71 => ⟨S4000000, .f32⟩
  | 72 => ⟨S_, .f32⟩
  | 73 => ⟨S_, .f32⟩
  | 74 => ⟨S4000000, .f32⟩
  | 75 => ⟨S_, .f32⟩
  | 76 => ⟨S_, .f32⟩
  | 77 => ⟨S_, .f32⟩
  | 78 => ⟨S4000000, .f32⟩
  | 79 => ⟨S_, .f32⟩
  | 80 => ⟨S_, .f32⟩
  | 81 => ⟨S_, .f32⟩
  | 82 => ⟨S_, .f32⟩
  | 83 => ⟨S_, .f32⟩
  | 84 => ⟨S4000000x1, .f32⟩
  | 85 => ⟨S4000000, .f32⟩
  | 86 => ⟨S_, .f32⟩
  | 87 => ⟨S_, .f32⟩
  | 88 => ⟨S_, .f32⟩
  | 89 => ⟨S_, .f32⟩
  | 90 => ⟨S4000000, .f32⟩
  | 91 => ⟨S4000000, .f32⟩
  | 92 => ⟨S_, .f32⟩
  | 93 => ⟨S_, .f32⟩
  | 94 => ⟨S_, .f32⟩
  | 95 => ⟨S_, .f32⟩
  | 96 => ⟨S4000000, .f32⟩
  | 97 => ⟨S4000000, .f32⟩
  | 98 => ⟨S4000000, .f32⟩
  | 99 => ⟨S_, .f32⟩
  | 100 => ⟨S_, .f32⟩
  | 101 => ⟨S4000000, .f32⟩
  | 102 => ⟨S_, .f32⟩
  | 103 => ⟨S_, .f32⟩
  | 104 => ⟨S_, .f32⟩
  | 105 => ⟨S4000000, .f32⟩
  | 106 => ⟨S_, .f32⟩
  | 107 => ⟨S_, .f32⟩
  | 108 => ⟨S_, .f32⟩
  | 109 => ⟨S_, .f32⟩
  | 110 => ⟨S_, .f32⟩
  | 111 => ⟨S4000000x1, .f32⟩
  | 112 => ⟨S4000000, .f32⟩
  | 113 => ⟨S_, .f32⟩
  | 114 => ⟨S_, .f32⟩
  | 115 => ⟨S_, .f32⟩
  | 116 => ⟨S_, .f32⟩
  | 117 => ⟨S4000000, .f32⟩
  | 118 => ⟨S4000000, .f32⟩
  | 119 => ⟨S_, .f32⟩
  | 120 => ⟨S_, .f32⟩
  | 121 => ⟨S_, .f32⟩
  | 122 => ⟨S_, .f32⟩
  | 123 => ⟨S4000000, .f32⟩
  | 124 => ⟨S4000000, .f32⟩
  | 125 => ⟨S4000000, .f32⟩
  | 126 => ⟨S_, .f32⟩
  | 127 => ⟨S_, .f32⟩
  | _ => ⟨S4000000x6, .f32⟩

abbrev hbmTy0_1 (i : Nat) : BufTy := match i % 128 with
  | 0 => ⟨S4000000, .f32⟩
  | 1 => ⟨S_, .f32⟩
  | 2 => ⟨S_, .f32⟩
  | 3 => ⟨S_, .f32⟩
  | 4 => ⟨S4000000, .f32⟩
  | 5 => ⟨S_, .f32⟩
  | 6 => ⟨S_, .f32⟩
  | 7 => ⟨S_, .f32⟩
  | 8 => ⟨S_, .f32⟩
  | 9 => ⟨S_, .f32⟩
  | 10 => ⟨S4000000x1, .f32⟩
  | 11 => ⟨S4000000, .f32⟩
  | 12 => ⟨S_, .f32⟩
  | 13 => ⟨S_, .f32⟩
  | 14 => ⟨S_, .f32⟩
  | 15 => ⟨S_, .f32⟩
  | 16 => ⟨S4000000, .f32⟩
  | 17 => ⟨S4000000, .f32⟩
  | 18 => ⟨S_, .f32⟩
  | 19 => ⟨S_, .f32⟩
  | 20 => ⟨S_, .f32⟩
  | 21 => ⟨S_, .f32⟩
  | 22 => ⟨S4000000, .f32⟩
  | 23 => ⟨S4000000, .f32⟩
  | 24 => ⟨S4000000, .f32⟩
  | 25 => ⟨S_, .f32⟩
  | 26 => ⟨S_, .f32⟩
  | 27 => ⟨S4000000, .f32⟩
  | 28 => ⟨S_, .f32⟩
  | 29 => ⟨S_, .f32⟩
  | 30 => ⟨S_, .f32⟩
  | 31 => ⟨S4000000, .f32⟩
  | 32 => ⟨S_, .f32⟩
  | 33 => ⟨S_, .f32⟩
  | 34 => ⟨S_, .f32⟩
  | 35 => ⟨S_, .f32⟩
  | 36 => ⟨S_, .f32⟩
  | 37 => ⟨S4000000x6, .f32⟩
  | 38 => ⟨S4000000x6, .f32⟩
  | 39 => ⟨S_, .f32⟩
  | 40 => ⟨S4000000x6, .f32⟩
  | 41 => ⟨S4000000x6, .f32⟩
  | 42 => ⟨S4000000x6, .f32⟩
  | 43 => ⟨S_, .f32⟩
  | 44 => ⟨S4000000x6, .f32⟩
  | 45 => ⟨S4000000x6, .f32⟩
  | 46 => ⟨S4000000x6, .f32⟩
  | 47 => ⟨S_, .f32⟩
  | 48 => ⟨S4000000x6, .f32⟩
  | 49 => ⟨S4000000x6, .f32⟩
  | 50 => ⟨S_, .f32⟩
  | 51 => ⟨S4000000x6, .f32⟩
  | 52 => ⟨S4000000x6, .f32⟩
  | 53 => ⟨S4000000x5, .f32⟩
  | 54 => ⟨S4000000x5, .f32⟩
  | 55 => ⟨S4000000x5, .f32⟩
  | 56 => ⟨S_, .f32⟩
  | 57 => ⟨S4000000x5, .f32⟩
  | 58 => ⟨S4000000x5, .f32⟩
  | 59 => ⟨S4000000x1, .f32⟩
  | 60 => ⟨S_, .f32⟩
  | 61 => ⟨S4000000x1, .f32⟩
  | 62 => ⟨S4000000x6, .f32⟩
  | 63 => ⟨S4000000x6, .f32⟩
  | 64 => ⟨S_, .f32⟩
  | 65 => ⟨S4000000, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | _ => ⟨S4000000x6, .f32⟩

abbrev hbmTy (i : Nat) : BufTy := match i / 128 with
  | 0 => hbmTy0_0 i
  | 1 => hbmTy0_1 i
  | _ => ⟨S4000000x6, .f32⟩

abbrev bufTy : (tb : Table) → Fin (tcTables nBuf tb) → BufTy
  | .hbm, ⟨i, _⟩ => hbmTy i
  | _, _ => ⟨S4000000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_8 : Ref sig .tc := ⟨.hbm, 38, rfl⟩
abbrev main_v27 : Ref sig .tc := ⟨.hbm, 39, rfl⟩
abbrev main_cst_9 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_10 : Ref sig .tc := ⟨.hbm, 45, rfl⟩
abbrev main_v32 : Ref sig .tc := ⟨.hbm, 46, rfl⟩
abbrev main_v33 : Ref sig .tc := ⟨.hbm, 47, rfl⟩
abbrev main_cst_11 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_12 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_13 : Ref sig .tc := ⟨.hbm, 59, rfl⟩
abbrev main_v43 : Ref sig .tc := ⟨.hbm, 60, rfl⟩
abbrev main_cst_14 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_15 : Ref sig .tc := ⟨.hbm, 65, rfl⟩
abbrev main_v47 : Ref sig .tc := ⟨.hbm, 66, rfl⟩
abbrev main_cst_16 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_17 : Ref sig .tc := ⟨.hbm, 72, rfl⟩
abbrev main_v52 : Ref sig .tc := ⟨.hbm, 73, rfl⟩
abbrev main_v53 : Ref sig .tc := ⟨.hbm, 74, rfl⟩
abbrev main_cst_18 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_19 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_20 : Ref sig .tc := ⟨.hbm, 86, rfl⟩
abbrev main_v63 : Ref sig .tc := ⟨.hbm, 87, rfl⟩
abbrev main_cst_21 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_22 : Ref sig .tc := ⟨.hbm, 92, rfl⟩
abbrev main_v67 : Ref sig .tc := ⟨.hbm, 93, rfl⟩
abbrev main_cst_23 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_24 : Ref sig .tc := ⟨.hbm, 99, rfl⟩
abbrev main_v72 : Ref sig .tc := ⟨.hbm, 100, rfl⟩
abbrev main_v73 : Ref sig .tc := ⟨.hbm, 101, rfl⟩
abbrev main_cst_25 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_26 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_27 : Ref sig .tc := ⟨.hbm, 113, rfl⟩
abbrev main_v83 : Ref sig .tc := ⟨.hbm, 114, rfl⟩
abbrev main_cst_28 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_29 : Ref sig .tc := ⟨.hbm, 119, rfl⟩
abbrev main_v87 : Ref sig .tc := ⟨.hbm, 120, rfl⟩
abbrev main_cst_30 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_31 : Ref sig .tc := ⟨.hbm, 126, rfl⟩
abbrev main_v92 : Ref sig .tc := ⟨.hbm, 127, rfl⟩
abbrev main_v93 : Ref sig .tc := ⟨.hbm, 128, rfl⟩
abbrev main_cst_32 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_33 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_34 : Ref sig .tc := ⟨.hbm, 140, rfl⟩
abbrev main_v103 : Ref sig .tc := ⟨.hbm, 141, rfl⟩
abbrev main_cst_35 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_36 : Ref sig .tc := ⟨.hbm, 146, rfl⟩
abbrev main_v107 : Ref sig .tc := ⟨.hbm, 147, rfl⟩
abbrev main_cst_37 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_cst_38 : Ref sig .tc := ⟨.hbm, 153, rfl⟩
abbrev main_v112 : Ref sig .tc := ⟨.hbm, 154, rfl⟩
abbrev main_v113 : Ref sig .tc := ⟨.hbm, 155, rfl⟩
abbrev main_cst_39 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_cst_40 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_cst_41 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_cst_42 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_cst_43 : Ref sig .tc := ⟨.hbm, 175, rfl⟩
abbrev main_v129 : Ref sig .tc := ⟨.hbm, 176, rfl⟩
abbrev main_v130 : Ref sig .tc := ⟨.hbm, 177, rfl⟩
abbrev main_cst_44 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_cst_45 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_cst_46 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_cst_47 : Ref sig .tc := ⟨.hbm, 192, rfl⟩
abbrev main_v142 : Ref sig .tc := ⟨.hbm, 193, rfl⟩
abbrev main_cst_48 : Ref sig .tc := ⟨.hbm, 194, rfl⟩
abbrev main_v143 : Ref sig .tc := ⟨.hbm, 195, rfl⟩
abbrev main_cst_49 : Ref sig .tc := ⟨.hbm, 196, rfl⟩
abbrev main_v144 : Ref sig .tc := ⟨.hbm, 197, rfl⟩
abbrev main_cst_50 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_cst_51 : Ref sig .tc := ⟨.hbm, 204, rfl⟩
abbrev main_v150 : Ref sig .tc := ⟨.hbm, 205, rfl⟩
abbrev main_v151 : Ref sig .tc := ⟨.hbm, 206, rfl⟩
abbrev main_cst_52 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_cst_53 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_cst_54 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_cst_55 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_cst_56 : Ref sig .tc := ⟨.hbm, 225, rfl⟩
abbrev main_v166 : Ref sig .tc := ⟨.hbm, 226, rfl⟩
abbrev main_v167 : Ref sig .tc := ⟨.hbm, 227, rfl⟩

abbrev nD : Nat := 1
abbrev τ : Topo := Topo.v7x

variable {F : FTy → Type} [FloatOps F]

class Facts₀ : Prop where
  shapeCasts_S4000000x1_S4000000 : S4000000x1.ShapeCasts S4000000
  slices_S4000000x6_S4000000x1_0_0 : S4000000x6.Slices ![0, 0] S4000000x1
  reducesTo_S4000000_S_d0 : S4000000.ReducesTo [0] S_
  h_S_ : 0 < S_.numel
  bcast_S_S4000000 : S_.BroadcastsInDim S4000000 (![] : Fin 0 → Fin S4000000.rank)
  slices_S4000000x6_S4000000x1_0_1 : S4000000x6.Slices ![0, 1] S4000000x1
  slices_S4000000x6_S4000000x1_0_2 : S4000000x6.Slices ![0, 2] S4000000x1
  slices_S4000000x6_S4000000x1_0_3 : S4000000x6.Slices ![0, 3] S4000000x1
  slices_S4000000x6_S4000000x1_0_4 : S4000000x6.Slices ![0, 4] S4000000x1
  slices_S4000000x6_S4000000x1_0_5 : S4000000x6.Slices ![0, 5] S4000000x1
  bcast_S4000000x1_S4000000x6_0_1 : S4000000x1.BroadcastsInDim S4000000x6 (![0, 1] : Fin 2 → Fin S4000000x6.rank)
  bcast_S_S4000000x6 : S_.BroadcastsInDim S4000000x6 (![] : Fin 0 → Fin S4000000x6.rank)
  slices_S4000000x6_S4000000x5_0_0 : S4000000x6.Slices ![0, 0] S4000000x5
  bcast_S_S4000000x5 : S_.BroadcastsInDim S4000000x5 (![] : Fin 0 → Fin S4000000x5.rank)
  bcast_S_S4000000x1 : S_.BroadcastsInDim S4000000x1 (![] : Fin 0 → Fin S4000000x1.rank)
  concatenates_S4000000x5_S4000000x1_S4000000x6_d1 : Shape.Concatenates [S4000000x5, S4000000x1] S4000000x6 1
  reducesTo_S4000000x6_S4000000_d1 : S4000000x6.ReducesTo [1] S4000000

variable [Facts₀]

class Facts : Prop extends Facts₀ where

variable [Facts]
-- ==== Proof.K.Base.lean ====
/-
  The program around its one pipelined region: two host lines before it (the transpose of the predictions and the
  reshape of the labels), the region, and the host lines after it that turn the array of partial sums into the loss.
  Stated here: the memory the region is entered with, that the later lines allocate nothing, touch only unscoped
  buffers and write neither an array of the pipeline nor an argument, each window's block at a grid point, and the
  one branch of the body — taken exactly at the first of each half's twenty-five steps.
-/
import proofs.«168857_j4097398800619_2_alg».proof.Proof.Gen.Kernel.Launch
import proofs.«168857_j4097398800619_2_alg».proof.Proof.Gen.Kernel.Skeleton
import proofs.«168857_j4097398800619_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384
-- the later host lines are one list of ninety-six operations: every statement over it is a long term
set_option maxHeartbeats 40000000

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffers when the region is entered: the launch memory after the two host lines before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor

/-- The program is the earlier lines, the region, and the later lines as the region's continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

set_option maxHeartbeats 16000000 in
/-- Each later line writes only its own result buffer, which is none of the pipeline's three arrays. -/
theorem hostOps1_keeps : (hostOps1 : List (HloOp τ sig (Elt F))).Forall fun op =>
    ∀ w, Proc.devRef .tc (Pipeline.arrRef spec0 w) ∉ op.writes := by
  simp only [hostOps1, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-- Neither earlier line writes an argument: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 16000000 in
/-- No later line writes the first argument; -/
theorem hostOps1_keeps_arg0 : (hostOps1 : List (HloOp τ sig (Elt F))).Forall fun op => Proc.devRef .tc main_arg0 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 16000000 in
/-- nor the second. -/
theorem hostOps1_keeps_arg1 : (hostOps1 : List (HloOp τ sig (Elt F))).Forall fun op => Proc.devRef .tc main_arg1 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- So both arguments end as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [List.flatten_cons, List.flatten_nil, List.append_nil]; exact hostOps1_keeps_arg0)),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [List.flatten_cons, List.flatten_nil, List.append_nil]; exact hostOps1_keeps_arg1)),
    Pipeline.withArrays_of_ne _ c (V0 m c) _ main_arg1 (by exact (by decide : ∀ w, Pipeline.arrRef spec0 w ≠ main_arg1))]
  exact V_main_arg1 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one branch, from the grid coordinates: the step within the half is the first. -/
abbrev cond0_0 (i : grid0.Coords) : Prop := (Scalar.cmpi .ne (Scalar.extui (Scalar.cmpi .eq (BitVec.ofNat 32 (i 1).val) 0#32)) 0#32) = 1#1
/-- It holds at the points ≡ 0 (mod 25) — decided over the grid's fifty points. -/
theorem hcond0_0 : ∀ t : Fin cfg0.N, cond0_0 (grid0.coords t) ↔ t.val % 25 = 0 :=
  (by decide +kernel : ∀ t : Fin grid0.N, cond0_0 (grid0.coords t) ↔ t.val % 25 = 0)

/-- No window is ever idle. -/
theorem liveAt0_2 : ∀ i, cfg0.idle 2 i = false := fun _ => rfl

/-- Each window's current staging memref at point `t`, spelled as the pipeline passes it, and its wholeness. -/
abbrev ms0_0 (t : Fin cfg0.N) : Memref sig .tc .vmem S6x80000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x80000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)

end Cert.Kernel.Fr

end
-- ==== Proof.K.RunA.lean ====
/-
  The kernel body run once, in the case where its branch is taken (the first step of a half: the accumulator block is zeroed first):
  on whole staging buffers holding the two input blocks and anything in the output block, the body runs to its end, leaves the input
  buffers as they were, and leaves the output buffer with a list of stores written over what it held; the list is found by running the body.
-/
import proofs.«168857_j4097398800619_2_alg».proof.Proof.K.Base

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S6x80000 .f32) (harg2 : arg2.IsWhole) (arg3 : Memref sig .tc .vmem S1x80000 .f32) (harg3 : arg3.IsWhole) (arg4 : Memref sig .tc .vmem S8x128 .f32) (harg4 : arg4.IsWhole) (hc0 : cond0_0 i)
    (x0 : Vec F S6x80000 .f32) (x1 : Vec F S1x80000 .f32) :
    { L2 : List (View.Piece (Elt F) S8x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__reduce_kernel i arg2 harg2 arg3 harg3 arg4 harg4) K } := by
  refine ⟨?_, fun E K => ?run⟩
  case run =>
    simp only [cc0__reduce_kernel_eq_skeleton]; unfold cc0__reduce_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Fr

end
-- ==== Proof.K.RunB.lean ====
/-
  The kernel body run once, in the case where its branch is not taken (a later step of a half: the accumulator block is added to in place):
  on whole staging buffers holding the two input blocks and the running output block, the body runs to its end, leaves the input
  buffers as they were, and leaves the output buffer with a list of stores written over the running contents; the list is found by running the body.
-/
import proofs.«168857_j4097398800619_2_alg».proof.Proof.K.Base

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S6x80000 .f32) (harg2 : arg2.IsWhole) (arg3 : Memref sig .tc .vmem S1x80000 .f32) (harg3 : arg3.IsWhole) (arg4 : Memref sig .tc .vmem S8x128 .f32) (harg4 : arg4.IsWhole) (hc0 : ¬cond0_0 i)
    (x0 : Vec F S6x80000 .f32) (x1 : Vec F S1x80000 .f32) (xo2 : Vec F S8x128 .f32) :
    { L2 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (arg4.view.loc (c : Thread nD τ) ↦[arg4.view.set]{fullShare} arg4.view.writes (Elt F) (harg4.unread xo2) L2)) -∗ K ⟨⟩))
          ⊢ wp frame (wpE (defs₀ (F := F)) Variants.none c none) E (cc0__reduce_kernel i arg2 harg2 arg3 harg3 arg4 harg4) K } := by
  refine ⟨?_, fun E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexact H2

end Cert.Kernel.Fr

end
-- ==== Proof.LibOverlay.lean ====
/-
  A list of stores read back over KNOWN contents.

  A buffer that holds `X` and then receives a list of stores (written last made first) reads, at each index, the payload
  of the latest store whose rectangle holds the index, and `X` where no store reaches. `View.overlayL L X` is that
  function of the stores and `X` alone — no view, no raw contents — and `View.read_writes_eq_overlayL` says a read of
  the stores written over any raw contents `f` is it at `X := read f`. (The library's `View.canon` is the same with junk for
  `X`, which is why it needs the stores to cover; this one needs no cover.) With a store's own-index lemmas
  (`View.overlayL_cons_emb`, `View.overlayL_cons_of_not_mem`) an accumulator updated in place through a few small
  rectangles is read back entry by entry.
-/
import Idealize.ShloMosaic.Lib.Pipeline.FrameBody
import Idealize.ShloMosaic.Lib.Pipeline.Value
import Idealize.ShloMosaic.Lib.WritesUnit

noncomputable section

namespace Idealize.ShloMosaic.View

variable {sig : RefSig} {κ : Kind} {sp : Space} {s : Shape} {e : EltTy} {Val : EltTy → Type}

/-- The contents the stores `L` (last made first) leave over contents that read `X`. -/
def overlayL : List (Piece Val s e) → (s.Idx → Val e) → s.Idx → Val e
  | [], X => X
  | p :: L, X => p.1.overlay (overlayL L X) p.2

@[simp] theorem overlayL_nil (X : s.Idx → Val e) : overlayL ([] : List (Piece Val s e)) X = X := rfl
theorem overlayL_cons (p : Piece Val s e) (L : List (Piece Val s e)) (X : s.Idx → Val e) :
    overlayL (p :: L) X = p.1.overlay (overlayL L X) p.2 := rfl

/-- Under the last store, its payload; -/
theorem overlayL_cons_emb (r : Rect s) (w : r.shape.Idx → Val e) (L : List (Piece Val s e)) (X : s.Idx → Val e) (x : r.shape.Idx) :
    overlayL (⟨r, w⟩ :: L) X (r.emb x) = w x := by
  rw [overlayL_cons]; exact r.overlay_emb _ _ x

/-- off it, what the earlier stores left. -/
theorem overlayL_cons_of_not_mem (p : Piece Val s e) (L : List (Piece Val s e)) (X : s.Idx → Val e) {y : s.Idx}
    (h : y ∉ p.1.set) : overlayL (p :: L) X y = overlayL L X y := by
  rw [overlayL_cons]; exact p.1.overlay_of_not_mem _ _ h

/-- A read of stores written over raw contents `f` is the stores overlaid on what `f` reads, at every index. -/
theorem read_writes_apply_eq_overlayL (v : View sig κ sp s e) (f : v.ty.Contents Val) (y : s.Idx) :
    ∀ L : List (Piece Val s e), v.read Val (v.writes Val f L) y = overlayL L (v.read Val f) y
  | [] => by rw [writes_nil, overlayL_nil]
  | p :: L => by
    by_cases hy : y ∈ p.1.set
    · obtain ⟨r, w⟩ := p
      obtain ⟨x, rfl⟩ : ∃ x, r.emb x = y := r.exists_idx_of_mem hy
      rw [read_writes_cons_emb, overlayL_cons_emb]
    · have hy' : y ∉ Finset.univ.map p.1.emb := by rwa [Rect.map_emb_univ]
      rw [writes_cons, read_slice_write_of_not_mem p.1 _ _ _ hy', overlayL_cons_of_not_mem p L _ hy]
      exact read_writes_apply_eq_overlayL v f y L

theorem read_writes_eq_overlayL (v : View sig κ sp s e) (f : v.ty.Contents Val) (L : List (Piece Val s e)) :
    v.read Val (v.writes Val f L) = overlayL L (v.read Val f) :=
  funext fun y => read_writes_apply_eq_overlayL v f y L

/-! ## Unit-stride rectangles given by offsets and sizes -/

/-- An index at position `x` of the last store's unit-stride rectangle reads that store's payload at `x`; -/
theorem overlayL_cons_unit_of_mem {off size : Fin s.rank → ℕ} (inb : ∀ a, off a + size a ≤ s.size a)
    (w : (Rect.unit off size inb).shape.Idx → Val e) (L : List (Piece Val s e)) (X : s.Idx → Val e) (y : s.Idx)
    (x : (Rect.unit off size inb).shape.Idx) (hx : ∀ a, (y a).val = off a + (x a).val) :
    overlayL ((⟨Rect.unit off size inb, w⟩ : Piece Val s e) :: L) X y = w x := by
  have hy : (Rect.unit off size inb).emb x = y := funext fun a => Fin.ext (by
    show off a + 1 * (x a).val = (y a).val
    rw [hx a, Nat.one_mul])
  rw [← hy]; exact overlayL_cons_emb _ w L X x

/-- an index outside it on some axis reads what the earlier stores left. -/
theorem overlayL_cons_unit_of_not_mem {off size : Fin s.rank → ℕ} (inb : ∀ a, off a + size a ≤ s.size a)
    (w : (Rect.unit off size inb).shape.Idx → Val e) (L : List (Piece Val s e)) (X : s.Idx → Val e) (y : s.Idx)
    (a : Fin s.rank) (ha : (y a).val < off a ∨ off a + size a ≤ (y a).val) :
    overlayL ((⟨Rect.unit off size inb, w⟩ : Piece Val s e) :: L) X y = overlayL L X y := by
  refine overlayL_cons_of_not_mem _ L X ?_
  show y ∉ (Rect.unit off size inb).set
  rw [Rect.mem_set_unit]
  intro hall
  have := hall a
  omega

/-- The same off-rectangle step for the library's `canon`. -/
theorem canon_cons_unit_of_not_mem [∀ e, Nonempty (Val e)] {off size : Fin s.rank → ℕ} (inb : ∀ a, off a + size a ≤ s.size a)
    (w : (Rect.unit off size inb).shape.Idx → Val e) (L : List (Piece Val s e)) (y : s.Idx)
    (a : Fin s.rank) (ha : (y a).val < off a ∨ off a + size a ≤ (y a).val) :
    canon ((⟨Rect.unit off size inb, w⟩ : Piece Val s e) :: L) y = canon L y := by
  refine canon_cons_of_not_mem _ L ?_
  show y ∉ (Rect.unit off size inb).set
  rw [Rect.mem_set_unit]
  intro hall
  have := hall a
  omega

/-- A load through a unit-stride rectangle reads the contents at the offsets plus the position. -/
theorem ld_unit_apply {off size : Fin s.rank → ℕ} (inb : ∀ a, off a + size a ≤ s.size a) (X : s.Idx → Val e)
    (x : (Rect.unit off size inb).shape.Idx) (y : s.Idx) (hx : ∀ a, (y a).val = off a + (x a).val) :
    View.ld X (Rect.unit off size inb) x = X y := by
  have hy : (Rect.unit off size inb).emb x = y := funext fun a => Fin.ext (by
    show off a + 1 * (x a).val = (y a).val
    rw [hx a, Nat.one_mul])
  rw [← hy]; rfl

/-- A store of the whole block followed by other stores leaves those stores overlaid on its payload: what a buffer
    filled first and then updated in places reads, with no cover to check. -/
theorem canon_append_whole [∀ e, Nonempty (Val e)] {off : Fin s.rank → ℕ} (h : off = fun _ => 0)
    (inb : ∀ a, off a + s.size a ≤ s.size a) (Z : s.Idx → Val e) :
    ∀ L : List (Piece Val s e), canon (L ++ [(⟨Rect.unit off s.size inb, Z⟩ : Piece Val s e)]) = overlayL L Z
  | [] => by rw [List.nil_append, overlayL_nil]; exact canon_unit_zero h inb Z
  | p :: L => by rw [List.cons_append, canon_cons, overlayL_cons, canon_append_whole h inb Z L]

end Idealize.ShloMosaic.View

end
-- ==== Proof.K.Frame.lean ====
/-
  The frame of the program: what the accumulator block holds after each grid point, the pipeline's proof data, the
  body's obligation at every point, the run of the whole program, and the frame claim.

  The output window's staging buffer is the accumulator. At the first step of a half the body fills it with zeros and
  then adds this tile's six partial sums into six small rectangles; at every later step it only adds into those
  rectangles, so the block after the step is the step's stores laid over what the step before left (the buffer is
  written back only after a half's last step, so nothing touches it in between).
-/
import proofs.«168857_j4097398800619_2_alg».proof.Proof.K.RunA
import proofs.«168857_j4097398800619_2_alg».proof.Proof.K.RunB
import proofs.«168857_j4097398800619_2_alg».proof.Proof.LibOverlay

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the output window, through which a covering list of stores is read back (the choice does
    not matter). -/
abbrev VO0_2 : View sig .tc .vmem S8x128 .f32 := (Memref.whole cc0_stg2_0 : Memref sig .tc .vmem S8x128 .f32).view

/-- The first step's stores include a fill of the whole block, so they cover it. -/
theorem cover0_A_2 (c : Dev nD) (i : grid0.Coords) (arg2 : Memref sig .tc .vmem S6x80000 .f32) (harg2 : arg2.IsWhole) (arg3 : Memref sig .tc .vmem S1x80000 .f32) (harg3 : arg3.IsWhole) (arg4 : Memref sig .tc .vmem S8x128 .f32) (harg4 : arg4.IsWhole) (hc0 : cond0_0 i)
    (x0 : Vec F S6x80000 .f32) (x1 : Vec F S1x80000 .f32) (y : S8x128.Idx) :
    ∃ pc ∈ (kernelRun0_A c i arg2 harg2 arg3 harg3 arg4 harg4 hc0 x0 x1).1, y ∈ pc.1.set :=
  View.cover_of_wholeMem _ (by sl_whole_mem) y

/-- What a first step leaves in the accumulator block: its stores read back (they cover the block). -/
def out0_A_2 (c : Dev nD) (i : grid0.Coords) (arg2 : Memref sig .tc .vmem S6x80000 .f32) (harg2 : arg2.IsWhole) (arg3 : Memref sig .tc .vmem S1x80000 .f32) (harg3 : arg3.IsWhole) (arg4 : Memref sig .tc .vmem S8x128 .f32) (harg4 : arg4.IsWhole) (hc0 : cond0_0 i)
    (x0 : Vec F S6x80000 .f32) (x1 : Vec F S1x80000 .f32) : Vec F S8x128 .f32 :=
  VO0_2.read (Elt F) (VO0_2.writes (Elt F) VO0_2.junk (kernelRun0_A c i arg2 harg2 arg3 harg3 arg4 harg4 hc0 x0 x1).1)

/-- What a later step leaves: its stores laid over the running contents `xo2`. -/
def out0_B_2 (c : Dev nD) (i : grid0.Coords) (arg2 : Memref sig .tc .vmem S6x80000 .f32) (harg2 : arg2.IsWhole) (arg3 : Memref sig .tc .vmem S1x80000 .f32) (harg3 : arg3.IsWhole) (arg4 : Memref sig .tc .vmem S8x128 .f32) (harg4 : arg4.IsWhole) (hc0 : ¬cond0_0 i)
    (x0 : Vec F S6x80000 .f32) (x1 : Vec F S1x80000 .f32) (xo2 : Vec F S8x128 .f32) : Vec F S8x128 .f32 :=
  View.overlayL (kernelRun0_B c i arg2 harg2 arg3 harg3 arg4 harg4 hc0 x0 x1 xo2).1 xo2

/-! ## The accumulator after each point -/

/-- What the accumulator block holds after the body at position `n`: a first step's contents, or a later step's over
    what position `n - 1` left. -/
def outsAt0 (c : Dev nD) : (n : ℕ) → n < cfg0.N → Vec F S8x128 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk m c 0 ⟨0, hn⟩) (iblk m c 1 ⟨0, hn⟩)
  | n + 1, hn =>
    if h0 : (n + 1) % 25 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk m c 0 ⟨n + 1, hn⟩) (iblk m c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn))

theorem outsAt0_A (c : Dev nD) (t : Fin cfg0.N) (h0 : t.val % 25 = 0) :
    outsAt0 m c t.val t.isLt = out0_A_2 c (grid0.coords t) (ms0_0 t) (hs0_0 t) (ms0_1 t) (hs0_1 t) (ms0_2 t) (hs0_2 t) ((hcond0_0 t).mpr h0) (iblk m c 0 t) (iblk m c 1 t) := by
  obtain ⟨n, hn⟩ := t
  cases n with
  | zero => exact rfl
  | succ n => exact (dif_pos h0).trans rfl

theorem outsAt0_B (c : Dev nD) (t : Fin cfg0.N) (h0 : ¬t.val % 25 = 0) :
    outsAt0 m c t.val t.isLt = out0_B_2 c (grid0.coords t) (ms0_0 t) (hs0_0 t) (ms0_1 t) (hs0_1 t) (ms0_2 t) (hs0_2 t) (fun h => h0 ((hcond0_0 t).mp h)) (iblk m c 0 t) (iblk m c 1 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block and the accumulator at `outsAt0`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a later step the accumulator's current staging buffer holds what the body left at the point before: the buffer
    is written back only after a half's last step. -/
theorem before0_2_B (c : Dev nD) (t : Fin cfg0.N) (h0 : ¬t.val % 25 = 0) (d) :
    (dats m 0 c).before 2 t d = (outsAt0 m c (t.val - 1) (Nat.lt_of_le_of_lt (Nat.sub_le _ _) t.isLt)) := by
  have hN : t.val < 50 := lt_of_lt_of_eq t.isLt (show cfg0.N = 50 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 4000000 in
/-- The body at any point: the inputs' buffers hold their blocks; the point is a first step or a later one; at a later
    step the accumulator holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hN : t.val < 50 := lt_of_lt_of_eq t.isLt (show cfg0.N = 50 from N_0)
  by_cases h0 : t.val % 25 = 0
  · rw [outsAt0_A m c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B m c t h0]
    simp only [before0_2_B m c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk m c 0 t) (iblk m c 1 t) _).2 Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    unfold owns; iexists _; isplitr
    swap; · iexact H2
    ipureintro
    rw [View.read_writes_eq_overlayL, Memref.IsWhole.read_unread]

theorem body_obligation (c : Dev nD) : BodyObligation (dats (F := F) m 0 c) (defs₀ (F := F)) Variants.none () Set.univ := fun t => by
  rw [bigSep_W0, bigSep_W0]
  exact sound_body m c t

/-! ## The run and the frame -/

-- the later host lines are one list of ninety-six operations: every statement over it is a long term
set_option maxHeartbeats 40000000

set_option backward.isDefEq.respectTransparency.types false in
/-- Every weakly fair execution of the program terminates; every final state has each array of the pipeline at what the
    proof data gives and every other unscoped buffer as the later host lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The arguments are unscoped buffers that are no array of the pipeline. -/
theorem arg0_rest : main_arg0 ∈ Pipeline.restRefs sig (cfgs 0).spec := Pipeline.mem_restRefs_of main_arg0 rfl (by decide)
theorem arg1_rest : main_arg1 ∈ Pipeline.restRefs sig (cfgs 0).spec := Pipeline.mem_restRefs_of main_arg1 rfl (by decide)
theorem v87_rest : main_v87 ∈ Pipeline.restRefs sig (cfgs 0).spec := Pipeline.mem_restRefs_of main_v87 rfl (by decide)

/-- THE FRAME: the program runs to its end without a fault and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 arg0_rest).trans (W_main_arg0 m (dats m) c),
    ((h c).2 main_arg1 arg1_rest).trans (W_main_arg1 m (dats m) c)⟩) (run_main m ρ)

end Cert.Kernel.Fr

end
-- ==== Proof.KI.Base.lean ====
/-
  The program around its one pipelined region: two host lines before it (the transpose of the predictions and the
  reshape of the labels), the region, and the host lines after it that turn the array of partial sums into the loss.
  Stated here: the memory the region is entered with, that the later lines allocate nothing, touch only unscoped
  buffers and write neither an array of the pipeline nor an argument, each window's block at a grid point, and the
  one branch of the body — taken exactly at the first of each half's twenty-five steps.
-/
import proofs.«168857_j4097398800619_2_alg».proof.Proof.Gen.KernelIdeal.Launch
import proofs.«168857_j4097398800619_2_alg».proof.Proof.Gen.KernelIdeal.Skeleton
import proofs.«168857_j4097398800619_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384
-- the later host lines are one list of ninety-six operations: every statement over it is a long term
set_option maxHeartbeats 40000000

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffers when the region is entered: the launch memory after the two host lines before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor

/-- The program is the earlier lines, the region, and the later lines as the region's continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

set_option maxHeartbeats 16000000 in
/-- Each later line writes only its own result buffer, which is none of the pipeline's three arrays. -/
theorem hostOps1_keeps : (hostOps1 : List (HloOp τ sig (Elt F))).Forall fun op =>
    ∀ w, Proc.devRef .tc (Pipeline.arrRef spec0 w) ∉ op.writes := by
  simp only [hostOps1, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-- Neither earlier line writes an argument: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 16000000 in
/-- No later line writes the first argument; -/
theorem hostOps1_keeps_arg0 : (hostOps1 : List (HloOp τ sig (Elt F))).Forall fun op => Proc.devRef .tc main_arg0 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 16000000 in
/-- nor the second. -/
theorem hostOps1_keeps_arg1 : (hostOps1 : List (HloOp τ sig (Elt F))).Forall fun op => Proc.devRef .tc main_arg1 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- So both arguments end as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [List.flatten_cons, List.flatten_nil, List.append_nil]; exact hostOps1_keeps_arg0)),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [List.flatten_cons, List.flatten_nil, List.append_nil]; exact hostOps1_keeps_arg1)),
    Pipeline.withArrays_of_ne _ c (V0 m c) _ main_arg1 (by exact (by decide : ∀ w, Pipeline.arrRef spec0 w ≠ main_arg1))]
  exact V_main_arg1 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one branch, from the grid coordinates: the step within the half is the first. -/
abbrev cond0_0 (i : grid0.Coords) : Prop := (Scalar.cmpi .ne (Scalar.extui (Scalar.cmpi .eq (BitVec.ofNat 32 (i 1).val) 0#32)) 0#32) = 1#1
/-- It holds at the points ≡ 0 (mod 25) — decided over the grid's fifty points. -/
theorem hcond0_0 : ∀ t : Fin cfg0.N, cond0_0 (grid0.coords t) ↔ t.val % 25 = 0 :=
  (by decide +kernel : ∀ t : Fin grid0.N, cond0_0 (grid0.coords t) ↔ t.val % 25 = 0)

/-- No window is ever idle. -/
theorem liveAt0_2 : ∀ i, cfg0.idle 2 i = false := fun _ => rfl

/-- Each window's current staging memref at point `t`, spelled as the pipeline passes it, and its wholeness. -/
abbrev ms0_0 (t : Fin cfg0.N) : Memref sig .tc .vmem S6x80000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x80000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)

end Cert.KernelIdeal.Fr

end
-- ==== Proof.KI.RunA.lean ====
/-
  The kernel body run once, in the case where its branch is taken (the first step of a half: the accumulator block is zeroed first):
  on whole staging buffers holding the two input blocks and anything in the output block, the body runs to its end, leaves the input
  buffers as they were, and leaves the output buffer with a list of stores written over what it held; the list is found by running the body.
-/
import proofs.«168857_j4097398800619_2_alg».proof.Proof.KI.Base

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S6x80000 .f32) (harg2 : arg2.IsWhole) (arg3 : Memref sig .tc .vmem S1x80000 .f32) (harg3 : arg3.IsWhole) (arg4 : Memref sig .tc .vmem S8x128 .f32) (harg4 : arg4.IsWhole) (hc0 : cond0_0 i)
    (x0 : Vec F S6x80000 .f32) (x1 : Vec F S1x80000 .f32) :
    { L2 : List (View.Piece (Elt F) S8x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__reduce_kernel i arg2 harg2 arg3 harg3 arg4 harg4) K } := by
  refine ⟨?_, fun E K => ?run⟩
  case run =>
    simp only [cc0__reduce_kernel_eq_skeleton]; unfold cc0__reduce_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Fr

end
-- ==== Proof.KI.RunB.lean ====
/-
  The kernel body run once, in the case where its branch is not taken (a later step of a half: the accumulator block is added to in place):
  on whole staging buffers holding the two input blocks and the running output block, the body runs to its end, leaves the input
  buffers as they were, and leaves the output buffer with a list of stores written over the running contents; the list is found by running the body.
-/
import proofs.«168857_j4097398800619_2_alg».proof.Proof.KI.Base

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S6x80000 .f32) (harg2 : arg2.IsWhole) (arg3 : Memref sig .tc .vmem S1x80000 .f32) (harg3 : arg3.IsWhole) (arg4 : Memref sig .tc .vmem S8x128 .f32) (harg4 : arg4.IsWhole) (hc0 : ¬cond0_0 i)
    (x0 : Vec F S6x80000 .f32) (x1 : Vec F S1x80000 .f32) (xo2 : Vec F S8x128 .f32) :
    { L2 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (arg4.view.loc (c : Thread nD τ) ↦[arg4.view.set]{fullShare} arg4.view.writes (Elt F) (harg4.unread xo2) L2)) -∗ K ⟨⟩))
          ⊢ wp frame (wpE (defs₀ (F := F)) Variants.none c none) E (cc0__reduce_kernel i arg2 harg2 arg3 harg3 arg4 harg4) K } := by
  refine ⟨?_, fun E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexact H2

end Cert.KernelIdeal.Fr

end
-- ==== Proof.KI.Frame.lean ====
/-
  The frame of the program: what the accumulator block holds after each grid point, the pipeline's proof data, the
  body's obligation at every point, the run of the whole program, and the frame claim.

  The output window's staging buffer is the accumulator. At the first step of a half the body fills it with zeros and
  then adds this tile's six partial sums into six small rectangles; at every later step it only adds into those
  rectangles, so the block after the step is the step's stores laid over what the step before left (the buffer is
  written back only after a half's last step, so nothing touches it in between).
-/
import proofs.«168857_j4097398800619_2_alg».proof.Proof.KI.RunA
import proofs.«168857_j4097398800619_2_alg».proof.Proof.KI.RunB
import proofs.«168857_j4097398800619_2_alg».proof.Proof.LibOverlay

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the output window, through which a covering list of stores is read back (the choice does
    not matter). -/
abbrev VO0_2 : View sig .tc .vmem S8x128 .f32 := (Memref.whole cc0_stg2_0 : Memref sig .tc .vmem S8x128 .f32).view

/-- The first step's stores include a fill of the whole block, so they cover it. -/
theorem cover0_A_2 (c : Dev nD) (i : grid0.Coords) (arg2 : Memref sig .tc .vmem S6x80000 .f32) (harg2 : arg2.IsWhole) (arg3 : Memref sig .tc .vmem S1x80000 .f32) (harg3 : arg3.IsWhole) (arg4 : Memref sig .tc .vmem S8x128 .f32) (harg4 : arg4.IsWhole) (hc0 : cond0_0 i)
    (x0 : Vec F S6x80000 .f32) (x1 : Vec F S1x80000 .f32) (y : S8x128.Idx) :
    ∃ pc ∈ (kernelRun0_A c i arg2 harg2 arg3 harg3 arg4 harg4 hc0 x0 x1).1, y ∈ pc.1.set :=
  View.cover_of_wholeMem _ (by sl_whole_mem) y

/-- What a first step leaves in the accumulator block: its stores read back (they cover the block). -/
def out0_A_2 (c : Dev nD) (i : grid0.Coords) (arg2 : Memref sig .tc .vmem S6x80000 .f32) (harg2 : arg2.IsWhole) (arg3 : Memref sig .tc .vmem S1x80000 .f32) (harg3 : arg3.IsWhole) (arg4 : Memref sig .tc .vmem S8x128 .f32) (harg4 : arg4.IsWhole) (hc0 : cond0_0 i)
    (x0 : Vec F S6x80000 .f32) (x1 : Vec F S1x80000 .f32) : Vec F S8x128 .f32 :=
  VO0_2.read (Elt F) (VO0_2.writes (Elt F) VO0_2.junk (kernelRun0_A c i arg2 harg2 arg3 harg3 arg4 harg4 hc0 x0 x1).1)

/-- What a later step leaves: its stores laid over the running contents `xo2`. -/
def out0_B_2 (c : Dev nD) (i : grid0.Coords) (arg2 : Memref sig .tc .vmem S6x80000 .f32) (harg2 : arg2.IsWhole) (arg3 : Memref sig .tc .vmem S1x80000 .f32) (harg3 : arg3.IsWhole) (arg4 : Memref sig .tc .vmem S8x128 .f32) (harg4 : arg4.IsWhole) (hc0 : ¬cond0_0 i)
    (x0 : Vec F S6x80000 .f32) (x1 : Vec F S1x80000 .f32) (xo2 : Vec F S8x128 .f32) : Vec F S8x128 .f32 :=
  View.overlayL (kernelRun0_B c i arg2 harg2 arg3 harg3 arg4 harg4 hc0 x0 x1 xo2).1 xo2

/-! ## The accumulator after each point -/

/-- What the accumulator block holds after the body at position `n`: a first step's contents, or a later step's over
    what position `n - 1` left. -/
def outsAt0 (c : Dev nD) : (n : ℕ) → n < cfg0.N → Vec F S8x128 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk m c 0 ⟨0, hn⟩) (iblk m c 1 ⟨0, hn⟩)
  | n + 1, hn =>
    if h0 : (n + 1) % 25 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk m c 0 ⟨n + 1, hn⟩) (iblk m c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn))

theorem outsAt0_A (c : Dev nD) (t : Fin cfg0.N) (h0 : t.val % 25 = 0) :
    outsAt0 m c t.val t.isLt = out0_A_2 c (grid0.coords t) (ms0_0 t) (hs0_0 t) (ms0_1 t) (hs0_1 t) (ms0_2 t) (hs0_2 t) ((hcond0_0 t).mpr h0) (iblk m c 0 t) (iblk m c 1 t) := by
  obtain ⟨n, hn⟩ := t
  cases n with
  | zero => exact rfl
  | succ n => exact (dif_pos h0).trans rfl

theorem outsAt0_B (c : Dev nD) (t : Fin cfg0.N) (h0 : ¬t.val % 25 = 0) :
    outsAt0 m c t.val t.isLt = out0_B_2 c (grid0.coords t) (ms0_0 t) (hs0_0 t) (ms0_1 t) (hs0_1 t) (ms0_2 t) (hs0_2 t) (fun h => h0 ((hcond0_0 t).mp h)) (iblk m c 0 t) (iblk m c 1 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block and the accumulator at `outsAt0`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a later step the accumulator's current staging buffer holds what the body left at the point before: the buffer
    is written back only after a half's last step. -/
theorem before0_2_B (c : Dev nD) (t : Fin cfg0.N) (h0 : ¬t.val % 25 = 0) (d) :
    (dats m 0 c).before 2 t d = (outsAt0 m c (t.val - 1) (Nat.lt_of_le_of_lt (Nat.sub_le _ _) t.isLt)) := by
  have hN : t.val < 50 := lt_of_lt_of_eq t.isLt (show cfg0.N = 50 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 4000000 in
/-- The body at any point: the inputs' buffers hold their blocks; the point is a first step or a later one; at a later
    step the accumulator holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hN : t.val < 50 := lt_of_lt_of_eq t.isLt (show cfg0.N = 50 from N_0)
  by_cases h0 : t.val % 25 = 0
  · rw [outsAt0_A m c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B m c t h0]
    simp only [before0_2_B m c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk m c 0 t) (iblk m c 1 t) _).2 Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    unfold owns; iexists _; isplitr
    swap; · iexact H2
    ipureintro
    rw [View.read_writes_eq_overlayL, Memref.IsWhole.read_unread]

theorem body_obligation (c : Dev nD) : BodyObligation (dats (F := F) m 0 c) (defs₀ (F := F)) Variants.none () Set.univ := fun t => by
  rw [bigSep_W0, bigSep_W0]
  exact sound_body m c t

/-! ## The run and the frame -/

-- the later host lines are one list of ninety-six operations: every statement over it is a long term
set_option maxHeartbeats 40000000

set_option backward.isDefEq.respectTransparency.types false in
/-- Every weakly fair execution of the program terminates; every final state has each array of the pipeline at what the
    proof data gives and every other unscoped buffer as the later host lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The arguments are unscoped buffers that are no array of the pipeline. -/
theorem arg0_rest : main_arg0 ∈ Pipeline.restRefs sig (cfgs 0).spec := Pipeline.mem_restRefs_of main_arg0 rfl (by decide)
theorem arg1_rest : main_arg1 ∈ Pipeline.restRefs sig (cfgs 0).spec := Pipeline.mem_restRefs_of main_arg1 rfl (by decide)
theorem v87_rest : main_v87 ∈ Pipeline.restRefs sig (cfgs 0).spec := Pipeline.mem_restRefs_of main_v87 rfl (by decide)

/-- THE FRAME: the program runs to its end without a fault and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 arg0_rest).trans (W_main_arg0 m (dats m) c),
    ((h c).2 main_arg1 arg1_rest).trans (W_main_arg1 m (dats m) c)⟩) (run_main m ρ)

end Cert.KernelIdeal.Fr

end
-- ==== Proof.Spec.lean ====
/-
  The two losses as functions of the argument arrays, on the extended reals.

  Both programs compute, from predictions `X n r` (4,000,000 samples, six heads) and labels `Y n`,
  `mean_n Σ_r huber(X n r - Y n) · weight_r(X n r - Y n)  +  penalty(p₀ … p₄)  +  (1 - p₅)`,
  where `p_r` is the Pearson correlation of head `r` with the labels. They differ in how `p_r` is
  reached: one from raw moments (`Σxy - Σx·Σy/N`, …) summed tile by tile — two halves of twenty-five
  tiles of 80,000 samples —, the other from centred sums (`Σ(x - x̄)(y - ȳ)`, …) over all samples.
  This module only states the two functions; that they agree on real inputs is proved elsewhere.
-/
import Idealize.ShloMosaic.PureOps.Ideal
import Idealize.ShloMosaic.Lib.ValueIdx

noncomputable section

namespace Cert.Spec

open Idealize.ShloMosaic
open scoped BigOperators

/-- The float words the two programs share, read as extended reals: 4,000,000; 1; 2; 4; 0.2 (as the
    nearest single-precision number); 5. -/
def cN : EReal := Ideal.ofBits .f32 0x4A742400#32
def c1 : EReal := Ideal.ofBits .f32 0x3F800000#32
def c2 : EReal := Ideal.ofBits .f32 0x40000000#32
def c4 : EReal := Ideal.ofBits .f32 0x40800000#32
def cFifth : EReal := Ideal.ofBits .f32 0x3E4CCCCD#32
def c5 : EReal := Ideal.ofBits .f32 0x40A00000#32

/-- The pseudo-Huber term of a residual `d`: `4 · (√(1 + (d/2)²) - 1)`. -/
def hub (d : EReal) : EReal :=
  c4 * (Ideal.sqrt (c1 + Ideal.div d c2 * Ideal.div d c2) - c1)

/-- The weight of head `r` at residual `d`: `0.2 · tanh² d` for the first five heads, `1` for the last. -/
def weight (r : Fin 6) (d : EReal) : EReal :=
  if r.val < 5 then cFifth * (Ideal.tanh d * Ideal.tanh d) else c1

/-- One sample's, one head's weighted term. -/
def term (X : Fin 4000000 → Fin 6 → EReal) (Y : Fin 4000000 → EReal) (n : Fin 4000000) (r : Fin 6) : EReal :=
  hub (X n r - Y n) * weight r (X n r - Y n)

/-- A correlation from a covariance and two variances (all three un-normalised sums). -/
def corr (cov vx vy : EReal) : EReal := Ideal.div cov (Ideal.sqrt vx * Ideal.sqrt vy)

/-- The loss from the six correlations and the mean weighted Huber term. -/
def combine (p : Fin 6 → EReal) (h : EReal) : EReal :=
  (h + Ideal.div
        ((c1 - p 0) * (c1 - p 0) + (c1 - p 1) * (c1 - p 1) + (c1 - p 2) * (c1 - p 2)
          + (c1 - p 3) * (c1 - p 3) + (c1 - p 4) * (c1 - p 4))
        (c5 - p 0 - p 1 - p 2 - p 3 - p 4))
    + (c1 - p 5)

/-- Sample number `(25 c + i) · 80000 + j`: sample `j` of tile `i` of half `c`. -/
def tileIdx (c : Fin 2) (i : Fin 25) (j : Fin 80000) : Fin 4000000 :=
  ⟨(c.val * 25 + i.val) * 80000 + j.val, by have := c.isLt; have := i.isLt; have := j.isLt; omega⟩

/-- One half's sum of `f`: tile by tile. -/
def halfSum (f : Fin 4000000 → EReal) (c : Fin 2) : EReal :=
  ∑ i : Fin 25, ∑ j : Fin 80000, f (tileIdx c i j)

/-- The sum of `f` over all samples as the tiled program reaches it: the first half's plus the second's. -/
def tsum (f : Fin 4000000 → EReal) : EReal := halfSum f 0 + halfSum f 1

/-- The loss from raw moments summed tile by tile. -/
def tiledLoss (X : Fin 4000000 → Fin 6 → EReal) (Y : Fin 4000000 → EReal) : EReal :=
  combine
    (fun r => corr
      (tsum (fun n => X n r * Y n) - Ideal.div (tsum (fun n => X n r) * tsum Y) cN)
      (tsum (fun n => X n r * X n r) - Ideal.div (tsum (fun n => X n r) * tsum (fun n => X n r)) cN)
      (tsum (fun n => Y n * Y n) - Ideal.div (tsum Y * tsum Y) cN))
    (Ideal.div (tsum (fun n => ∑ r : Fin 6, term X Y n r)) cN)

/-- The mean of head `r`, and of the labels. -/
def meanX (X : Fin 4000000 → Fin 6 → EReal) (r : Fin 6) : EReal := Ideal.div (∑ n : Fin 4000000, X n r) cN
def meanY (Y : Fin 4000000 → EReal) : EReal := Ideal.div (∑ n : Fin 4000000, Y n) cN

/-- The loss from centred sums over all samples. -/
def centredLoss (X : Fin 4000000 → Fin 6 → EReal) (Y : Fin 4000000 → EReal) : EReal :=
  combine
    (fun r => corr
      (∑ n : Fin 4000000, (X n r - meanX X r) * (Y n - meanY Y))
      (∑ n : Fin 4000000, (X n r - meanX X r) * (X n r - meanX X r))
      (∑ n : Fin 4000000, (Y n - meanY Y) * (Y n - meanY Y)))
    (Ideal.div (∑ n : Fin 4000000, ∑ r : Fin 6, term X Y n r) cN)

/-- The loss as the tiled program's host lines compute it from its 16×128 array of partial sums `S`: rows 0–7 are the
    first half's, rows 8–15 the second's; column 0 holds Σx per head, column 1 Σx², column 2 Σxy, and in the half's
    first row columns 3, 4, 5 hold Σy, Σy² and the weighted Huber sum. -/
def statLoss (S : (⟨2, ![16, 128]⟩ : Shape).Idx → EReal) : EReal :=
  let at2 (r : Fin 6) (k : Fin 128) : EReal :=
    S (ValueIdx.ix2 (⟨r.val, by have := r.isLt; omega⟩ : Fin 16) k) + S (ValueIdx.ix2 (⟨8 + r.val, by have := r.isLt; omega⟩ : Fin 16) k)
  let sy : EReal := at2 0 3
  let syy : EReal := at2 0 4
  let sh : EReal := at2 0 5
  combine
    (fun r => corr
      (at2 r 2 - Ideal.div (at2 r 0 * sy) cN)
      (at2 r 1 - Ideal.div (at2 r 0 * at2 r 0) cN)
      (syy - Ideal.div (sy * sy) cN))
    (Ideal.div sh cN)

/-- The argument arrays as families over sample and head. -/
def Xof (a : (⟨2, ![4000000, 6]⟩ : Shape).Idx → EReal) : Fin 4000000 → Fin 6 → EReal :=
  fun n r => a (ValueIdx.ix2 n r)
def Yof (b : (⟨2, ![4000000, 1]⟩ : Shape).Idx → EReal) : Fin 4000000 → EReal :=
  fun n => b (ValueIdx.ix2 n (0 : Fin 1))

end Cert.Spec

end
-- ==== Proof.LibKeepdims.lean ====
/-
  Two layout operations read at an index given by coordinates, for a row reduction that keeps its axis
  (`sum(..., axis=-1, keepdims=True)`): the reduced vector `[a]` is first viewed as a column `[a, 1]`, and the column is
  then broadcast along the second axis to `[a, b]`. At `(p, c)` both read the vector's entry `p`: a row-major position in
  `[a, 1]` is the row number itself, and a broadcast reads coordinate `0` on the operand's unit axis whatever `c` is.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit coordinate `u`:
    the row-major position of `(p, u)` in `[a, 1]` is `p · 1 + u = p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry `p`: the first axis is kept (also when
    `a = 1`, where the only row is row `0`), the second is the operand's unit axis and reads `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibRowReduce.lean ====
/-
  Row reductions of a matrix and a scalar broadcast, read at an index given by coordinates, at the exact values.

  A `vector.multi_reduction` along axis `1` of an `[a, b]` array, read at row `p`: for `<add>` from the zero word the sum
  over the row's `b` entries; for `<maximumf>` from the word of `-∞` the fold of `max` over them, in any order. Both are
  stated with the accumulator hypothesis as the printed programs carry it (an equation between two copies of the same
  word), so that they apply to a printed reduction as it stands. A `[1, 1]` array broadcast to `[a, b]` reads its one
  entry everywhere. Generic in `a` and `b`.
-/
import Idealize.ShloMosaic.Lib.Pipeline.Value
import Idealize.ShloMosaic.Lib.ValueIdx
import Idealize.ShloMosaic.PureOps.Ideal.Laws

namespace Idealize.ShloMosaic.ValueIdx

open Idealize.ShloMosaic

/-- A `[1, 1]` array broadcast to `[a, b]` reads, at every `(p, c)`, its one entry: both axes of the operand are unit
    axes and read coordinate `0`. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) :=
  broadcastTo_apply v h (ix2 p c) (ix2 (0 : Fin 1) (0 : Fin 1)) fun ax => by
    match ax with
    | ⟨0, _⟩ => rfl
    | ⟨1, _⟩ => rfl

/-- The sum along the rows of an `[a, b]` array of exact values, at row `p`: the sum over the row's `b` entries (the
    reduced index with the coordinate `t` put back on axis `1` is `(p, t)`). -/
theorem multiReduction_add_row {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ t : Fin b, src (ix2 p t) := by
  refine (Ideal.multiReduction_add_single src 0x00000000#32 h hφ hacc (ix1 p)).trans ?_
  exact Finset.sum_congr rfl fun t _ => congrArg src (funext fun c => Fin.ext (by
    match c with
    | ⟨0, _⟩ => rfl
    | ⟨1, _⟩ => rfl))

/-- The maximum along the rows of an `[a, b]` array of exact values, at row `p`: the fold of `max` over the row's `b`
    entries, started from what the word of `-∞` denotes. -/
theorem multiReduction_maximumf_row {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun t => src (ix2 p t)) := by
  refine (Ideal.multiReduction_maximumf_single src 0xFF800000#32 h hφ hacc (ix1 p)).trans ?_
  refine congrArg ((Finset.univ : Finset (Fin b)).fold max (Ideal.ofBits .f32 0xFF800000#32)) (funext fun t => ?_)
  exact congrArg src (funext fun c => Fin.ext (by
    match c with
    | ⟨0, _⟩ => rfl
    | ⟨1, _⟩ => rfl))

end Idealize.ShloMosaic.ValueIdx
-- ==== Proof.KPay.lean ====
/-
  The tile kernel's stored values read at an index, on the extended reals.

  One tile is a 6 × 80000 block `x` (six heads) and a 1 × 80000 block `y` (the labels). The kernel forms five
  row sums — Σx, Σx², Σxy per head, Σy and Σy² — each as a lane reduction along axis 1 kept as a column, and one
  scalar: the weighted pseudo-Huber terms summed first over the six heads (axis 0) and then over the 80000
  samples (axis 1). Each is added to the value loaded from the accumulator array. This module reads each of those
  stored values at its index as the plain finite sum it is.
-/
import proofs.«168857_j4097398800619_2_alg».proof.Proof.Gen.KernelIdeal.Skeleton
import proofs.«168857_j4097398800619_2_alg».proof.Proof.Spec
import proofs.«168857_j4097398800619_2_alg».proof.Proof.LibKeepdims
import proofs.«168857_j4097398800619_2_alg».proof.Proof.LibRowReduce
import Idealize.ShloMosaic.Lib.ValueLayout

noncomputable section

namespace Cert.KernelIdeal.KVal

open Idealize.ShloMosaic Idealize.ShloMosaic.ValueIdx
open scoped BigOperators

/-- The sum along the columns of an `[a, b]` array of exact values, at column `q`: the sum over the column's `a`
    entries (the reduced index with the coordinate `t` put back on axis `0` is `(t, q)`). -/
theorem multiReduction_add_col {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ src 0x00000000#32 h hφ hacc (ix1 q) = ∑ t : Fin a, src (ix2 t q) := by
  refine (Ideal.multiReduction_add_single src 0x00000000#32 h hφ hacc (ix1 q)).trans ?_
  exact Finset.sum_congr rfl fun t _ => congrArg src (funext fun c => Fin.ext (by
    match c with
    | ⟨0, _⟩ => rfl
    | ⟨1, _⟩ => rfl))

/-- The zero splat the accumulator array is initialised with reads `0` everywhere. -/
theorem pay1_apply (i : S8x128.Idx) : Gen.k0_pay1 (F := Ideal) i = 0 := by
  show Ideal.ofBits .f32 0x00000000#32 = 0
  exact Ideal.ofBits_zero_f32

/-- Σx of head `r` over the tile. -/
theorem pay5_apply (v3 : Vec Ideal S6x80000 .f32) (r : Fin 6) :
    Gen.k0_pay5 (F := Ideal) v3 (ix2 r (0 : Fin 1)) = ∑ j : Fin 80000, v3 (ix2 r j) := by
  simp only [Gen.k0_pay5, Gen.k0_pay2, shapeCast_self]
  refine (shapeCast_a_a1_apply _ _ r 0).trans ?_
  exact multiReduction_add_row _ _ _ _ r

/-- Σx² of head `r` over the tile. -/
theorem pay6_apply (v3 : Vec Ideal S6x80000 .f32) (r : Fin 6) :
    Gen.k0_pay6 (F := Ideal) v3 (ix2 r (0 : Fin 1)) = ∑ j : Fin 80000, v3 (ix2 r j) * v3 (ix2 r j) := by
  simp only [Gen.k0_pay6, Gen.k0_pay2, shapeCast_self]
  refine (shapeCast_a_a1_apply _ _ r 0).trans ?_
  exact multiReduction_add_row _ _ _ _ r

/-- Σxy of head `r` over the tile: the label row is broadcast over the six heads. -/
theorem pay7_apply (v3 : Vec Ideal S6x80000 .f32) (v5 : Vec Ideal S1x80000 .f32) (r : Fin 6) :
    Gen.k0_pay7 (F := Ideal) v3 v5 (ix2 r (0 : Fin 1)) = ∑ j : Fin 80000, v3 (ix2 r j) * v5 (ix2 (0 : Fin 1) j) := by
  simp only [Gen.k0_pay7, Gen.k0_pay2, Gen.k0_pay3, Gen.k0_pay4, shapeCast_self]
  refine (shapeCast_a_a1_apply _ _ r 0).trans ?_
  refine (multiReduction_add_row _ _ _ _ r).trans ?_
  refine Finset.sum_congr rfl fun j _ => ?_
  rw [mulf_apply, broadcastTo_1b_ab_apply]

/-- Σy over the tile. -/
theorem pay8_apply (v5 : Vec Ideal S1x80000 .f32) :
    Gen.k0_pay8 (F := Ideal) v5 (ix2 (0 : Fin 1) (0 : Fin 1)) = ∑ j : Fin 80000, v5 (ix2 (0 : Fin 1) j) := by
  simp only [Gen.k0_pay8, Gen.k0_pay3, shapeCast_self]
  refine (shapeCast_a_a1_apply _ _ 0 0).trans ?_
  exact multiReduction_add_row _ _ _ _ 0

/-- Σy² over the tile. -/
theorem pay9_apply (v5 : Vec Ideal S1x80000 .f32) :
    Gen.k0_pay9 (F := Ideal) v5 (ix2 (0 : Fin 1) (0 : Fin 1))
      = ∑ j : Fin 80000, v5 (ix2 (0 : Fin 1) j) * v5 (ix2 (0 : Fin 1) j) := by
  simp only [Gen.k0_pay9, Gen.k0_pay3, shapeCast_self]
  refine (shapeCast_a_a1_apply _ _ 0 0).trans ?_
  exact multiReduction_add_row _ _ _ _ 0

/-- Each accumulated column: the loaded value plus the tile's sum, entry by entry. -/
theorem pay14_apply (v10 : FVec Ideal S6x1 .f32) (v47 : Vec Ideal S6x1 .f32) (i : S6x1.Idx) :
    Gen.k0_pay14 (F := Ideal) v10 v47 i = v47 i + v10 i := by
  simp only [Gen.k0_pay14, shapeCast_self]; rfl
theorem pay15_apply (v13 : FVec Ideal S6x1 .f32) (v51 : Vec Ideal S6x1 .f32) (i : S6x1.Idx) :
    Gen.k0_pay15 (F := Ideal) v13 v51 i = v51 i + v13 i := by
  simp only [Gen.k0_pay15, shapeCast_self]; rfl
theorem pay16_apply (v16 : FVec Ideal S6x1 .f32) (v55 : Vec Ideal S6x1 .f32) (i : S6x1.Idx) :
    Gen.k0_pay16 (F := Ideal) v16 v55 i = v55 i + v16 i := by
  simp only [Gen.k0_pay16, shapeCast_self]; rfl
theorem pay17_apply (v18 : FVec Ideal S1x1 .f32) (v59 : Vec Ideal S1x1 .f32) (i : S1x1.Idx) :
    Gen.k0_pay17 (F := Ideal) v18 v59 i = v59 i + v18 i := by
  simp only [Gen.k0_pay17, shapeCast_self]; rfl
theorem pay18_apply (v21 : FVec Ideal S1x1 .f32) (v63 : Vec Ideal S1x1 .f32) (i : S1x1.Idx) :
    Gen.k0_pay18 (F := Ideal) v21 v63 i = v63 i + v21 i := by
  simp only [Gen.k0_pay18, shapeCast_self]; rfl

/-- The row test `r < 5` as the kernel computes it — the row number as a 32-bit word compared, signed, with 5 —
    selects as the `if` on `r`. -/
theorem select_row_lt5 {α : Type} (r : Fin 6) (a b : α) :
    Scalar.select (IntOp.cmpi .slt (BitVec.ofNat 32 r.val) 5#32) a b = if r.val < 5 then a else b := by
  match r with
  | ⟨0, _⟩ => rfl
  | ⟨1, _⟩ => rfl
  | ⟨2, _⟩ => rfl
  | ⟨3, _⟩ => rfl
  | ⟨4, _⟩ => rfl
  | ⟨5, _⟩ => rfl

/-- The residual of head `r` at sample `j`. -/
theorem pay10_apply (v3 : Vec Ideal S6x80000 .f32) (v5 : Vec Ideal S1x80000 .f32) (r : Fin 6) (j : Fin 80000) :
    Gen.k0_pay10 (F := Ideal) v3 v5 (ix2 r j) = v3 (ix2 r j) - v5 (ix2 (0 : Fin 1) j) := by
  simp only [Gen.k0_pay10, Gen.k0_pay2, Gen.k0_pay3, Gen.k0_pay4, shapeCast_self]
  rw [subf_apply, broadcastTo_1b_ab_apply]

/-- The pseudo-Huber term of head `r` at sample `j`. -/
theorem pay11_apply (v3 : Vec Ideal S6x80000 .f32) (v5 : Vec Ideal S1x80000 .f32) (r : Fin 6) (j : Fin 80000) :
    Gen.k0_pay11 (F := Ideal) v3 v5 (ix2 r j) = Spec.hub (v3 (ix2 r j) - v5 (ix2 (0 : Fin 1) j)) := by
  rw [← pay10_apply]
  rfl

/-- The first five heads' weight at sample `j`. -/
theorem pay13_apply (v3 : Vec Ideal S6x80000 .f32) (v5 : Vec Ideal S1x80000 .f32) (r : Fin 6) (j : Fin 80000) :
    Gen.k0_pay13 (F := Ideal) v3 v5 (ix2 r j)
      = Spec.cFifth * (Ideal.tanh (v3 (ix2 r j) - v5 (ix2 (0 : Fin 1) j)) * Ideal.tanh (v3 (ix2 r j) - v5 (ix2 (0 : Fin 1) j))) := by
  rw [← pay10_apply]
  rfl

/-- The row test at `(r, j)`. -/
theorem pay12_apply (r : Fin 6) (j : Fin 80000) :
    Gen.k0_pay12 (ix2 r j) = IntOp.cmpi .slt (BitVec.ofNat 32 r.val) 5#32 := by
  simp only [Gen.k0_pay12]
  rw [show ∀ (x y : IVec S6x80000 32) (i : S6x80000.Idx), cmpi .slt x y i = IntOp.cmpi .slt (x i) (y i) from fun _ _ _ => rfl,
    iota_single_apply, broadcast_apply]

/-- The tile's weighted pseudo-Huber sum, added to the loaded value: the six heads are summed first, then the samples. -/
theorem pay19_apply (v3 : Vec Ideal S6x80000 .f32) (v5 : Vec Ideal S1x80000 .f32) (v67 : Vec Ideal S1x1 .f32) :
    Gen.k0_pay19 (F := Ideal) (Gen.k0_pay11 v3 v5) Gen.k0_pay12 (Gen.k0_pay13 v3 v5) v67 (ix2 (0 : Fin 1) (0 : Fin 1))
      = v67 (ix2 (0 : Fin 1) (0 : Fin 1))
        + ∑ j : Fin 80000, ∑ r : Fin 6,
            Spec.hub (v3 (ix2 r j) - v5 (ix2 (0 : Fin 1) j)) * Spec.weight r (v3 (ix2 r j) - v5 (ix2 (0 : Fin 1) j)) := by
  simp only [Gen.k0_pay19, shapeCast_self]
  rw [addf_apply]
  refine congrArg (v67 (ix2 (0 : Fin 1) (0 : Fin 1)) + ·) ?_
  refine (shapeCast_a_a1_apply _ _ 0 0).trans ?_
  refine (multiReduction_add_row _ _ _ _ 0).trans ?_
  refine Finset.sum_congr rfl fun j _ => ?_
  refine (shapeCast_a_1a_apply _ _ 0 j).trans ?_
  refine (multiReduction_add_col _ _ _ _ j).trans ?_
  refine Finset.sum_congr rfl fun r _ => ?_
  rw [mulf_apply, select_apply, pay11_apply, pay12_apply, pay13_apply, select_row_lt5, broadcast_apply]
  rfl

end Cert.KernelIdeal.KVal

end
-- ==== Proof.KI.Step.lean ====
/-
  One step of the accumulation in closed form. The body makes six stores into the accumulator block: columns 0, 1, 2 of
  rows 0–5 receive what was there plus this tile's Σx, Σx², Σxy per head, and columns 3, 4, 5 of row 0 what was there
  plus Σy, Σy² and the weighted Huber sum. The six rectangles sit in six different columns, so each load of the
  accumulator reads the contents the step started from. A later step starts from the running contents; a first step
  starts from the zero block it has just stored over the whole buffer. Either way the step leaves its six stores laid
  over the contents it started from.
-/
import proofs.«168857_j4097398800619_2_alg».proof.Proof.KI.RunA
import proofs.«168857_j4097398800619_2_alg».proof.Proof.KI.RunB
import proofs.«168857_j4097398800619_2_alg».proof.Proof.LibOverlay
import proofs.«168857_j4097398800619_2_alg».proof.Proof.KPay

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → ℕ) = fun _ => 0 := by funext a; fin_cases a <;> rfl

/-- The step's six stores (last made first) over a block that reads `xo`. -/
def stepPieces (x0 : Vec F S6x80000 .f32) (x1 : Vec F S1x80000 .f32) (xo : Vec F S8x128 .f32) : List (View.Piece (Elt F) S8x128 .f32) :=
  [⟨Rect.unit (s := S8x128) ![0, 5] S1x1.size Facts₀.inb_S8x128_S1x1_0_5,
      k0_pay19 (k0_pay11 x0 x1) k0_pay12 (k0_pay13 x0 x1) (View.ld xo (Rect.unit (s := S8x128) ![0, 5] S1x1.size Facts₀.inb_S8x128_S1x1_0_5))⟩,
   ⟨Rect.unit (s := S8x128) ![0, 4] S1x1.size Facts₀.inb_S8x128_S1x1_0_4,
      k0_pay18 (k0_pay9 x1) (View.ld xo (Rect.unit (s := S8x128) ![0, 4] S1x1.size Facts₀.inb_S8x128_S1x1_0_4))⟩,
   ⟨Rect.unit (s := S8x128) ![0, 3] S1x1.size Facts₀.inb_S8x128_S1x1_0_3,
      k0_pay17 (k0_pay8 x1) (View.ld xo (Rect.unit (s := S8x128) ![0, 3] S1x1.size Facts₀.inb_S8x128_S1x1_0_3))⟩,
   ⟨Rect.unit (s := S8x128) ![0, 2] S6x1.size Facts₀.inb_S8x128_S6x1_0_2,
      k0_pay16 (k0_pay7 x0 x1) (View.ld xo (Rect.unit (s := S8x128) ![0, 2] S6x1.size Facts₀.inb_S8x128_S6x1_0_2))⟩,
   ⟨Rect.unit (s := S8x128) ![0, 1] S6x1.size Facts₀.inb_S8x128_S6x1_0_1,
      k0_pay15 (k0_pay6 x0) (View.ld xo (Rect.unit (s := S8x128) ![0, 1] S6x1.size Facts₀.inb_S8x128_S6x1_0_1))⟩,
   ⟨Rect.unit (s := S8x128) ![0, 0] S6x1.size Facts₀.inb_S8x128_S6x1_0_0,
      k0_pay14 (k0_pay5 x0) (View.ld xo (Rect.unit (s := S8x128) ![0, 0] S6x1.size Facts₀.inb_S8x128_S6x1_0_0))⟩]

/-- What a step leaves over a block that reads `xo`. -/
def stepOut (x0 : Vec F S6x80000 .f32) (x1 : Vec F S1x80000 .f32) (xo : Vec F S8x128 .f32) : Vec F S8x128 .f32 :=
  View.overlayL (stepPieces x0 x1 xo) xo

/-- A later step's run found exactly these stores. -/
theorem piecesB_eq (c : Dev nD) (i : grid0.Coords) (arg2 : Memref sig .tc .vmem S6x80000 .f32) (harg2 : arg2.IsWhole) (arg3 : Memref sig .tc .vmem S1x80000 .f32) (harg3 : arg3.IsWhole) (arg4 : Memref sig .tc .vmem S8x128 .f32) (harg4 : arg4.IsWhole) (hc0 : ¬cond0_0 i)
    (x0 : Vec F S6x80000 .f32) (x1 : Vec F S1x80000 .f32) (xo2 : Vec F S8x128 .f32) :
    (kernelRun0_B c i arg2 harg2 arg3 harg3 arg4 harg4 hc0 x0 x1 xo2).1 = stepPieces x0 x1 xo2 := by
  unfold kernelRun0_B stepPieces
  dsimp only
  sl_unfold_run_names
  simp only [View.readAt_eq_ld, Memref.IsWhole.read_unread, View.ld_unit_zero (S := S6x80000) hz2, View.ld_unit_zero (S := S1x80000) hz2]

/-! ## A first step: each load of the accumulator reads the zero block just stored -/

theorem rc0 (arg4 : Memref sig .tc .vmem S8x128 .f32)  (Z : Vec F S8x128 .f32) :
    arg4.view.readCov [⟨Rect.unit (s := S8x128) ![0, 0] ![8, 128] Facts₀.inb_S8x128_S8x128_0_0, Z⟩]
      (Rect.unit (s := S8x128) ![0, 0] ![6, 1] Facts₀.inb_S8x128_S6x1_0_0).toLoadRect
    = View.ld Z (Rect.unit (s := S8x128) ![0, 0] ![6, 1] Facts₀.inb_S8x128_S6x1_0_0) := by
  rw [View.readCov_eq_canon']
  funext j
  rw [View.canon_unit_zero hz2]

theorem rc1 (arg4 : Memref sig .tc .vmem S8x128 .f32) (w0 : Vec F S6x1 .f32) (Z : Vec F S8x128 .f32) :
    arg4.view.readCov [⟨Rect.unit (s := S8x128) ![0, 0] ![6, 1] Facts₀.inb_S8x128_S6x1_0_0, w0⟩,
        ⟨Rect.unit (s := S8x128) ![0, 0] ![8, 128] Facts₀.inb_S8x128_S8x128_0_0, Z⟩]
      (Rect.unit (s := S8x128) ![0, 1] ![6, 1] Facts₀.inb_S8x128_S6x1_0_1).toLoadRect
    = View.ld Z (Rect.unit (s := S8x128) ![0, 1] ![6, 1] Facts₀.inb_S8x128_S6x1_0_1) := by
  rw [View.readCov_eq_canon']
  funext j
  rw [View.canon_cons_unit_of_not_mem _ _ _ _ (1 : Fin 2) (Or.inr (Nat.le_add_right_of_le (by decide)))]
  rw [View.canon_unit_zero hz2]

theorem rc2 (arg4 : Memref sig .tc .vmem S8x128 .f32) (w0 : Vec F S6x1 .f32) (w1 : Vec F S6x1 .f32) (Z : Vec F S8x128 .f32) :
    arg4.view.readCov [⟨Rect.unit (s := S8x128) ![0, 1] ![6, 1] Facts₀.inb_S8x128_S6x1_0_1, w1⟩,
        ⟨Rect.unit (s := S8x128) ![0, 0] ![6, 1] Facts₀.inb_S8x128_S6x1_0_0, w0⟩,
        ⟨Rect.unit (s := S8x128) ![0, 0] ![8, 128] Facts₀.inb_S8x128_S8x128_0_0, Z⟩]
      (Rect.unit (s := S8x128) ![0, 2] ![6, 1] Facts₀.inb_S8x128_S6x1_0_2).toLoadRect
    = View.ld Z (Rect.unit (s := S8x128) ![0, 2] ![6, 1] Facts₀.inb_S8x128_S6x1_0_2) := by
  rw [View.readCov_eq_canon']
  funext j
  rw [View.canon_cons_unit_of_not_mem _ _ _ _ (1 : Fin 2) (Or.inr (Nat.le_add_right_of_le (by decide)))]
  rw [View.canon_cons_unit_of_not_mem _ _ _ _ (1 : Fin 2) (Or.inr (Nat.le_add_right_of_le (by decide)))]
  rw [View.canon_unit_zero hz2]

theorem rc3 (arg4 : Memref sig .tc .vmem S8x128 .f32) (w0 : Vec F S6x1 .f32) (w1 : Vec F S6x1 .f32) (w2 : Vec F S6x1 .f32) (Z : Vec F S8x128 .f32) :
    arg4.view.readCov [⟨Rect.unit (s := S8x128) ![0, 2] ![6, 1] Facts₀.inb_S8x128_S6x1_0_2, w2⟩,
        ⟨Rect.unit (s := S8x128) ![0, 1] ![6, 1] Facts₀.inb_S8x128_S6x1_0_1, w1⟩,
        ⟨Rect.unit (s := S8x128) ![0, 0] ![6, 1] Facts₀.inb_S8x128_S6x1_0_0, w0⟩,
        ⟨Rect.unit (s := S8x128) ![0, 0] ![8, 128] Facts₀.inb_S8x128_S8x128_0_0, Z⟩]
      (Rect.unit (s := S8x128) ![0, 3] ![1, 1] Facts₀.inb_S8x128_S1x1_0_3).toLoadRect
    = View.ld Z (Rect.unit (s := S8x128) ![0, 3] ![1, 1] Facts₀.inb_S8x128_S1x1_0_3) := by
  rw [View.readCov_eq_canon']
  funext j
  rw [View.canon_cons_unit_of_not_mem _ _ _ _ (1 : Fin 2) (Or.inr (Nat.le_add_right_of_le (by decide)))]
  rw [View.canon_cons_unit_of_not_mem _ _ _ _ (1 : Fin 2) (Or.inr (Nat.le_add_right_of_le (by decide)))]
  rw [View.canon_cons_unit_of_not_mem _ _ _ _ (1 : Fin 2) (Or.inr (Nat.le_add_right_of_le (by decide)))]
  rw [View.canon_unit_zero hz2]

theorem rc4 (arg4 : Memref sig .tc .vmem S8x128 .f32) (w0 : Vec F S6x1 .f32) (w1 : Vec F S6x1 .f32) (w2 : Vec F S6x1 .f32) (w3 : Vec F S1x1 .f32) (Z : Vec F S8x128 .f32) :
    arg4.view.readCov [⟨Rect.unit (s := S8x128) ![0, 3] ![1, 1] Facts₀.inb_S8x128_S1x1_0_3, w3⟩,
        ⟨Rect.unit (s := S8x128) ![0, 2] ![6, 1] Facts₀.inb_S8x128_S6x1_0_2, w2⟩,
        ⟨Rect.unit (s := S8x128) ![0, 1] ![6, 1] Facts₀.inb_S8x128_S6x1_0_1, w1⟩,
        ⟨Rect.unit (s := S8x128) ![0, 0] ![6, 1] Facts₀.inb_S8x128_S6x1_0_0, w0⟩,
        ⟨Rect.unit (s := S8x128) ![0, 0] ![8, 128] Facts₀.inb_S8x128_S8x128_0_0, Z⟩]
      (Rect.unit (s := S8x128) ![0, 4] ![1, 1] Facts₀.inb_S8x128_S1x1_0_4).toLoadRect
    = View.ld Z (Rect.unit (s := S8x128) ![0, 4] ![1, 1] Facts₀.inb_S8x128_S1x1_0_4) := by
  rw [View.readCov_eq_canon']
  funext j
  rw [View.canon_cons_unit_of_not_mem _ _ _ _ (1 : Fin 2) (Or.inr (Nat.le_add_right_of_le (by decide)))]
  rw [View.canon_cons_unit_of_not_mem _ _ _ _ (1 : Fin 2) (Or.inr (Nat.le_add_right_of_le (by decide)))]
  rw [View.canon_cons_unit_of_not_mem _ _ _ _ (1 : Fin 2) (Or.inr (Nat.le_add_right_of_le (by decide)))]
  rw [View.canon_cons_unit_of_not_mem _ _ _ _ (1 : Fin 2) (Or.inr (Nat.le_add_right_of_le (by decide)))]
  rw [View.canon_unit_zero hz2]

theorem rc5 (arg4 : Memref sig .tc .vmem S8x128 .f32) (w0 : Vec F S6x1 .f32) (w1 : Vec F S6x1 .f32) (w2 : Vec F S6x1 .f32) (w3 : Vec F S1x1 .f32) (w4 : Vec F S1x1 .f32) (Z : Vec F S8x128 .f32) :
    arg4.view.readCov [⟨Rect.unit (s := S8x128) ![0, 4] ![1, 1] Facts₀.inb_S8x128_S1x1_0_4, w4⟩,
        ⟨Rect.unit (s := S8x128) ![0, 3] ![1, 1] Facts₀.inb_S8x128_S1x1_0_3, w3⟩,
        ⟨Rect.unit (s := S8x128) ![0, 2] ![6, 1] Facts₀.inb_S8x128_S6x1_0_2, w2⟩,
        ⟨Rect.unit (s := S8x128) ![0, 1] ![6, 1] Facts₀.inb_S8x128_S6x1_0_1, w1⟩,
        ⟨Rect.unit (s := S8x128) ![0, 0] ![6, 1] Facts₀.inb_S8x128_S6x1_0_0, w0⟩,
        ⟨Rect.unit (s := S8x128) ![0, 0] ![8, 128] Facts₀.inb_S8x128_S8x128_0_0, Z⟩]
      (Rect.unit (s := S8x128) ![0, 5] ![1, 1] Facts₀.inb_S8x128_S1x1_0_5).toLoadRect
    = View.ld Z (Rect.unit (s := S8x128) ![0, 5] ![1, 1] Facts₀.inb_S8x128_S1x1_0_5) := by
  rw [View.readCov_eq_canon']
  funext j
  rw [View.canon_cons_unit_of_not_mem _ _ _ _ (1 : Fin 2) (Or.inr (Nat.le_add_right_of_le (by decide)))]
  rw [View.canon_cons_unit_of_not_mem _ _ _ _ (1 : Fin 2) (Or.inr (Nat.le_add_right_of_le (by decide)))]
  rw [View.canon_cons_unit_of_not_mem _ _ _ _ (1 : Fin 2) (Or.inr (Nat.le_add_right_of_le (by decide)))]
  rw [View.canon_cons_unit_of_not_mem _ _ _ _ (1 : Fin 2) (Or.inr (Nat.le_add_right_of_le (by decide)))]
  rw [View.canon_cons_unit_of_not_mem _ _ _ _ (1 : Fin 2) (Or.inr (Nat.le_add_right_of_le (by decide)))]
  rw [View.canon_unit_zero hz2]

/-- A first step's run found the zero fill and then exactly the six stores over the zero block. -/
theorem piecesA_eq (c : Dev nD) (i : grid0.Coords) (arg2 : Memref sig .tc .vmem S6x80000 .f32) (harg2 : arg2.IsWhole) (arg3 : Memref sig .tc .vmem S1x80000 .f32) (harg3 : arg3.IsWhole) (arg4 : Memref sig .tc .vmem S8x128 .f32) (harg4 : arg4.IsWhole) (hc0 : cond0_0 i)
    (x0 : Vec F S6x80000 .f32) (x1 : Vec F S1x80000 .f32) :
    (kernelRun0_A c i arg2 harg2 arg3 harg3 arg4 harg4 hc0 x0 x1).1
      = stepPieces x0 x1 (k0_pay1 (F := F)) ++ [⟨Rect.unit (s := S8x128) ![0, 0] S8x128.size Facts₀.inb_S8x128_S8x128_0_0, k0_pay1 (F := F)⟩] := by
  unfold kernelRun0_A stepPieces
  dsimp only
  sl_unfold_run_names
  simp only [View.readAt_eq_ld, Memref.IsWhole.read_unread, View.ld_unit_zero (S := S6x80000) hz2, View.ld_unit_zero (S := S1x80000) hz2,
    rc0, rc1, rc2, rc3, rc4, rc5, List.cons_append, List.nil_append]

/-! ## The six kinds of entry after a step, on the extended reals -/

section Cells
open Idealize.ShloMosaic.ValueIdx
theorem stepOut_col0 (x0 : Vec Ideal S6x80000 .f32) (x1 : Vec Ideal S1x80000 .f32) (xo : Vec Ideal S8x128 .f32) (r : Fin 6) :
    stepOut (F := Ideal) x0 x1 xo (ix2 (⟨r.val, by have := r.isLt; omega⟩ : Fin 8) (⟨0, by omega⟩ : Fin 128))
      = xo (ix2 (⟨r.val, by have := r.isLt; omega⟩ : Fin 8) (⟨0, by omega⟩ : Fin 128)) + ∑ j : Fin 80000, x0 (ix2 r j) := by
  unfold stepOut stepPieces
  rw [View.overlayL_cons_unit_of_not_mem _ _ _ _ _ (1 : Fin 2) (Or.inl (by show (0 : ℕ) < 5; omega))]
  rw [View.overlayL_cons_unit_of_not_mem _ _ _ _ _ (1 : Fin 2) (Or.inl (by show (0 : ℕ) < 4; omega))]
  rw [View.overlayL_cons_unit_of_not_mem _ _ _ _ _ (1 : Fin 2) (Or.inl (by show (0 : ℕ) < 3; omega))]
  rw [View.overlayL_cons_unit_of_not_mem _ _ _ _ _ (1 : Fin 2) (Or.inl (by show (0 : ℕ) < 2; omega))]
  rw [View.overlayL_cons_unit_of_not_mem _ _ _ _ _ (1 : Fin 2) (Or.inl (by show (0 : ℕ) < 1; omega))]
  rw [View.overlayL_cons_unit_of_mem _ _ _ _ _ (ix2 r (0 : Fin 1)) (fun a => by fin_cases a <;> simp)]
  rw [Cert.KernelIdeal.KVal.pay14_apply, Cert.KernelIdeal.KVal.pay5_apply]
  exact congrArg (· + _) (View.ld_unit_apply (s := S8x128) (off := ![0, 0]) (size := S6x1.size) Facts₀.inb_S8x128_S6x1_0_0 xo (ix2 r (0 : Fin 1)) (ix2 (⟨r.val, by have := r.isLt; omega⟩ : Fin 8) (⟨0, by omega⟩ : Fin 128)) (fun a => by fin_cases a <;> simp))

theorem stepOut_col1 (x0 : Vec Ideal S6x80000 .f32) (x1 : Vec Ideal S1x80000 .f32) (xo : Vec Ideal S8x128 .f32) (r : Fin 6) :
    stepOut (F := Ideal) x0 x1 xo (ix2 (⟨r.val, by have := r.isLt; omega⟩ : Fin 8) (⟨1, by omega⟩ : Fin 128))
      = xo (ix2 (⟨r.val, by have := r.isLt; omega⟩ : Fin 8) (⟨1, by omega⟩ : Fin 128)) + ∑ j : Fin 80000, x0 (ix2 r j) * x0 (ix2 r j) := by
  unfold stepOut stepPieces
  rw [View.overlayL_cons_unit_of_not_mem _ _ _ _ _ (1 : Fin 2) (Or.inl (by show (1 : ℕ) < 5; omega))]
  rw [View.overlayL_cons_unit_of_not_mem _ _ _ _ _ (1 : Fin 2) (Or.inl (by show (1 : ℕ) < 4; omega))]
  rw [View.overlayL_cons_unit_of_not_mem _ _ _ _ _ (1 : Fin 2) (Or.inl (by show (1 : ℕ) < 3; omega))]
  rw [View.overlayL_cons_unit_of_not_mem _ _ _ _ _ (1 : Fin 2) (Or.inl (by show (1 : ℕ) < 2; omega))]
  rw [View.overlayL_cons_unit_of_mem _ _ _ _ _ (ix2 r (0 : Fin 1)) (fun a => by fin_cases a <;> simp)]
  rw [Cert.KernelIdeal.KVal.pay15_apply, Cert.KernelIdeal.KVal.pay6_apply]
  exact congrArg (· + _) (View.ld_unit_apply (s := S8x128) (off := ![0, 1]) (size := S6x1.size) Facts₀.inb_S8x128_S6x1_0_1 xo (ix2 r (0 : Fin 1)) (ix2 (⟨r.val, by have := r.isLt; omega⟩ : Fin 8) (⟨1, by omega⟩ : Fin 128)) (fun a => by fin_cases a <;> simp))

theorem stepOut_col2 (x0 : Vec Ideal S6x80000 .f32) (x1 : Vec Ideal S1x80000 .f32) (xo : Vec Ideal S8x128 .f32) (r : Fin 6) :
    stepOut (F := Ideal) x0 x1 xo (ix2 (⟨r.val, by have := r.isLt; omega⟩ : Fin 8) (⟨2, by omega⟩ : Fin 128))
      = xo (ix2 (⟨r.val, by have := r.isLt; omega⟩ : Fin 8) (⟨2, by omega⟩ : Fin 128)) + ∑ j : Fin 80000, x0 (ix2 r j) * x1 (ix2 (0 : Fin 1) j) := by
  unfold stepOut stepPieces
  rw [View.overlayL_cons_unit_of_not_mem _ _ _ _ _ (1 : Fin 2) (Or.inl (by show (2 : ℕ) < 5; omega))]
  rw [View.overlayL_cons_unit_of_not_mem _ _ _ _ _ (1 : Fin 2) (Or.inl (by show (2 : ℕ) < 4; omega))]
  rw [View.overlayL_cons_unit_of_not_mem _ _ _ _ _ (1 : Fin 2) (Or.inl (by show (2 : ℕ) < 3; omega))]
  rw [View.overlayL_cons_unit_of_mem _ _ _ _ _ (ix2 r (0 : Fin 1)) (fun a => by fin_cases a <;> simp)]
  rw [Cert.KernelIdeal.KVal.pay16_apply, Cert.KernelIdeal.KVal.pay7_apply]
  exact congrArg (· + _) (View.ld_unit_apply (s := S8x128) (off := ![0, 2]) (size := S6x1.size) Facts₀.inb_S8x128_S6x1_0_2 xo (ix2 r (0 : Fin 1)) (ix2 (⟨r.val, by have := r.isLt; omega⟩ : Fin 8) (⟨2, by omega⟩ : Fin 128)) (fun a => by fin_cases a <;> simp))

theorem stepOut_col3 (x0 : Vec Ideal S6x80000 .f32) (x1 : Vec Ideal S1x80000 .f32) (xo : Vec Ideal S8x128 .f32) :
    stepOut (F := Ideal) x0 x1 xo (ix2 (⟨0, by omega⟩ : Fin 8) (⟨3, by omega⟩ : Fin 128))
      = xo (ix2 (⟨0, by omega⟩ : Fin 8) (⟨3, by omega⟩ : Fin 128)) + ∑ j : Fin 80000, x1 (ix2 (0 : Fin 1) j) := by
  unfold stepOut stepPieces
  rw [View.overlayL_cons_unit_of_not_mem _ _ _ _ _ (1 : Fin 2) (Or.inl (by show (3 : ℕ) < 5; omega))]
  rw [View.overlayL_cons_unit_of_not_mem _ _ _ _ _ (1 : Fin 2) (Or.inl (by show (3 : ℕ) < 4; omega))]
  rw [View.overlayL_cons_unit_of_mem _ _ _ _ _ (ix2 (0 : Fin 1) (0 : Fin 1)) (fun a => by fin_cases a <;> simp)]
  rw [Cert.KernelIdeal.KVal.pay17_apply, Cert.KernelIdeal.KVal.pay8_apply]
  exact congrArg (· + _) (View.ld_unit_apply (s := S8x128) (off := ![0, 3]) (size := S1x1.size) Facts₀.inb_S8x128_S1x1_0_3 xo (ix2 (0 : Fin 1) (0 : Fin 1)) (ix2 (⟨0, by omega⟩ : Fin 8) (⟨3, by omega⟩ : Fin 128)) (fun a => by fin_cases a <;> simp))

theorem stepOut_col4 (x0 : Vec Ideal S6x80000 .f32) (x1 : Vec Ideal S1x80000 .f32) (xo : Vec Ideal S8x128 .f32) :
    stepOut (F := Ideal) x0 x1 xo (ix2 (⟨0, by omega⟩ : Fin 8) (⟨4, by omega⟩ : Fin 128))
      = xo (ix2 (⟨0, by omega⟩ : Fin 8) (⟨4, by omega⟩ : Fin 128)) + ∑ j : Fin 80000, x1 (ix2 (0 : Fin 1) j) * x1 (ix2 (0 : Fin 1) j) := by
  unfold stepOut stepPieces
  rw [View.overlayL_cons_unit_of_not_mem _ _ _ _ _ (1 : Fin 2) (Or.inl (by show (4 : ℕ) < 5; omega))]
  rw [View.overlayL_cons_unit_of_mem _ _ _ _ _ (ix2 (0 : Fin 1) (0 : Fin 1)) (fun a => by fin_cases a <;> simp)]
  rw [Cert.KernelIdeal.KVal.pay18_apply, Cert.KernelIdeal.KVal.pay9_apply]
  exact congrArg (· + _) (View.ld_unit_apply (s := S8x128) (off := ![0, 4]) (size := S1x1.size) Facts₀.inb_S8x128_S1x1_0_4 xo (ix2 (0 : Fin 1) (0 : Fin 1)) (ix2 (⟨0, by omega⟩ : Fin 8) (⟨4, by omega⟩ : Fin 128)) (fun a => by fin_cases a <;> simp))

theorem stepOut_col5 (x0 : Vec Ideal S6x80000 .f32) (x1 : Vec Ideal S1x80000 .f32) (xo : Vec Ideal S8x128 .f32) :
    stepOut (F := Ideal) x0 x1 xo (ix2 (⟨0, by omega⟩ : Fin 8) (⟨5, by omega⟩ : Fin 128))
      = xo (ix2 (⟨0, by omega⟩ : Fin 8) (⟨5, by omega⟩ : Fin 128)) + ∑ j : Fin 80000, ∑ r : Fin 6, Cert.Spec.hub (x0 (ix2 r j) - x1 (ix2 (0 : Fin 1) j)) * Cert.Spec.weight r (x0 (ix2 r j) - x1 (ix2 (0 : Fin 1) j)) := by
  unfold stepOut stepPieces
  rw [View.overlayL_cons_unit_of_mem _ _ _ _ _ (ix2 (0 : Fin 1) (0 : Fin 1)) (fun a => by fin_cases a <;> simp)]
  rw [Cert.KernelIdeal.KVal.pay19_apply]
  exact congrArg (· + _) (View.ld_unit_apply (s := S8x128) (off := ![0, 5]) (size := S1x1.size) Facts₀.inb_S8x128_S1x1_0_5 xo (ix2 (0 : Fin 1) (0 : Fin 1)) (ix2 (⟨0, by omega⟩ : Fin 8) (⟨5, by omega⟩ : Fin 128)) (fun a => by fin_cases a <;> simp))

end Cells

end Cert.KernelIdeal.Fr

end
-- ==== Proof.KBlocks.lean ====
/-
  The two input windows' blocks, read at an index.  Before the region the predictions are transposed (heads by
  samples) and the labels laid out as one row; the region then takes, at the `t`-th of its fifty grid points, block `t`
  of 80,000 consecutive samples of each.  So the predictions' block at point `t` holds, at head `r` and position `j`,
  prediction `r` of sample `80000 t + j` of the argument array, and the labels' block the label of that sample.  With
  `t = 25 c' + i` that sample is the specification's sample `j` of tile `i` of half `c'`.
-/
import proofs.«168857_j4097398800619_2_alg».proof.Proof.KI.Base
import proofs.«168857_j4097398800619_2_alg».proof.Proof.Spec
import Idealize.ShloMosaic.Lib.Pipeline.Value
import Idealize.ShloMosaic.Lib.ValueIdx

set_option maxRecDepth 16384

noncomputable section

namespace Cert.KernelIdeal.KVal

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen

variable {F : FTy → Type} [FloatOps F]
variable (m : (ℓ : Loc nD τ sig) → Buf (Elt F) ℓ)

/-! ## The block index maps

Both input windows step along the sample axis with the grid point: at point `t` (the `t`-th of the fifty, half by half and
tile by tile) each takes block `t` of the 4,000,000 samples and the only block along the other axis. Decided once over
the grid's fifty points. -/

theorem idx_facts : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, _)

/-- Sample `j` of the block at point `t` is sample `80000 t + j` of the array. -/
abbrev sampleOf (t : Fin cfg0.N) (j : Fin 80000) : Fin 4000000 :=
  ⟨t.val * 80000 + j.val, by have := t.isLt; have := j.isLt; have : cfg0.N = 50 := N_0; omega⟩

/-! ## The two arrays as the region finds them

The predictions arrive transposed, heads by samples; the labels arrive as one row. -/

theorem V_main_v0 (c : Dev nD) :
    (Fr.V m c main_v0 : S6x4000000.Idx → Elt F .f32)
      = transpose S6x4000000 [1, 0] (m ((c : Thread nD τ).loc main_arg0)) transposes_S4000000x6_S6x4000000_1_0 := by
  show StableHlo.after hostOps0 (fun b => m (c, b)) (Proc.devRef .tc main_v0) = _
  after_results

theorem V_main_v1 (c : Dev nD) :
    (Fr.V m c main_v1 : S1x4000000.Idx → Elt F .f32)
      = shapeCast S1x4000000 (m ((c : Thread nD τ).loc main_arg1)) shapeCasts_S4000000x1_S1x4000000 := by
  show StableHlo.after hostOps0 (fun b => m (c, b)) (Proc.devRef .tc main_v1) = _
  after_results
  rfl

/-- The transposed predictions at head `r`, sample `n`. -/
theorem transpose_read (a : S4000000x6.Idx → Elt F .f32) (h : S4000000x6.Transposes [1, 0] S6x4000000) (r : Fin 6) (n : Fin 4000000) :
    transpose S6x4000000 [1, 0] a h (ix2 r n) = a (ix2 n r) :=
  transpose_apply [1, 0] a h (ix2 r n) (ix2 n r) (fun b => by match b with | ⟨0, _⟩ => rfl | ⟨1, _⟩ => rfl)

/-- The labels' row at sample `n`. -/
theorem reshape_read (a : S4000000x1.Idx → Elt F .f32) (h : S4000000x1.ShapeCasts S1x4000000) (n : Fin 4000000) :
    shapeCast S1x4000000 a h (ix2 (0 : Fin 1) n) = a (ix2 n (0 : Fin 1)) :=
  shapeCast_apply a h (ix2 (0 : Fin 1) n) (ix2 n (0 : Fin 1)) (by
    rw [Shape.rowMajor_val_two, Shape.rowMajor_val_two]
    show n.val * 1 + 0 = 0 * 4000000 + n.val
    omega)

/-! ## The blocks -/

/-- The predictions' block at point `t`, head `r`, position `j`: prediction `r` of sample `80000 t + j`. -/
theorem iblk0_apply (c : Dev nD) (t : Fin cfg0.N) (r : Fin 6) (j : Fin 80000) :
    Fr.iblk m c 0 t (ix2 r j) = m ((c : Thread nD τ).loc main_arg0) (ix2 (sampleOf t j) r) := by
  obtain ⟨e0, e1, -, -⟩ := idx_facts t
  show Fr.V m c main_v0 (((cfg0.win 0).blk t).view.emb (ix2 r j)) = _
  have hemb : (((cfg0.win 0).blk t).view.emb (ix2 r j) : S6x4000000.Idx) = ix2 r (sampleOf t j) := by
    funext a; apply Fin.ext
    match a with
    | ⟨0, _⟩ => show win0_0.index t (0 : Fin 2) * 6 + 1 * r.val = r.val; omega
    | ⟨1, _⟩ => show win0_0.index t (1 : Fin 2) * 80000 + 1 * j.val = t.val * 80000 + j.val; omega
  refine (congrArg (Fr.V m c main_v0 : S6x4000000.Idx → Elt F .f32) hemb).trans ?_
  refine (congrFun (V_main_v0 m c) _).trans ?_
  exact transpose_read _ _ r (sampleOf t j)

/-- The labels' block at point `t`, position `j`: the label of sample `80000 t + j`. -/
theorem iblk1_apply (c : Dev nD) (t : Fin cfg0.N) (j : Fin 80000) :
    Fr.iblk m c 1 t (ix2 (0 : Fin 1) j) = m ((c : Thread nD τ).loc main_arg1) (ix2 (sampleOf t j) (0 : Fin 1)) := by
  obtain ⟨-, -, e0, e1⟩ := idx_facts t
  show Fr.V m c main_v1 (((cfg0.win 1).blk t).view.emb (ix2 (0 : Fin 1) j)) = _
  have hemb : (((cfg0.win 1).blk t).view.emb (ix2 (0 : Fin 1) j) : S1x4000000.Idx) = ix2 (0 : Fin 1) (sampleOf t j) := by
    funext a; apply Fin.ext
    match a with
    | ⟨0, _⟩ => show win0_1.index t (0 : Fin 2) * 1 + 1 * 0 = 0; omega
    | ⟨1, _⟩ => show win0_1.index t (1 : Fin 2) * 80000 + 1 * j.val = t.val * 80000 + j.val; omega
  refine (congrArg (Fr.V m c main_v1 : S1x4000000.Idx → Elt F .f32) hemb).trans ?_
  refine (congrFun (V_main_v1 m c) _).trans ?_
  exact reshape_read _ _ (sampleOf t j)

/-! ## The blocks in the specification's words

Point `25 c' + i` is tile `i` of half `c'`; its blocks hold that tile's predictions and labels. -/

/-- Grid point `25 c' + i`. -/
abbrev pointOf (c' : Fin 2) (i : Fin 25) : Fin cfg0.N :=
  ⟨c'.val * 25 + i.val, by have := c'.isLt; have := i.isLt; have : cfg0.N = 50 := N_0; omega⟩

theorem iblk0_spec (m : (ℓ : Loc nD τ sig) → Buf (Elt Ideal) ℓ) (c : Dev nD) (c' : Fin 2) (i : Fin 25) (r : Fin 6) (j : Fin 80000) :
    Fr.iblk m c 0 (pointOf c' i) (ix2 r j) = Cert.Spec.Xof (m ((c : Thread nD τ).loc main_arg0)) (Cert.Spec.tileIdx c' i j) r :=
  iblk0_apply m c (pointOf c' i) r j

theorem iblk1_spec (m : (ℓ : Loc nD τ sig) → Buf (Elt Ideal) ℓ) (c : Dev nD) (c' : Fin 2) (i : Fin 25) (j : Fin 80000) :
    Fr.iblk m c 1 (pointOf c' i) (ix2 (0 : Fin 1) j) = Cert.Spec.Yof (m ((c : Thread nD τ).loc main_arg1)) (Cert.Spec.tileIdx c' i j) :=
  iblk1_apply m c (pointOf c' i) j

end Cert.KernelIdeal.KVal
end
-- ==== Proof.KAccum.lean ====
/-
  The accumulator after a half's twenty-five steps. Each step leaves its six stores laid over what it started from,
  so an entry of the block after step n is the entry after step n - 1 plus this tile's contribution, and the first
  step starts from zero: after the last step the entry is the sum over the half's tiles — one of the half sums of the
  specification, for each of the six kinds of entry.
-/
import proofs.«168857_j4097398800619_2_alg».proof.Proof.KI.Frame
import proofs.«168857_j4097398800619_2_alg».proof.Proof.KI.Step
import proofs.«168857_j4097398800619_2_alg».proof.Proof.KBlocks
import proofs.«168857_j4097398800619_2_alg».proof.Proof.KPay

set_option maxRecDepth 16384

noncomputable section

namespace Cert.KernelIdeal.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Fr
open Idealize.ShloMosaic.ValueIdx
open scoped BigOperators

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A first step leaves the step's stores over the zero block; -/
theorem outA_eq (c : Dev nD) (i : grid0.Coords) (arg2 : Memref sig .tc .vmem S6x80000 .f32) (harg2 : arg2.IsWhole) (arg3 : Memref sig .tc .vmem S1x80000 .f32) (harg3 : arg3.IsWhole) (arg4 : Memref sig .tc .vmem S8x128 .f32) (harg4 : arg4.IsWhole) (hc0 : cond0_0 i) (x0 : Vec F S6x80000 .f32) (x1 : Vec F S1x80000 .f32) :
    Fr.out0_A_2 c i arg2 harg2 arg3 harg3 arg4 harg4 hc0 x0 x1 = Fr.stepOut x0 x1 (k0_pay1 (F := F)) := by
  unfold Fr.out0_A_2 Fr.stepOut
  rw [View.read_writes_junk_eq_canon, Fr.piecesA_eq, View.canon_append_whole Fr.hz2]

/-- a later step leaves them over the running contents. -/
theorem outB_eq (c : Dev nD) (i : grid0.Coords) (arg2 : Memref sig .tc .vmem S6x80000 .f32) (harg2 : arg2.IsWhole) (arg3 : Memref sig .tc .vmem S1x80000 .f32) (harg3 : arg3.IsWhole) (arg4 : Memref sig .tc .vmem S8x128 .f32) (harg4 : arg4.IsWhole) (hc0 : ¬cond0_0 i) (x0 : Vec F S6x80000 .f32) (x1 : Vec F S1x80000 .f32) (xo : Vec F S8x128 .f32) :
    Fr.out0_B_2 c i arg2 harg2 arg3 harg3 arg4 harg4 hc0 x0 x1 xo = Fr.stepOut x0 x1 xo := by
  unfold Fr.out0_B_2 Fr.stepOut
  rw [Fr.piecesB_eq]

theorem outsAt0_congr (m : (ℓ : Loc nD τ sig) → Buf (Elt F) ℓ) (c : Dev nD) {n n' : ℕ} (h : n = n') (hn : n < cfg0.N) (hn' : n' < cfg0.N) :
    Fr.outsAt0 m c n hn = Fr.outsAt0 m c n' hn' := by subst h; rfl

section OnReals

variable (m : (ℓ : Loc nD τ sig) → Buf (Elt Ideal) ℓ) (c : Dev nD)

/-- An entry `ρ` that every step increases by a functional `T` of the step's two input blocks, and that the zero block
    has at zero: after step `n` of half `c'` it is the sum of `T` over the half's tiles up to `n`. -/
theorem acc (ρ : S8x128.Idx) (T : Vec Ideal S6x80000 .f32 → Vec Ideal S1x80000 .f32 → EReal)
    (hZ : (k0_pay1 (F := Ideal)) ρ = 0)
    (hstep : ∀ x0 x1 xo, Fr.stepOut (F := Ideal) x0 x1 xo ρ = xo ρ + T x0 x1) (c' : Fin 2) :
    ∀ (n : ℕ) (hn : n < 25), Fr.outsAt0 m c (pointOf c' ⟨n, hn⟩).val (pointOf c' ⟨n, hn⟩).isLt ρ
      = ∑ i' ∈ Finset.range (n + 1), (if h : i' < 25 then T (Fr.iblk m c 0 (pointOf c' ⟨i', h⟩)) (Fr.iblk m c 1 (pointOf c' ⟨i', h⟩)) else 0)
  | 0, hn => by
    rw [Fr.outsAt0_A m c (pointOf c' ⟨0, hn⟩) (by show (c'.val * 25 + 0) % 25 = 0; omega), outA_eq, hstep, hZ, zero_add,
      Finset.sum_range_one, dif_pos hn]
  | n + 1, hn => by
    rw [Fr.outsAt0_B m c (pointOf c' ⟨n + 1, hn⟩) (by show ¬ (c'.val * 25 + (n + 1)) % 25 = 0; omega), outB_eq, hstep,
      outsAt0_congr m c (show (pointOf c' ⟨n + 1, hn⟩).val - 1 = (pointOf c' ⟨n, by omega⟩).val from by
        show c'.val * 25 + (n + 1) - 1 = c'.val * 25 + n; omega) _ (pointOf c' ⟨n, by omega⟩).isLt,
      acc ρ T hZ hstep c' n (by omega), Finset.sum_range_succ _ (n + 1), dif_pos hn]

/-- After the half's last step: the sum over its twenty-five tiles. -/
theorem acc24 (ρ : S8x128.Idx) (T : Vec Ideal S6x80000 .f32 → Vec Ideal S1x80000 .f32 → EReal)
    (hZ : (k0_pay1 (F := Ideal)) ρ = 0)
    (hstep : ∀ x0 x1 xo, Fr.stepOut (F := Ideal) x0 x1 xo ρ = xo ρ + T x0 x1) (c' : Fin 2) :
    Fr.outsAt0 m c (pointOf c' ⟨24, by omega⟩).val (pointOf c' ⟨24, by omega⟩).isLt ρ
      = ∑ i : Fin 25, T (Fr.iblk m c 0 (pointOf c' i)) (Fr.iblk m c 1 (pointOf c' i)) := by
  rw [acc m c ρ T hZ hstep c' 24 (by omega),
    ← Fin.sum_univ_eq_sum_range (fun i' => if h : i' < 25 then T (Fr.iblk m c 0 (pointOf c' ⟨i', h⟩)) (Fr.iblk m c 1 (pointOf c' ⟨i', h⟩)) else 0) 25]
  refine Finset.sum_congr rfl fun i _ => ?_
  rw [dif_pos i.isLt]

/-! ## The six kinds of entry, as half sums over the samples -/

theorem cell_x (c' : Fin 2) (r : Fin 6) :
    Fr.outsAt0 m c (pointOf c' ⟨24, by omega⟩).val (pointOf c' ⟨24, by omega⟩).isLt (ix2 (⟨r.val, by have := r.isLt; omega⟩ : Fin 8) (⟨0, by omega⟩ : Fin 128))
      = Cert.Spec.halfSum (fun n => (Cert.Spec.Xof (m ((c : Thread nD τ).loc main_arg0))) n r) c' := by
  rw [acc24 m c _ (fun x0 x1 => ∑ j : Fin 80000, x0 (ix2 r j)) (pay1_apply _) (fun x0 x1 xo => Fr.stepOut_col0 x0 x1 xo r) c']
  unfold Cert.Spec.halfSum
  refine Finset.sum_congr rfl fun i _ => Finset.sum_congr rfl fun j _ => ?_
  exact iblk0_spec m c c' i r j

theorem cell_xx (c' : Fin 2) (r : Fin 6) :
    Fr.outsAt0 m c (pointOf c' ⟨24, by omega⟩).val (pointOf c' ⟨24, by omega⟩).isLt (ix2 (⟨r.val, by have := r.isLt; omega⟩ : Fin 8) (⟨1, by omega⟩ : Fin 128))
      = Cert.Spec.halfSum (fun n => (Cert.Spec.Xof (m ((c : Thread nD τ).loc main_arg0))) n r * (Cert.Spec.Xof (m ((c : Thread nD τ).loc main_arg0))) n r) c' := by
  rw [acc24 m c _ (fun x0 x1 => ∑ j : Fin 80000, x0 (ix2 r j) * x0 (ix2 r j)) (pay1_apply _) (fun x0 x1 xo => Fr.stepOut_col1 x0 x1 xo r) c']
  unfold Cert.Spec.halfSum
  refine Finset.sum_congr rfl fun i _ => Finset.sum_congr rfl fun j _ => ?_
  rw [iblk0_spec m c c' i r j]

theorem cell_xy (c' : Fin 2) (r : Fin 6) :
    Fr.outsAt0 m c (pointOf c' ⟨24, by omega⟩).val (pointOf c' ⟨24, by omega⟩).isLt (ix2 (⟨r.val, by have := r.isLt; omega⟩ : Fin 8) (⟨2, by omega⟩ : Fin 128))
      = Cert.Spec.halfSum (fun n => (Cert.Spec.Xof (m ((c : Thread nD τ).loc main_arg0))) n r * (Cert.Spec.Yof (m ((c : Thread nD τ).loc main_arg1))) n) c' := by
  rw [acc24 m c _ (fun x0 x1 => ∑ j : Fin 80000, x0 (ix2 r j) * x1 (ix2 (0 : Fin 1) j)) (pay1_apply _) (fun x0 x1 xo => Fr.stepOut_col2 x0 x1 xo r) c']
  unfold Cert.Spec.halfSum
  refine Finset.sum_congr rfl fun i _ => Finset.sum_congr rfl fun j _ => ?_
  rw [iblk0_spec m c c' i r j, iblk1_spec m c c' i j]

theorem cell_y (c' : Fin 2) :
    Fr.outsAt0 m c (pointOf c' ⟨24, by omega⟩).val (pointOf c' ⟨24, by omega⟩).isLt (ix2 (⟨0, by omega⟩ : Fin 8) (⟨3, by omega⟩ : Fin 128))
      = Cert.Spec.halfSum (fun n => (Cert.Spec.Yof (m ((c : Thread nD τ).loc main_arg1))) n) c' := by
  rw [acc24 m c _ (fun x0 x1 => ∑ j : Fin 80000, x1 (ix2 (0 : Fin 1) j)) (pay1_apply _) (fun x0 x1 xo => Fr.stepOut_col3 x0 x1 xo) c']
  unfold Cert.Spec.halfSum
  refine Finset.sum_congr rfl fun i _ => Finset.sum_congr rfl fun j _ => ?_
  exact iblk1_spec m c c' i j

theorem cell_yy (c' : Fin 2) :
    Fr.outsAt0 m c (pointOf c' ⟨24, by omega⟩).val (pointOf c' ⟨24, by omega⟩).isLt (ix2 (⟨0, by omega⟩ : Fin 8) (⟨4, by omega⟩ : Fin 128))
      = Cert.Spec.halfSum (fun n => (Cert.Spec.Yof (m ((c : Thread nD τ).loc main_arg1))) n * (Cert.Spec.Yof (m ((c : Thread nD τ).loc main_arg1))) n) c' := by
  rw [acc24 m c _ (fun x0 x1 => ∑ j : Fin 80000, x1 (ix2 (0 : Fin 1) j) * x1 (ix2 (0 : Fin 1) j)) (pay1_apply _) (fun x0 x1 xo => Fr.stepOut_col4 x0 x1 xo) c']
  unfold Cert.Spec.halfSum
  refine Finset.sum_congr rfl fun i _ => Finset.sum_congr rfl fun j _ => ?_
  rw [iblk1_spec m c c' i j]

theorem cell_h (c' : Fin 2) :
    Fr.outsAt0 m c (pointOf c' ⟨24, by omega⟩).val (pointOf c' ⟨24, by omega⟩).isLt (ix2 (⟨0, by omega⟩ : Fin 8) (⟨5, by omega⟩ : Fin 128))
      = Cert.Spec.halfSum (fun n => ∑ r : Fin 6, Cert.Spec.term (Cert.Spec.Xof (m ((c : Thread nD τ).loc main_arg0))) (Cert.Spec.Yof (m ((c : Thread nD τ).loc main_arg1))) n r) c' := by
  rw [acc24 m c _ (fun x0 x1 => ∑ j : Fin 80000, ∑ r : Fin 6, Cert.Spec.hub (x0 (ix2 r j) - x1 (ix2 (0 : Fin 1) j)) * Cert.Spec.weight r (x0 (ix2 r j) - x1 (ix2 (0 : Fin 1) j))) (pay1_apply _) (fun x0 x1 xo => Fr.stepOut_col5 x0 x1 xo) c']
  unfold Cert.Spec.halfSum
  refine Finset.sum_congr rfl fun i _ => Finset.sum_congr rfl fun j _ => ?_
  refine Finset.sum_congr rfl fun r _ => ?_
  rw [iblk0_spec m c c' i r j, iblk1_spec m c c' i j]; rfl

end OnReals

end Cert.KernelIdeal.KVal

end
-- ==== Proof.KArray.lean ====
/-
  The array of partial sums after the region.  The output window's staging buffer is the accumulator of one half: it
  takes rows 0–7 of the 16×128 array during the first twenty-five steps and rows 8–15 during the last twenty-five, and
  is written back to the array only after a half's last step.  The two write-backs go to the two halves of the rows,
  so neither disturbs the other, and nothing of an 8×128 block overhangs the array.  Hence row `8 c' + r` of the array
  after the region is row `r` of what the accumulator held after the last step of half `c'`.
-/
import proofs.«168857_j4097398800619_2_alg».proof.Proof.KI.Frame
import proofs.«168857_j4097398800619_2_alg».proof.Proof.KBlocks
import Idealize.ShloMosaic.Lib.Pipeline.Value
import Idealize.ShloMosaic.Lib.ValueIdx

set_option maxRecDepth 16384

noncomputable section

namespace Cert.KernelIdeal.KVal

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen

variable {F : FTy → Type} [FloatOps F]
variable (m : (ℓ : Loc nD τ sig) → Buf (Elt F) ℓ)

/-! ## The output window's blocks

The output window takes, at point `t`, the block of eight rows numbered `t / 25`: rows 0–7 throughout the first half,
rows 8–15 throughout the second. Decided once over the grid's fifty points. -/

theorem idx_facts_out : ∀ t : Fin cfg0.N, win0_2.index t (0 : Fin 2) = t.val / 25 ∧ win0_2.index t (1 : Fin 2) = 0 :=
  (by decide +kernel : ∀ t : Fin grid0.N, _)

/-- An index of the array lies in point `t`'s block iff each coordinate lies in the block's range on its axis. -/
theorem mem_blk_out (t : Fin cfg0.N) (i : S16x128.Idx) :
    i ∈ ((cfg0.win 2).blk t).view.set ↔ ∀ a : Fin 2, win0_2.index t a * S8x128.size a ≤ (i a).val
      ∧ (i a).val < win0_2.index t a * S8x128.size a + S8x128.size a := by
  show i ∈ ((View.whole main_v2).slice (win0_2.rect t)).set ↔ _
  rw [View.set_slice_whole, Rect.mem_set_unit]
  exact Iff.rfl

/-- The block is written back only after the last step of a half — at points 24 and 49 —, and those two blocks are the
    two halves of the rows: they do not meet. -/
theorem disjoint_out : ∀ t t' : Fin cfg0.N, (cfg0.win 2).flush t = true → (cfg0.win 2).flush t' = true → t ≠ t' →
    Disjoint ((cfg0.win 2).blk t).view.set ((cfg0.win 2).blk t').view.set := by
  intro t t' hf hf' hne
  rw [Finset.disjoint_left]
  intro i hi hi'
  rw [mem_blk_out] at hi hi'
  have b : win0_2.index t (0 : Fin 2) * 8 ≤ (i 0).val ∧ (i 0).val < win0_2.index t (0 : Fin 2) * 8 + 8 := hi 0
  have b' : win0_2.index t' (0 : Fin 2) * 8 ≤ (i 0).val ∧ (i 0).val < win0_2.index t' (0 : Fin 2) * 8 + 8 := hi' 0
  obtain ⟨e, -⟩ := idx_facts_out t
  obtain ⟨e', -⟩ := idx_facts_out t'
  have hm : t.val % 25 = 24 := (flush0_2 t).mp hf
  have hm' : t'.val % 25 = 24 := (flush0_2 t').mp hf'
  have hN : t.val < 50 := lt_of_lt_of_eq t.isLt (show cfg0.N = 50 from N_0)
  have hN' : t'.val < 50 := lt_of_lt_of_eq t'.isLt (show cfg0.N = 50 from N_0)
  have hv : t.val ≠ t'.val := fun h => hne (Fin.ext h)
  omega

/-! ## The array after the region -/

/-- Row `r` of half `c'`'s block is row `8 c' + r` of the array. -/
abbrev rowOf (c' : Fin 2) (r : Fin 8) : Fin 16 := ⟨c'.val * 8 + r.val, by have := c'.isLt; have := r.isLt; omega⟩

/-- The last point of half `c'`. -/
abbrev lastOf (c' : Fin 2) : Fin cfg0.N := pointOf c' ⟨24, by decide⟩

/-- After the region, row `8 c' + r` of the array of partial sums is row `r` of what the accumulator held after the
    last step of half `c'`. -/
theorem arrAt_cell (c : Dev nD) (c' : Fin 2) (r : Fin 8) (k : Fin 128) :
    (Fr.dats m 0 c).arrAt 2 cfg0.N (ix2 (rowOf c' r) k)
      = Fr.outsAt0 m c (lastOf c').val (lastOf c').isLt (ix2 r k) := by
  have hc : c'.val < 2 := c'.isLt
  have hf : (cfg0.win 2).flush (lastOf c') = true :=
    (flush0_2 (lastOf c')).mpr (by show (c'.val * 25 + 24) % 25 = 24; omega)
  obtain ⟨e0, e1⟩ := idx_facts_out (lastOf c')
  have ev : (lastOf c').val = c'.val * 25 + 24 := rfl
  have hemb : (((cfg0.win 2).blk (lastOf c')).view.emb (ix2 r k) : S16x128.Idx) = ix2 (rowOf c' r) k := by
    funext a; apply Fin.ext
    match a with
    | ⟨0, _⟩ => show win0_2.index (lastOf c') (0 : Fin 2) * 8 + 1 * r.val = c'.val * 8 + r.val; omega
    | ⟨1, _⟩ => show win0_2.index (lastOf c') (1 : Fin 2) * 128 + 1 * k.val = k.val; omega
  have h := Pipeline.Dat.arrAt_emb_eq_flushed (dat := Fr.dats m 0 c) 2 disjoint_out (lastOf c') hf (ix2 r k)
  refine (congrArg ((Fr.dats m 0 c).arrAt 2 cfg0.N) hemb.symm).trans ?_
  refine h.trans ?_
  show (cfg0.win 2).cut (grid0.coords (lastOf c')) ((Fr.dats m 0 c).after 2 (lastOf c')) (ix2 r k) = _
  rw [Fr.after0_2]
  -- nothing of the block is cut off at the array's edge: what is written back is all of it
  have hx : ((cfg0.win 2).xinj (grid0.coords (lastOf c')) (ix2 r k) : S8x128.Idx) = ix2 r k :=
    funext fun a => Fin.ext rfl
  exact congrArg (Fr.outsAt0 m c (lastOf c').val (lastOf c').isLt) hx

end Cert.KernelIdeal.KVal
end
-- ==== Proof.KTailFn.lean ====
/-
  The host lines after the tiled kernel, as one function of its 16 × 128 array of partial sums.

  The lines cut the array into its two halves of eight rows, take from each half the column of six head sums in
  columns 0, 1, 2 and the single entries in columns 3, 4, 5 of the half's first row, add the two halves, and then
  compute on those totals: a covariance and two variances from raw moments, the six correlations as one vector
  computation on six entries, and the loss from the six correlations and the mean weighted Huber term. This module
  writes that composition down once (`tailFn`) and reads it at its one index: it is the specification's `statLoss`.
-/
import proofs.«168857_j4097398800619_2_alg».proof.Proof.Gen.KernelIdeal
import proofs.«168857_j4097398800619_2_alg».proof.Proof.Spec
import Idealize.ShloMosaic.Lib.ValueLayout
import Idealize.ShloMosaic.Lib.IdealHost

noncomputable section

namespace Cert.KernelIdeal.KVal

open Idealize.ShloMosaic Idealize.ShloMosaic.ValueIdx

/-! ## Layout steps at an index -/

/-- A matrix cut from `(o0, o1)` reads, at `(a, b)`, the source at `(k0, k1)` with `k0 = o0 + a`, `k1 = o1 + b`. -/
theorem slice2_apply {α : Type} {n0 n1 m0 m1 : ℕ} (o0 o1 : ℕ) (X : (⟨2, ![n0, n1]⟩ : Shape).Idx → α)
    (h : (⟨2, ![n0, n1]⟩ : Shape).Slices ![o0, o1] ⟨2, ![m0, m1]⟩)
    (a : Fin m0) (b : Fin m1) (k0 : Fin n0) (k1 : Fin n1) (h0 : k0.val = o0 + a.val) (h1 : k1.val = o1 + b.val) :
    extractStridedSlice ⟨2, ![m0, m1]⟩ ![o0, o1] X h (ix2 a b) = X (ix2 k0 k1) :=
  extractStridedSlice_apply _ _ _ _ _ (fun ax => by
    match ax with
    | ⟨0, _⟩ => exact h0
    | ⟨1, _⟩ => exact h1)

/-- A vector cut from `o` reads, at `j`, the source at `k = o + j`. -/
theorem slice1_apply {α : Type} {n m : ℕ} (o : ℕ) (X : (⟨1, ![n]⟩ : Shape).Idx → α)
    (h : (⟨1, ![n]⟩ : Shape).Slices ![o] ⟨1, ![m]⟩) (j : Fin m) (k : Fin n) (hk : k.val = o + j.val) :
    extractStridedSlice ⟨1, ![m]⟩ ![o] X h (ix1 j) = X (ix1 k) :=
  extractStridedSlice_apply _ _ _ _ _ (fun ax => by
    match ax with
    | ⟨0, _⟩ => exact hk)

/-- A column `[a, 1]` viewed as the vector `[a]` reads, at `p`, the column's entry `p`. -/
theorem shapeCast_a1_a_apply {α : Type} {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A `[1, 1]` array viewed as a scalar reads its one entry. -/
theorem shapeCast_11_scalar_apply {α : Type} (x : (⟨2, ![1, 1]⟩ : Shape).Idx → α)
    (h : (⟨2, ![1, 1]⟩ : Shape).ShapeCasts ⟨0, ![]⟩) (i : (⟨0, ![]⟩ : Shape).Idx) :
    shapeCast ⟨0, ![]⟩ x h i = x (ix2 (0 : Fin 1) (0 : Fin 1)) :=
  shapeCast_apply x h _ _ (by
    rw [Shape.rowMajor_val_two]
    have := ((⟨0, ![]⟩ : Shape).rowMajor i).isLt
    show 0 * 1 + 0 = _
    have hn : (⟨0, ![]⟩ : Shape).numel = 1 := rfl
    omega)

/-- A `[1]` array viewed as a scalar reads its one entry. -/
theorem shapeCast_1_scalar_apply {α : Type} (x : (⟨1, ![1]⟩ : Shape).Idx → α)
    (h : (⟨1, ![1]⟩ : Shape).ShapeCasts ⟨0, ![]⟩) (i : (⟨0, ![]⟩ : Shape).Idx) :
    shapeCast ⟨0, ![]⟩ x h i = x (ix1 (0 : Fin 1)) :=
  shapeCast_apply x h _ _ (by
    rw [Shape.rowMajor_val_one]
    have := ((⟨0, ![]⟩ : Shape).rowMajor i).isLt
    show 0 = _
    have hn : (⟨0, ![]⟩ : Shape).numel = 1 := rfl
    omega)

/-- The host's square root at an index is the exact square root of the element. -/
theorem hostSqrt_apply {s : Shape} {φ : FTy} (a : FVec Ideal s φ) (i : s.Idx) : Host.sqrt a i = Ideal.sqrt (a i) := rfl

/-- A scalar broadcast over six entries reads the scalar at each. -/
theorem bcast6_apply (x : FVec Ideal S_ .f32) (j : S6.Idx) : broadcastInDim S6 ![] Gen.bcast_S_S6 x j = x ix0 :=
  broadcastInDim_scalar_apply _ x j

/-! ## The totals of the two halves -/

/-- Entry `(r, k)` of the first half plus entry `(r, k)` of the second half (rows `r` and `8 + r`). -/
def at2 (S : S16x128.Idx → EReal) (r : Fin 6) (k : Fin 128) : EReal :=
  S (ix2 (⟨r.val, by have := r.isLt; omega⟩ : Fin 16) k) + S (ix2 (⟨8 + r.val, by have := r.isLt; omega⟩ : Fin 16) k)

/-- Column `k` of the six head rows, the two halves added, as a vector of six entries. -/
def colv (S : S16x128.Idx → EReal) (k : ℕ) (hk : S8x128.Slices ![0, k] S6x1) : FVec Ideal S6 .f32 :=
  addf
    (shapeCast S6 (extractStridedSlice S6x1 ![0, k] (extractStridedSlice S8x128 ![0, 0] S Gen.slices_S16x128_S8x128_0_0) hk)
      Gen.shapeCasts_S6x1_S6)
    (shapeCast S6 (extractStridedSlice S6x1 ![0, k] (extractStridedSlice S8x128 ![8, 0] S Gen.slices_S16x128_S8x128_8_0) hk)
      Gen.shapeCasts_S6x1_S6)

/-- Column `k` of each half's first row, the two halves added, as a scalar. -/
def scal (S : S16x128.Idx → EReal) (k : ℕ) (hk : S8x128.Slices ![0, k] S1x1) : FVec Ideal S_ .f32 :=
  addf
    (shapeCast S_ (extractStridedSlice S1x1 ![0, k] (extractStridedSlice S8x128 ![0, 0] S Gen.slices_S16x128_S8x128_0_0) hk)
      Gen.shapeCasts_S1x1_S_)
    (shapeCast S_ (extractStridedSlice S1x1 ![0, k] (extractStridedSlice S8x128 ![8, 0] S Gen.slices_S16x128_S8x128_8_0) hk)
      Gen.shapeCasts_S1x1_S_)

theorem colv_apply (S : S16x128.Idx → EReal) (k : ℕ) (hk : S8x128.Slices ![0, k] S6x1) (kk : Fin 128) (hkk : kk.val = k)
    (r : Fin 6) : colv S k hk (ix1 r) = at2 S r kk := by
  unfold colv at2
  rw [addf_apply]
  congr 1
  · refine (shapeCast_a1_a_apply _ _ r).trans ?_
    refine (slice2_apply 0 k _ _ r 0 (⟨r.val, by have := r.isLt; omega⟩ : Fin 8) kk (by simp) (by simp [hkk])).trans ?_
    exact slice2_apply 0 0 S _ _ kk _ kk (by simp) (by simp)
  · refine (shapeCast_a1_a_apply _ _ r).trans ?_
    refine (slice2_apply 0 k _ _ r 0 (⟨r.val, by have := r.isLt; omega⟩ : Fin 8) kk (by simp) (by simp [hkk])).trans ?_
    exact slice2_apply 8 0 S _ _ kk _ kk (by simp) (by simp)

theorem scal_apply (S : S16x128.Idx → EReal) (k : ℕ) (hk : S8x128.Slices ![0, k] S1x1) (kk : Fin 128) (hkk : kk.val = k)
    (i : S_.Idx) : scal S k hk i = at2 S 0 kk := by
  unfold scal at2
  rw [addf_apply]
  congr 1
  · refine (shapeCast_11_scalar_apply _ _ i).trans ?_
    refine (slice2_apply 0 k _ _ 0 0 (0 : Fin 8) kk (by simp) (by simp [hkk])).trans ?_
    exact slice2_apply 0 0 S _ _ kk _ kk (by simp) (by simp)
  · refine (shapeCast_11_scalar_apply _ _ i).trans ?_
    refine (slice2_apply 0 k _ _ 0 0 (0 : Fin 8) kk (by simp) (by simp [hkk])).trans ?_
    exact slice2_apply 8 0 S _ _ kk _ kk (by simp) (by simp)

/-! ## The six correlations as one vector, and the loss -/

/-- The vector of the six correlations, as the host lines compute it from the totals. -/
def pvec (S : S16x128.Idx → EReal) : FVec Ideal S6 .f32 :=
  Host.divf
    (subf (colv S 2 Gen.slices_S8x128_S6x1_0_2)
      (Host.divf
        (mulf (colv S 0 Gen.slices_S8x128_S6x1_0_0) (broadcastInDim S6 ![] Gen.bcast_S_S6 (scal S 3 Gen.slices_S8x128_S1x1_0_3)))
        (broadcastInDim S6 ![] Gen.bcast_S_S6 (constant (F := Ideal) S_ .f32 0x4A742400#32))))
    (mulf
      (Host.sqrt
        (subf (colv S 1 Gen.slices_S8x128_S6x1_0_1)
          (Host.divf (mulf (colv S 0 Gen.slices_S8x128_S6x1_0_0) (colv S 0 Gen.slices_S8x128_S6x1_0_0))
            (broadcastInDim S6 ![] Gen.bcast_S_S6 (constant (F := Ideal) S_ .f32 0x4A742400#32)))))
      (broadcastInDim S6 ![] Gen.bcast_S_S6
        (Host.sqrt
          (subf (scal S 4 Gen.slices_S8x128_S1x1_0_4)
            (Host.divf (mulf (scal S 3 Gen.slices_S8x128_S1x1_0_3) (scal S 3 Gen.slices_S8x128_S1x1_0_3))
              (constant (F := Ideal) S_ .f32 0x4A742400#32))))))

/-- Entry `r` of the correlation vector: the correlation of head `r` with the labels, from raw moments. -/
theorem pvec_apply (S : S16x128.Idx → EReal) (r : Fin 6) :
    pvec S (ix1 r)
      = Spec.corr (at2 S r 2 - Ideal.div (at2 S r 0 * at2 S 0 3) Spec.cN)
          (at2 S r 1 - Ideal.div (at2 S r 0 * at2 S r 0) Spec.cN)
          (at2 S 0 4 - Ideal.div (at2 S 0 3 * at2 S 0 3) Spec.cN) := by
  unfold pvec
  simp only [hostDivf_apply, subf_apply, mulf_apply, hostSqrt_apply]
  rw [bcast6_apply, bcast6_apply, bcast6_apply]
  simp only [hostDivf_apply, subf_apply, mulf_apply, hostSqrt_apply, constant_apply,
    colv_apply S 2 _ 2 rfl, colv_apply S 1 _ 1 rfl, colv_apply S 0 _ 0 rfl, scal_apply S 3 _ 3 rfl, scal_apply S 4 _ 4 rfl]
  rfl

/-- Entry `k` of the correlation vector cut out and viewed as a scalar. -/
def pk (S : S16x128.Idx → EReal) (k : ℕ) (hk : S6.Slices ![k] S1) : FVec Ideal S_ .f32 :=
  shapeCast S_ (extractStridedSlice S1 ![k] (pvec S) hk) Gen.shapeCasts_S1_S_

theorem pk_apply (S : S16x128.Idx → EReal) (k : ℕ) (hk : S6.Slices ![k] S1) (r : Fin 6) (hr : r.val = k) (i : S_.Idx) :
    pk S k hk i = pvec S (ix1 r) := by
  unfold pk
  refine (shapeCast_1_scalar_apply _ _ i).trans ?_
  exact slice1_apply k _ _ 0 r (by simp [hr])

/-- The word of one, and one minus correlation `k`. -/
def oneMinus (S : S16x128.Idx → EReal) (k : ℕ) (hk : S6.Slices ![k] S1) : FVec Ideal S_ .f32 :=
  subf (constant (F := Ideal) S_ .f32 0x3F800000#32) (pk S k hk)

/-- The host lines after the kernel, composed: the program's result as a function of the array of partial sums. -/
def tailFn (S : S16x128.Idx → EReal) : FVec Ideal S_ .f32 :=
  addf
    (addf
      (Host.divf (scal S 5 Gen.slices_S8x128_S1x1_0_5) (constant (F := Ideal) S_ .f32 0x4A742400#32))
      (Host.divf
        (addf
          (addf
            (addf
              (addf
                (mulf (oneMinus S 0 Gen.slices_S6_S1_0) (oneMinus S 0 Gen.slices_S6_S1_0))
                (mulf (oneMinus S 1 Gen.slices_S6_S1_1) (oneMinus S 1 Gen.slices_S6_S1_1)))
              (mulf (oneMinus S 2 Gen.slices_S6_S1_2) (oneMinus S 2 Gen.slices_S6_S1_2)))
            (mulf (oneMinus S 3 Gen.slices_S6_S1_3) (oneMinus S 3 Gen.slices_S6_S1_3)))
          (mulf (oneMinus S 4 Gen.slices_S6_S1_4) (oneMinus S 4 Gen.slices_S6_S1_4)))
        (subf
          (subf
            (subf
              (subf
                (subf (constant (F := Ideal) S_ .f32 0x40A00000#32) (pk S 0 Gen.slices_S6_S1_0))
                (pk S 1 Gen.slices_S6_S1_1))
              (pk S 2 Gen.slices_S6_S1_2))
            (pk S 3 Gen.slices_S6_S1_3))
          (pk S 4 Gen.slices_S6_S1_4))))
    (oneMinus S 5 Gen.slices_S6_S1_5)

/-- The composed host lines compute the specification's loss from partial sums. -/
theorem tailFn_eq (S : S16x128.Idx → EReal) : tailFn S = fun _ => Spec.statLoss S := by
  funext i
  unfold tailFn oneMinus
  simp only [addf_apply, subf_apply, mulf_apply, hostDivf_apply, constant_apply,
    pk_apply S 0 _ 0 rfl, pk_apply S 1 _ 1 rfl, pk_apply S 2 _ 2 rfl, pk_apply S 3 _ 3 rfl, pk_apply S 4 _ 4 rfl,
    pk_apply S 5 _ 5 rfl, scal_apply S 5 _ 5 rfl, pvec_apply]
  rfl

end Cert.KernelIdeal.KVal

end
-- ==== Proof.KTail.lean ====
/-
  The host lines after the tiled kernel, evaluated over an arbitrary memory: the program's result buffer holds the
  specification's loss computed from whatever 16 × 128 array of partial sums the kernel's result buffer holds.
-/
import proofs.«168857_j4097398800619_2_alg».proof.Proof.Gen.KernelIdeal.Launch
import proofs.«168857_j4097398800619_2_alg».proof.Proof.KTailFn
import Idealize.ShloMosaic.Lib.StableHlo.Run

noncomputable section

namespace Cert.KernelIdeal.KVal

open Idealize.ShloMosaic Idealize.ShloMosaic.StableHlo

set_option maxHeartbeats 4000000 in
/-- The ninety-six host operations after the kernel, folded over a memory `W`, leave in the result buffer the
    composed function `tailFn` of the kernel's result array: each operation's result is its function of its
    operands' contents, and the composition is `tailFn` written out. -/
theorem tail_term (W : Valuation τ sig (Elt Ideal)) :
    StableHlo.after (Gen.hostOps1 (F := Ideal)) W (Proc.devRef .tc main_v87) = tailFn (W (Proc.devRef .tc main_v2)) := by
  after_results_simp
  rfl

/-- So the result buffer holds the loss from partial sums. -/
theorem tail_eq (W : Valuation τ sig (Elt Ideal)) :
    StableHlo.after (Gen.hostOps1 (F := Ideal)) W (Proc.devRef .tc main_v87)
      = fun _ => Spec.statLoss (W (Proc.devRef .tc main_v2)) :=
  (tail_term W).trans (tailFn_eq _)

end Cert.KernelIdeal.KVal

end
-- ==== Proof.StatLoss.lean ====
/-
  The loss read off the 16 × 128 array of partial sums is the tiled loss, once every entry it reads is the matching
  half sum: rows 0–7 hold the first half's sums and rows 8–15 the second's, and the loss only ever uses an entry of
  the first half added to the same entry of the second — which is the sum over all tiles as the tiled program
  reaches it.
-/
import proofs.«168857_j4097398800619_2_alg».proof.Proof.Spec

noncomputable section

namespace Cert.Spec

open Idealize.ShloMosaic Idealize.ShloMosaic.ValueIdx
open scoped BigOperators

/-- Entry `(r, k)` of the first half plus entry `(r, k)` of the second half: rows `r` and `8 + r`. -/
def halvesAdded (S : (⟨2, ![16, 128]⟩ : Shape).Idx → EReal) (r : Fin 6) (k : Fin 128) : EReal :=
  S (ix2 (⟨r.val, by have := r.isLt; omega⟩ : Fin 16) k) + S (ix2 (⟨8 + r.val, by have := r.isLt; omega⟩ : Fin 16) k)

/-- The loss from partial sums, written over the added halves. -/
theorem statLoss_eq_halvesAdded (S : (⟨2, ![16, 128]⟩ : Shape).Idx → EReal) :
    statLoss S
      = combine
          (fun r => corr
            (halvesAdded S r 2 - Ideal.div (halvesAdded S r 0 * halvesAdded S 0 3) cN)
            (halvesAdded S r 1 - Ideal.div (halvesAdded S r 0 * halvesAdded S r 0) cN)
            (halvesAdded S 0 4 - Ideal.div (halvesAdded S 0 3 * halvesAdded S 0 3) cN))
          (Ideal.div (halvesAdded S 0 5) cN) := rfl

/-- When the two entries are the two halves' sums of `f`, their sum is the tiled sum of `f`. The rows are given as
    any two row numbers `a`, `b` with the values `r` and `8 + r`. -/
theorem halvesAdded_eq_tsum (S : (⟨2, ![16, 128]⟩ : Shape).Idx → EReal) (r : Fin 6) (k : Fin 128) (f : Fin 4000000 → EReal)
    (a b : Fin 16) (ha : a.val = r.val) (hb : b.val = 8 + r.val)
    (h0 : S (ix2 a k) = halfSum f 0) (h1 : S (ix2 b k) = halfSum f 1) : halvesAdded S r k = tsum f := by
  have ea : (⟨r.val, by have := r.isLt; omega⟩ : Fin 16) = a := Fin.ext ha.symm
  have eb : (⟨8 + r.val, by have := r.isLt; omega⟩ : Fin 16) = b := Fin.ext hb.symm
  unfold halvesAdded tsum
  rw [ea, eb, h0, h1]

/-- The loss from the array of partial sums is the tiled loss when each entry read is the matching half sum. -/
theorem statLoss_of_halves (S : (⟨2, ![16, 128]⟩ : Shape).Idx → EReal) (X : Fin 4000000 → Fin 6 → EReal) (Y : Fin 4000000 → EReal)
    (hx : ∀ (c' : Fin 2) (r : Fin 6),
      S (ix2 (⟨8 * c'.val + r.val, by have := c'.isLt; have := r.isLt; omega⟩ : Fin 16) (⟨0, by omega⟩ : Fin 128))
        = halfSum (fun n => X n r) c')
    (hxx : ∀ (c' : Fin 2) (r : Fin 6),
      S (ix2 (⟨8 * c'.val + r.val, by have := c'.isLt; have := r.isLt; omega⟩ : Fin 16) (⟨1, by omega⟩ : Fin 128))
        = halfSum (fun n => X n r * X n r) c')
    (hxy : ∀ (c' : Fin 2) (r : Fin 6),
      S (ix2 (⟨8 * c'.val + r.val, by have := c'.isLt; have := r.isLt; omega⟩ : Fin 16) (⟨2, by omega⟩ : Fin 128))
        = halfSum (fun n => X n r * Y n) c')
    (hy : ∀ (c' : Fin 2),
      S (ix2 (⟨8 * c'.val, by have := c'.isLt; omega⟩ : Fin 16) (⟨3, by omega⟩ : Fin 128)) = halfSum Y c')
    (hyy : ∀ (c' : Fin 2),
      S (ix2 (⟨8 * c'.val, by have := c'.isLt; omega⟩ : Fin 16) (⟨4, by omega⟩ : Fin 128)) = halfSum (fun n => Y n * Y n) c')
    (hh : ∀ (c' : Fin 2),
      S (ix2 (⟨8 * c'.val, by have := c'.isLt; omega⟩ : Fin 16) (⟨5, by omega⟩ : Fin 128))
        = halfSum (fun n => ∑ r : Fin 6, term X Y n r) c') :
    statLoss S = tiledLoss X Y := by
  have ex : ∀ r : Fin 6, halvesAdded S r 0 = tsum (fun n => X n r) :=
    fun r => halvesAdded_eq_tsum S r 0 _ _ _ (by simp) (by simp) (hx 0 r) (hx 1 r)
  have exx : ∀ r : Fin 6, halvesAdded S r 1 = tsum (fun n => X n r * X n r) :=
    fun r => halvesAdded_eq_tsum S r 1 _ _ _ (by simp) (by simp) (hxx 0 r) (hxx 1 r)
  have exy : ∀ r : Fin 6, halvesAdded S r 2 = tsum (fun n => X n r * Y n) :=
    fun r => halvesAdded_eq_tsum S r 2 _ _ _ (by simp) (by simp) (hxy 0 r) (hxy 1 r)
  have ey : halvesAdded S 0 3 = tsum Y := halvesAdded_eq_tsum S 0 3 _ _ _ (by simp) (by simp) (hy 0) (hy 1)
  have eyy : halvesAdded S 0 4 = tsum (fun n => Y n * Y n) := halvesAdded_eq_tsum S 0 4 _ _ _ (by simp) (by simp) (hyy 0) (hyy 1)
  have eh : halvesAdded S 0 5 = tsum (fun n => ∑ r : Fin 6, term X Y n r) :=
    halvesAdded_eq_tsum S 0 5 _ _ _ (by simp) (by simp) (hh 0) (hh 1)
  rw [statLoss_eq_halvesAdded]
  unfold tiledLoss
  simp only [ex, exx, exy, ey, eyy, eh]

end Cert.Spec

end
-- ==== Proof.KLoss.lean ====
/-
  The tiled program's result. After the region the array of partial sums holds, in each half's block, the half sums of
  the six kinds of entry; the host lines after the region turn that array into the loss computed from raw moments summed
  tile by tile; and no line after the region writes an argument. So every execution ends with the result buffer at the
  tiled loss of the two argument arrays, and the arguments unchanged.
-/
import proofs.«168857_j4097398800619_2_alg».proof.Proof.KI.Frame
import proofs.«168857_j4097398800619_2_alg».proof.Proof.KAccum
import proofs.«168857_j4097398800619_2_alg».proof.Proof.KArray
import proofs.«168857_j4097398800619_2_alg».proof.Proof.KTail
import proofs.«168857_j4097398800619_2_alg».proof.Proof.StatLoss

set_option maxRecDepth 16384

noncomputable section

namespace Cert.KernelIdeal.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Fr
open Idealize.ShloMosaic.ValueIdx
open scoped BigOperators

variable {F : FTy → Type} [FloatOps F]

local notation "𝕄" => MT nD τ sig Unit (Elt F) ℕ (UR sig nD τ) ℕ

variable (m : (ℓ : Loc nD τ sig) → Buf (Elt F) ℓ) (ρ : Dev nD → PrngReg)

section OnReals

variable (m : (ℓ : Loc nD τ sig) → Buf (Elt Ideal) ℓ) (ρ : Dev nD → PrngReg) (c : Dev nD)

/-- The loss the later host lines compute from the array of partial sums is the tiled loss of the arguments. -/
theorem stats_loss :
    Cert.Spec.statLoss ((Fr.dats m 0 c).arrAt 2 cfg0.N) = Cert.Spec.tiledLoss (Cert.Spec.Xof (m ((c : Thread nD τ).loc main_arg0))) (Cert.Spec.Yof (m ((c : Thread nD τ).loc main_arg1))) :=
  Cert.Spec.statLoss_of_halves _ _ _
    (fun c' r => by
      have e : (⟨8 * c'.val + r.val, by have := c'.isLt; have := r.isLt; omega⟩ : Fin 16) = rowOf c' (⟨r.val, by have := r.isLt; omega⟩ : Fin 8) :=
        Fin.ext (by show 8 * c'.val + r.val = c'.val * 8 + r.val; omega)
      rw [e, arrAt_cell m c c' (⟨r.val, by have := r.isLt; omega⟩ : Fin 8) (⟨0, by omega⟩ : Fin 128)]
      exact cell_x m c c' r)
    (fun c' r => by
      have e : (⟨8 * c'.val + r.val, by have := c'.isLt; have := r.isLt; omega⟩ : Fin 16) = rowOf c' (⟨r.val, by have := r.isLt; omega⟩ : Fin 8) :=
        Fin.ext (by show 8 * c'.val + r.val = c'.val * 8 + r.val; omega)
      rw [e, arrAt_cell m c c' (⟨r.val, by have := r.isLt; omega⟩ : Fin 8) (⟨1, by omega⟩ : Fin 128)]
      exact cell_xx m c c' r)
    (fun c' r => by
      have e : (⟨8 * c'.val + r.val, by have := c'.isLt; have := r.isLt; omega⟩ : Fin 16) = rowOf c' (⟨r.val, by have := r.isLt; omega⟩ : Fin 8) :=
        Fin.ext (by show 8 * c'.val + r.val = c'.val * 8 + r.val; omega)
      rw [e, arrAt_cell m c c' (⟨r.val, by have := r.isLt; omega⟩ : Fin 8) (⟨2, by omega⟩ : Fin 128)]
      exact cell_xy m c c' r)
    (fun c' => by
      have e : (⟨8 * c'.val, by have := c'.isLt; omega⟩ : Fin 16) = rowOf c' (⟨0, by omega⟩ : Fin 8) :=
        Fin.ext (by show 8 * c'.val = c'.val * 8 + 0; omega)
      rw [e, arrAt_cell m c c' (⟨0, by omega⟩ : Fin 8) (⟨3, by omega⟩ : Fin 128)]
      exact cell_y m c c')
    (fun c' => by
      have e : (⟨8 * c'.val, by have := c'.isLt; omega⟩ : Fin 16) = rowOf c' (⟨0, by omega⟩ : Fin 8) :=
        Fin.ext (by show 8 * c'.val = c'.val * 8 + 0; omega)
      rw [e, arrAt_cell m c c' (⟨0, by omega⟩ : Fin 8) (⟨4, by omega⟩ : Fin 128)]
      exact cell_yy m c c')
    (fun c' => by
      have e : (⟨8 * c'.val, by have := c'.isLt; omega⟩ : Fin 16) = rowOf c' (⟨0, by omega⟩ : Fin 8) :=
        Fin.ext (by show 8 * c'.val = c'.val * 8 + 0; omega)
      rw [e, arrAt_cell m c c' (⟨0, by omega⟩ : Fin 8) (⟨5, by omega⟩ : Fin 128)]
      exact cell_h m c c')

set_option maxHeartbeats 40000000 in
/-- What the program's result buffer holds once the later host lines have run. -/
theorem v87_eq :
    Pipeline.afterTail₀ cfgs (Fr.dats m) 0 (Fr.V0 m) [hostOps1] c main_v87
      = fun _ => Cert.Spec.tiledLoss (Cert.Spec.Xof (m ((c : Thread nD τ).loc main_arg0))) (Cert.Spec.Yof (m ((c : Thread nD τ).loc main_arg1))) := by
  unfold Pipeline.afterTail₀
  simp only [List.flatten_cons, List.flatten_nil, List.append_nil]
  rw [tail_eq]
  have e := Pipeline.withArrays_arr spec0 launch0.win.arr_inj c (Fr.V0 m c) (fun w => (Fr.dats m 0 c).arrAt w (cfgs 0).N) 2
  exact (congrArg (fun S : (⟨2, ![16, 128]⟩ : Shape).Idx → EReal => fun (_ : S_.Idx) => Cert.Spec.statLoss S) e).trans
    (congrArg (fun v : EReal => fun (_ : S_.Idx) => v) (stats_loss m c))

set_option maxHeartbeats 40000000 in
/-- THE TILED PROGRAM'S RUN: it terminates without a fault, its result is the tiled loss of the arguments, and the
    arguments end as launched. -/
theorem run_loss : θ_run (defs (F := Ideal)) (onTc (τ := τ) (main (F := Ideal))) ⟨m, fun _ => 0, ρ⟩ (fun r => ∀ c : Dev nD,
      r.2.mem ((c.tc : Thread nD τ).loc main_v87)
          = (fun _ => Cert.Spec.tiledLoss (Cert.Spec.Xof (m ((c : Thread nD τ).loc main_arg0))) (Cert.Spec.Yof (m ((c : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_v87 Fr.v87_rest).trans (v87_eq m c),
    ((h c).2 main_arg0 Fr.arg0_rest).trans (Fr.W_main_arg0 m (Fr.dats m) c),
    ((h c).2 main_arg1 Fr.arg1_rest).trans (Fr.W_main_arg1 m (Fr.dats m) c)⟩) (Fr.run_main m ρ)

end OnReals

end Cert.KernelIdeal.KVal

end
-- ==== Proof.RefOps.lean ====
/-
  The reference's operations read at an index, at the extended reals: the whole-vector sum, a vector less its mean,
  one correlation, a column of the predictions as a vector, the residual, the pseudo-Huber term, the weights (a
  two-piece concatenation along the columns) and the sum along a row. Each is stated once over arbitrary operands of
  the program's literal shapes; the modules that read the program's named intermediate values cite them.
-/
import Idealize.ShloMosaic.Lib.IdealHost
import Idealize.ShloMosaic.Lib.ValueLayout
import Idealize.ShloMosaic.Lib.Pipeline.Value
import proofs.«168857_j4097398800619_2_alg».proof.ReferenceIdeal
import proofs.«168857_j4097398800619_2_alg».proof.Proof.Spec

noncomputable section

namespace Cert.ReferenceIdeal.RefValue

open Idealize.ShloMosaic Idealize.ShloMosaic.ValueIdx Cert.ReferenceIdeal
open scoped BigOperators

/-! ## Sums over a rank-1 index set, and the host's pointwise root and tangent -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

theorem hostSqrt_apply {s : Shape} {φ : FTy} (a : FVec Ideal s φ) (i : s.Idx) : Host.sqrt a i = Ideal.sqrt (a i) := rfl
theorem hostTanh_apply {s : Shape} {φ : FTy} (a : FVec Ideal s φ) (i : s.Idx) : Host.tanh a i = Ideal.tanh (a i) := rfl

/-- The sum of a whole vector, from the zero word. -/
theorem reduce_all (v : FVec Ideal S4000000 .f32) (hr : S4000000.ReducesTo [0] S_) (hu : 0 < S_.numel) (j : S_.Idx) :
    Host.reduceAdd v (constant (F := Ideal) S_ .f32 0x00000000#32) hr hu j = ∑ n : Fin 4000000, v (ix1 n) := by
  rw [hostReduceAdd_apply, Ideal.hostReduceAdd_total hr (fun b => b.elim0), constant_apply, Ideal.ofBits_zero_f32, zero_add,
    sum_idx1]

/-- A vector less its mean, at one entry. -/
theorem centre_apply (v : FVec Ideal S4000000 .f32) (hr : S4000000.ReducesTo [0] S_) (hu : 0 < S_.numel)
    (hb : S_.BroadcastsInDim S4000000 (![] : Fin 0 → Fin S4000000.rank)) (n : Fin 4000000) :
    subf v (broadcastInDim S4000000 ![] hb (Host.divf (Host.reduceAdd v (constant (F := Ideal) S_ .f32 0x00000000#32) hr hu)
        (constant (F := Ideal) S_ .f32 0x4A742400#32))) (ix1 n)
      = v (ix1 n) - Ideal.div (∑ m : Fin 4000000, v (ix1 m)) Spec.cN := by
  rw [subf_apply, broadcastInDim_scalar_apply, hostDivf_apply, reduce_all, constant_apply]
  rfl

/-- One correlation: the covariance sum over the product of the roots of the two variance sums. -/
theorem pearson_apply (p q : FVec Ideal S4000000 .f32) (hr : S4000000.ReducesTo [0] S_) (hu : 0 < S_.numel) (j : S_.Idx) :
    Host.divf (Host.reduceAdd (mulf p q) (constant (F := Ideal) S_ .f32 0x00000000#32) hr hu)
        (mulf (Host.sqrt (Host.reduceAdd (mulf p p) (constant (F := Ideal) S_ .f32 0x00000000#32) hr hu))
          (Host.sqrt (Host.reduceAdd (mulf q q) (constant (F := Ideal) S_ .f32 0x00000000#32) hr hu))) j
      = Spec.corr (∑ n : Fin 4000000, p (ix1 n) * q (ix1 n)) (∑ n : Fin 4000000, p (ix1 n) * p (ix1 n))
          (∑ n : Fin 4000000, q (ix1 n) * q (ix1 n)) := by
  rw [hostDivf_apply, mulf_apply, hostSqrt_apply, hostSqrt_apply, reduce_all, reduce_all, reduce_all]
  rfl

/-! ## Layout: a column as a vector, the residual, and the pieces of the weighted pseudo-Huber term -/

/-- An `[a, 1]` array cast to `[a]` reads, at `i`, the operand at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- Column `k` of the predictions as a vector: the one-column slice at offset `o = k`, reshaped. -/
theorem column_apply (A : FVec Ideal S4000000x6 .f32) (o : Nat) (k : Fin 6) (hk : k.val = o)
    (hs : S4000000x6.Slices ![0, o] S4000000x1) (hc : S4000000x1.ShapeCasts S4000000) (n : Fin 4000000) :
    shapeCast S4000000 (extractStridedSlice S4000000x1 ![0, o] A hs) hc (ix1 n) = A (ix2 n k) := by
  rw [shapeCast_a1_a_apply]
  exact slice2_axis1_apply o A hs n (0 : Fin 1) k (by rw [hk]; rfl)

/-- The labels as a vector. -/
theorem labels_apply (B : FVec Ideal S4000000x1 .f32) (hc : S4000000x1.ShapeCasts S4000000) (n : Fin 4000000) :
    shapeCast S4000000 B hc (ix1 n) = B (ix2 n (0 : Fin 1)) := shapeCast_a1_a_apply B hc n

/-- The residual: a prediction less its sample's label (the labels broadcast along the six columns). -/
theorem resid_apply (A : FVec Ideal S4000000x6 .f32) (B : FVec Ideal S4000000x1 .f32)
    (hb : S4000000x1.BroadcastsInDim S4000000x6 (![0, 1] : Fin 2 → Fin S4000000x6.rank)) (n : Fin 4000000) (r : Fin 6) :
    subf A (broadcastInDim S4000000x6 ![0, 1] hb B) (ix2 n r) = A (ix2 n r) - B (ix2 n (0 : Fin 1)) := by
  rw [subf_apply]
  refine congrArg (fun z => A (ix2 n r) - z) ?_
  refine broadcastInDim_apply _ hb B (ix2 n r) (ix2 n (0 : Fin 1)) (fun a => ?_)
  match a with
  | ⟨0, _⟩ => exact (if_neg (show ¬ (4000000 : ℕ) = 1 by decide)).symm
  | ⟨1, _⟩ => exact (if_pos rfl).symm

/-- The pseudo-Huber term from the halved residual `e`. -/
theorem hub_apply (e : FVec Ideal S4000000x6 .f32) (hb : S_.BroadcastsInDim S4000000x6 (![] : Fin 0 → Fin S4000000x6.rank))
    (i : S4000000x6.Idx) :
    mulf (broadcastInDim S4000000x6 ![] hb (constant (F := Ideal) S_ .f32 0x40800000#32))
        (subf (Host.sqrt (addf (broadcastInDim S4000000x6 ![] hb (constant (F := Ideal) S_ .f32 0x3F800000#32)) (mulf e e)))
          (broadcastInDim S4000000x6 ![] hb (constant (F := Ideal) S_ .f32 0x3F800000#32))) i
      = Spec.c4 * (Ideal.sqrt (Spec.c1 + e i * e i) - Spec.c1) := by
  rw [mulf_apply, subf_apply, hostSqrt_apply, addf_apply, mulf_apply, broadcastInDim_scalar_apply, broadcastInDim_scalar_apply,
    constant_apply, constant_apply]
  rfl

/-- The halved residual. -/
theorem half_apply (d : FVec Ideal S4000000x6 .f32) (hb : S_.BroadcastsInDim S4000000x6 (![] : Fin 0 → Fin S4000000x6.rank))
    (i : S4000000x6.Idx) :
    Host.divf d (broadcastInDim S4000000x6 ![] hb (constant (F := Ideal) S_ .f32 0x40000000#32)) i = Ideal.div (d i) Spec.c2 := by
  rw [hostDivf_apply, broadcastInDim_scalar_apply, constant_apply]
  rfl

/-- The sum along a row's six columns. -/
theorem reduce_row (w : FVec Ideal S4000000x6 .f32) (hr : S4000000x6.ReducesTo [1] S4000000) (hu : 0 < S_.numel) (n : Fin 4000000) :
    Host.reduceAdd w (constant (F := Ideal) S_ .f32 0x00000000#32) hr hu (ix1 n) = ∑ r : Fin 6, w (ix2 n r) := by
  have hR : S4000000x6.Reduces [1] S4000000 := by decide
  rw [hostReduceAdd_apply, Ideal.hostReduceAdd_single hr hR, constant_apply, Ideal.ofBits_zero_f32, zero_add]
  show ∑ k : Fin 6, w (hR.lift (ix1 n) k) = ∑ r : Fin 6, w (ix2 n r)
  refine Finset.sum_congr rfl (fun k _ => congrArg w ?_)
  funext a
  match a with
  | ⟨0, _⟩ => rfl
  | ⟨1, _⟩ => rfl

/-- The hyperbolic tangent of the first five columns of the residual. -/
theorem tanh5_apply (d : FVec Ideal S4000000x6 .f32) (hs : S4000000x6.Slices ![0, 0] S4000000x5) (n : Fin 4000000) (j : Fin 5)
    (k : Fin 6) (hk : k.val = j.val) :
    Host.tanh (extractStridedSlice S4000000x5 ![0, 0] d hs) (ix2 n j) = Ideal.tanh (d (ix2 n k)) := by
  rw [hostTanh_apply]
  exact congrArg Ideal.tanh (slice2_axis1_apply 0 d hs n j k (by rw [hk, Nat.zero_add]))

/-- The weights: a fifth of the squared tangent on the first five columns, one on the sixth. -/
theorem weight_apply (t : FVec Ideal S4000000x5 .f32)
    (hb5 : S_.BroadcastsInDim S4000000x5 (![] : Fin 0 → Fin S4000000x5.rank))
    (hb1 : S_.BroadcastsInDim S4000000x1 (![] : Fin 0 → Fin S4000000x1.rank))
    (hc : Shape.Concatenates [S4000000x5, S4000000x1] S4000000x6 1) (n : Fin 4000000) (r : Fin 6) :
    concatenate S4000000x6 1
        [⟨S4000000x5, mulf (broadcastInDim S4000000x5 ![] hb5 (constant (F := Ideal) S_ .f32 0x3E4CCCCD#32)) (mulf t t)⟩,
         ⟨S4000000x1, broadcastInDim S4000000x1 ![] hb1 (constant (F := Ideal) S_ .f32 0x3F800000#32)⟩] hc (ix2 n r)
      = if h : r.val < 5 then Spec.cFifth * (t (ix2 n ⟨r.val, h⟩) * t (ix2 n ⟨r.val, h⟩)) else Spec.c1 := by
  by_cases h : r.val < 5
  · rw [dif_pos h]
    refine (concatenate_pair_apply_left (1 : Fin S4000000x6.rank) _ _ hc (ix2 n r) rfl (ix2 n (⟨r.val, h⟩ : Fin 5))
      (fun b => ?_)).trans ?_
    · match b with
      | ⟨0, _⟩ => rfl
      | ⟨1, _⟩ => rfl
    · rw [mulf_apply, mulf_apply, broadcastInDim_scalar_apply, constant_apply]
      rfl
  · rw [dif_neg h]
    refine (concatenate_pair_apply_right (1 : Fin S4000000x6.rank) _ _ hc (ix2 n r) rfl rfl (ix2 n (0 : Fin 1))
      (fun b hb => ?_) ?_).trans ?_
    · match b with
      | ⟨0, _⟩ => rfl
      | ⟨1, _⟩ => exact absurd rfl hb
    · show 0 + 5 = r.val
      have := r.isLt
      omega
    · rw [broadcastInDim_scalar_apply, constant_apply]
      rfl

/-! ## One head, assembled: its centred column, the centred labels, and their correlation -/

/-- Head `r`'s correlation with the labels from the three centred sums, as the loss from centred sums takes it. -/
def corrAt (X : Fin 4000000 → Fin 6 → EReal) (Y : Fin 4000000 → EReal) (r : Fin 6) : EReal :=
  Spec.corr
    (∑ n : Fin 4000000, (X n r - Spec.meanX X r) * (Y n - Spec.meanY Y))
    (∑ n : Fin 4000000, (X n r - Spec.meanX X r) * (X n r - Spec.meanX X r))
    (∑ n : Fin 4000000, (Y n - Spec.meanY Y) * (Y n - Spec.meanY Y))

/-- The mean weighted pseudo-Huber term. -/
def hubMean (X : Fin 4000000 → Fin 6 → EReal) (Y : Fin 4000000 → EReal) : EReal :=
  Ideal.div (∑ n : Fin 4000000, ∑ r : Fin 6, Spec.term X Y n r) Spec.cN

theorem centredLoss_eq (X : Fin 4000000 → Fin 6 → EReal) (Y : Fin 4000000 → EReal) :
    Spec.centredLoss X Y = Spec.combine (fun r => corrAt X Y r) (hubMean X Y) := rfl

/-- Column `k` less its mean, at sample `n`. -/
theorem centred_col (A : FVec Ideal S4000000x6 .f32) (o : Nat) (k : Fin 6) (hk : k.val = o)
    (hs : S4000000x6.Slices ![0, o] S4000000x1) (hc : S4000000x1.ShapeCasts S4000000)
    (hr : S4000000.ReducesTo [0] S_) (hu : 0 < S_.numel)
    (hb : S_.BroadcastsInDim S4000000 (![] : Fin 0 → Fin S4000000.rank)) (n : Fin 4000000) :
    subf (shapeCast S4000000 (extractStridedSlice S4000000x1 ![0, o] A hs) hc)
        (broadcastInDim S4000000 ![] hb
          (Host.divf (Host.reduceAdd (shapeCast S4000000 (extractStridedSlice S4000000x1 ![0, o] A hs) hc)
              (constant (F := Ideal) S_ .f32 0x00000000#32) hr hu)
            (constant (F := Ideal) S_ .f32 0x4A742400#32))) (ix1 n)
      = Spec.Xof A n k - Spec.meanX (Spec.Xof A) k := by
  rw [centre_apply]
  simp only [column_apply A o k hk hs hc]
  rfl

/-- The labels less their mean, at sample `n`. -/
theorem centred_lab (B : FVec Ideal S4000000x1 .f32) (hc : S4000000x1.ShapeCasts S4000000)
    (hr : S4000000.ReducesTo [0] S_) (hu : 0 < S_.numel)
    (hb : S_.BroadcastsInDim S4000000 (![] : Fin 0 → Fin S4000000.rank)) (n : Fin 4000000) :
    subf (shapeCast S4000000 B hc)
        (broadcastInDim S4000000 ![] hb
          (Host.divf (Host.reduceAdd (shapeCast S4000000 B hc) (constant (F := Ideal) S_ .f32 0x00000000#32) hr hu)
            (constant (F := Ideal) S_ .f32 0x4A742400#32))) (ix1 n)
      = Spec.Yof B n - Spec.meanY (Spec.Yof B) := by
  rw [centre_apply]
  simp only [labels_apply B hc]
  rfl

/-- A head's correlation from its centred column `p` and the centred labels `q`. -/
theorem head_corr (X : Fin 4000000 → Fin 6 → EReal) (Y : Fin 4000000 → EReal) (r : Fin 6)
    (p q : FVec Ideal S4000000 .f32) (hp : ∀ n, p (ix1 n) = X n r - Spec.meanX X r) (hq : ∀ n, q (ix1 n) = Y n - Spec.meanY Y)
    (hr : S4000000.ReducesTo [0] S_) (hu : 0 < S_.numel) (j : S_.Idx) :
    Host.divf (Host.reduceAdd (mulf p q) (constant (F := Ideal) S_ .f32 0x00000000#32) hr hu)
        (mulf (Host.sqrt (Host.reduceAdd (mulf p p) (constant (F := Ideal) S_ .f32 0x00000000#32) hr hu))
          (Host.sqrt (Host.reduceAdd (mulf q q) (constant (F := Ideal) S_ .f32 0x00000000#32) hr hu))) j
      = corrAt X Y r := by
  rw [pearson_apply]
  simp only [hp, hq]
  rfl

end Cert.ReferenceIdeal.RefValue

end
-- ==== Proof.RefHeads.lean ====
/-
  The reference's named intermediate values read at an index: for each of the six heads its column of the predictions
  less the column's mean, the labels less their mean (the program recomputes that vector once per head: six names, one
  value), and the first five heads' correlations with the labels.
-/
import proofs.«168857_j4097398800619_2_alg».proof.Proof.RefOps
import proofs.«168857_j4097398800619_2_alg».proof.Proof.Gen.ReferenceIdeal.Run

noncomputable section

namespace Cert.ReferenceIdeal.RefValue

open Idealize.ShloMosaic Idealize.ShloMosaic.ValueIdx Idealize.SL.Sem Cert.ReferenceIdeal Cert.ReferenceIdeal.Gen Cert.ReferenceIdeal.Value
open scoped BigOperators

/-- The predictions and the labels a valuation holds, as families over sample and head. -/
abbrev XV (V0 : Valuation τ sig (Elt Ideal)) : Fin 4000000 → Fin 6 → EReal := Spec.Xof (V0 (Proc.devRef .tc main_arg0))
abbrev YV (V0 : Valuation τ sig (Elt Ideal)) : Fin 4000000 → EReal := Spec.Yof (V0 (Proc.devRef .tc main_arg1))

/-! ## Each head's column less its mean -/

theorem v6_apply (V0 : Valuation τ sig (Elt Ideal)) (n : Fin 4000000) :
    res_main_v6 (F := Ideal) V0 (ix1 n) = XV V0 n 0 - Spec.meanX (XV V0) 0 := by
  unfold res_main_v6 res_main_v2
  exact centred_col _ 0 0 rfl _ _ _ _ _ n

theorem v26_apply (V0 : Valuation τ sig (Elt Ideal)) (n : Fin 4000000) :
    res_main_v26 (F := Ideal) V0 (ix1 n) = XV V0 n 1 - Spec.meanX (XV V0) 1 := by
  unfold res_main_v26 res_main_v22
  exact centred_col _ 1 1 rfl _ _ _ _ _ n

theorem v46_apply (V0 : Valuation τ sig (Elt Ideal)) (n : Fin 4000000) :
    res_main_v46 (F := Ideal) V0 (ix1 n) = XV V0 n 2 - Spec.meanX (XV V0) 2 := by
  unfold res_main_v46 res_main_v42
  exact centred_col _ 2 2 rfl _ _ _ _ _ n

theorem v66_apply (V0 : Valuation τ sig (Elt Ideal)) (n : Fin 4000000) :
    res_main_v66 (F := Ideal) V0 (ix1 n) = XV V0 n 3 - Spec.meanX (XV V0) 3 := by
  unfold res_main_v66 res_main_v62
  exact centred_col _ 3 3 rfl _ _ _ _ _ n

theorem v86_apply (V0 : Valuation τ sig (Elt Ideal)) (n : Fin 4000000) :
    res_main_v86 (F := Ideal) V0 (ix1 n) = XV V0 n 4 - Spec.meanX (XV V0) 4 := by
  unfold res_main_v86 res_main_v82
  exact centred_col _ 4 4 rfl _ _ _ _ _ n

theorem v106_apply (V0 : Valuation τ sig (Elt Ideal)) (n : Fin 4000000) :
    res_main_v106 (F := Ideal) V0 (ix1 n) = XV V0 n 5 - Spec.meanX (XV V0) 5 := by
  unfold res_main_v106 res_main_v102
  exact centred_col _ 5 5 rfl _ _ _ _ _ n

/-! ## The labels less their mean -/

theorem v10_apply (V0 : Valuation τ sig (Elt Ideal)) (n : Fin 4000000) :
    res_main_v10 (F := Ideal) V0 (ix1 n) = YV V0 n - Spec.meanY (YV V0) := by
  unfold res_main_v10 res_main_v0
  exact centred_lab _ _ _ _ _ n

theorem v30_apply (V0 : Valuation τ sig (Elt Ideal)) (n : Fin 4000000) :
    res_main_v30 (F := Ideal) V0 (ix1 n) = YV V0 n - Spec.meanY (YV V0) := by
  unfold res_main_v30 res_main_v0
  exact centred_lab _ _ _ _ _ n

theorem v50_apply (V0 : Valuation τ sig (Elt Ideal)) (n : Fin 4000000) :
    res_main_v50 (F := Ideal) V0 (ix1 n) = YV V0 n - Spec.meanY (YV V0) := by
  unfold res_main_v50 res_main_v0
  exact centred_lab _ _ _ _ _ n

theorem v70_apply (V0 : Valuation τ sig (Elt Ideal)) (n : Fin 4000000) :
    res_main_v70 (F := Ideal) V0 (ix1 n) = YV V0 n - Spec.meanY (YV V0) := by
  unfold res_main_v70 res_main_v0
  exact centred_lab _ _ _ _ _ n

theorem v90_apply (V0 : Valuation τ sig (Elt Ideal)) (n : Fin 4000000) :
    res_main_v90 (F := Ideal) V0 (ix1 n) = YV V0 n - Spec.meanY (YV V0) := by
  unfold res_main_v90 res_main_v0
  exact centred_lab _ _ _ _ _ n

theorem v110_apply (V0 : Valuation τ sig (Elt Ideal)) (n : Fin 4000000) :
    res_main_v110 (F := Ideal) V0 (ix1 n) = YV V0 n - Spec.meanY (YV V0) := by
  unfold res_main_v110 res_main_v0
  exact centred_lab _ _ _ _ _ n

/-! ## The first five heads' correlations -/

theorem v20_apply (V0 : Valuation τ sig (Elt Ideal)) (j : S_.Idx) :
    res_main_v20 (F := Ideal) V0 j = corrAt (XV V0) (YV V0) 0 := by
  unfold res_main_v20
  exact head_corr _ _ 0 _ _ (v6_apply V0) (v10_apply V0) _ _ j

theorem v40_apply (V0 : Valuation τ sig (Elt Ideal)) (j : S_.Idx) :
    res_main_v40 (F := Ideal) V0 j = corrAt (XV V0) (YV V0) 1 := by
  unfold res_main_v40
  exact head_corr _ _ 1 _ _ (v26_apply V0) (v30_apply V0) _ _ j

theorem v60_apply (V0 : Valuation τ sig (Elt Ideal)) (j : S_.Idx) :
    res_main_v60 (F := Ideal) V0 j = corrAt (XV V0) (YV V0) 2 := by
  unfold res_main_v60
  exact head_corr _ _ 2 _ _ (v46_apply V0) (v50_apply V0) _ _ j

theorem v80_apply (V0 : Valuation τ sig (Elt Ideal)) (j : S_.Idx) :
    res_main_v80 (F := Ideal) V0 j = corrAt (XV V0) (YV V0) 3 := by
  unfold res_main_v80
  exact head_corr _ _ 3 _ _ (v66_apply V0) (v70_apply V0) _ _ j

theorem v100_apply (V0 : Valuation τ sig (Elt Ideal)) (j : S_.Idx) :
    res_main_v100 (F := Ideal) V0 j = corrAt (XV V0) (YV V0) 4 := by
  unfold res_main_v100
  exact head_corr _ _ 4 _ _ (v86_apply V0) (v90_apply V0) _ _ j

end Cert.ReferenceIdeal.RefValue

end
-- ==== Proof.RefHuber.lean ====
/-
  The mean weighted pseudo-Huber term: the residual, its half, the tangent of its first five columns read at an index
  from the reference's named intermediate values; then one sample's, one head's weighted term, and the mean over all
  samples of the sum over the six heads.
-/
import proofs.«168857_j4097398800619_2_alg».proof.Proof.RefHeads

noncomputable section

namespace Cert.ReferenceIdeal.RefValue

open Idealize.ShloMosaic Idealize.ShloMosaic.ValueIdx Idealize.SL.Sem Cert.ReferenceIdeal Cert.ReferenceIdeal.Gen Cert.ReferenceIdeal.Value
open scoped BigOperators

/-! ## One weighted term and the mean, over arbitrary operands -/

/-- One sample's, one head's weighted term, from the halved residual `e` and the tangents `t` of the first five columns. -/
theorem term_of (X : Fin 4000000 → Fin 6 → EReal) (Y : Fin 4000000 → EReal)
    (e : FVec Ideal S4000000x6 .f32) (t : FVec Ideal S4000000x5 .f32)
    (he : ∀ n r, e (ix2 n r) = Ideal.div (X n r - Y n) Spec.c2)
    (ht : ∀ n (j : Fin 5) (k : Fin 6), k.val = j.val → t (ix2 n j) = Ideal.tanh (X n k - Y n))
    (hb6 : S_.BroadcastsInDim S4000000x6 (![] : Fin 0 → Fin S4000000x6.rank))
    (hb5 : S_.BroadcastsInDim S4000000x5 (![] : Fin 0 → Fin S4000000x5.rank))
    (hb1 : S_.BroadcastsInDim S4000000x1 (![] : Fin 0 → Fin S4000000x1.rank))
    (hc : Shape.Concatenates [S4000000x5, S4000000x1] S4000000x6 1) (n : Fin 4000000) (r : Fin 6) :
    mulf
        (mulf (broadcastInDim S4000000x6 ![] hb6 (constant (F := Ideal) S_ .f32 0x40800000#32))
          (subf (Host.sqrt (addf (broadcastInDim S4000000x6 ![] hb6 (constant (F := Ideal) S_ .f32 0x3F800000#32)) (mulf e e)))
            (broadcastInDim S4000000x6 ![] hb6 (constant (F := Ideal) S_ .f32 0x3F800000#32))))
        (concatenate S4000000x6 1
          [⟨S4000000x5, mulf (broadcastInDim S4000000x5 ![] hb5 (constant (F := Ideal) S_ .f32 0x3E4CCCCD#32)) (mulf t t)⟩,
           ⟨S4000000x1, broadcastInDim S4000000x1 ![] hb1 (constant (F := Ideal) S_ .f32 0x3F800000#32)⟩] hc) (ix2 n r)
      = Spec.term X Y n r := by
  rw [mulf_apply, hub_apply, weight_apply, he]
  unfold Spec.term Spec.hub Spec.weight
  by_cases h : r.val < 5
  · rw [dif_pos h, if_pos h, ht n ⟨r.val, h⟩ r rfl]
  · rw [dif_neg h, if_neg h]

/-- The mean over the samples of the six heads' weighted terms. -/
theorem hubMean_of (X : Fin 4000000 → Fin 6 → EReal) (Y : Fin 4000000 → EReal)
    (e : FVec Ideal S4000000x6 .f32) (t : FVec Ideal S4000000x5 .f32)
    (he : ∀ n r, e (ix2 n r) = Ideal.div (X n r - Y n) Spec.c2)
    (ht : ∀ n (j : Fin 5) (k : Fin 6), k.val = j.val → t (ix2 n j) = Ideal.tanh (X n k - Y n))
    (hb6 : S_.BroadcastsInDim S4000000x6 (![] : Fin 0 → Fin S4000000x6.rank))
    (hb5 : S_.BroadcastsInDim S4000000x5 (![] : Fin 0 → Fin S4000000x5.rank))
    (hb1 : S_.BroadcastsInDim S4000000x1 (![] : Fin 0 → Fin S4000000x1.rank))
    (hc : Shape.Concatenates [S4000000x5, S4000000x1] S4000000x6 1)
    (hr6 : S4000000x6.ReducesTo [1] S4000000) (hr : S4000000.ReducesTo [0] S_) (hu : 0 < S_.numel) (j : S_.Idx) :
    Host.divf
        (Host.reduceAdd
          (Host.reduceAdd
            (mulf
              (mulf (broadcastInDim S4000000x6 ![] hb6 (constant (F := Ideal) S_ .f32 0x40800000#32))
                (subf (Host.sqrt (addf (broadcastInDim S4000000x6 ![] hb6 (constant (F := Ideal) S_ .f32 0x3F800000#32)) (mulf e e)))
                  (broadcastInDim S4000000x6 ![] hb6 (constant (F := Ideal) S_ .f32 0x3F800000#32))))
              (concatenate S4000000x6 1
                [⟨S4000000x5, mulf (broadcastInDim S4000000x5 ![] hb5 (constant (F := Ideal) S_ .f32 0x3E4CCCCD#32)) (mulf t t)⟩,
                 ⟨S4000000x1, broadcastInDim S4000000x1 ![] hb1 (constant (F := Ideal) S_ .f32 0x3F800000#32)⟩] hc))
            (constant (F := Ideal) S_ .f32 0x00000000#32) hr6 hu)
          (constant (F := Ideal) S_ .f32 0x00000000#32) hr hu)
        (constant (F := Ideal) S_ .f32 0x4A742400#32) j
      = hubMean X Y := by
  rw [hostDivf_apply, reduce_all, constant_apply]
  simp only [reduce_row, term_of X Y e t he ht hb6 hb5 hb1 hc]
  rfl

/-! ## The named values: the residual, its half, the tangent of its first five columns -/

theorem v122_apply (V0 : Valuation τ sig (Elt Ideal)) (n : Fin 4000000) (r : Fin 6) :
    res_main_v122 (F := Ideal) V0 (ix2 n r) = XV V0 n r - YV V0 n := by
  unfold res_main_v122
  exact resid_apply _ _ _ n r

theorem v124_apply (V0 : Valuation τ sig (Elt Ideal)) (n : Fin 4000000) (r : Fin 6) :
    res_main_v124 (F := Ideal) V0 (ix2 n r) = Ideal.div (XV V0 n r - YV V0 n) Spec.c2 := by
  unfold res_main_v124
  exact (half_apply _ _ _).trans (congrArg (fun z => Ideal.div z Spec.c2) (v122_apply V0 n r))

theorem v134_apply (V0 : Valuation τ sig (Elt Ideal)) (n : Fin 4000000) (j : Fin 5) (k : Fin 6) (hk : k.val = j.val) :
    res_main_v134 (F := Ideal) V0 (ix2 n j) = Ideal.tanh (XV V0 n k - YV V0 n) := by
  unfold res_main_v134
  exact (tanh5_apply _ _ n j k hk).trans (congrArg Ideal.tanh (v122_apply V0 n k))

end Cert.ReferenceIdeal.RefValue

end
-- ==== Proof.RefLoss.lean ====
/-
  The reference's result is the loss from centred sums: the last operations combine the six correlations and the mean
  weighted pseudo-Huber term exactly as `Spec.combine` associates them — five subtracted from 5 left to right, five
  squares added left to right, the mean plus their quotient, plus one less the sixth correlation.
-/
import proofs.«168857_j4097398800619_2_alg».proof.Proof.RefHuber

noncomputable section

namespace Cert.ReferenceIdeal.RefValue

open Idealize.ShloMosaic Idealize.ShloMosaic.ValueIdx Idealize.SL.Sem Cert.ReferenceIdeal Cert.ReferenceIdeal.Gen Cert.ReferenceIdeal.Value
open Idealize.ShloMosaic.TcCoe Idealize.ShloMosaic.StableHlo
open scoped BigOperators

/-- The closing operations over arbitrary scalar operands: `u r` holds `1 - p r`, `q r` holds `p r` for the first five
    heads, `P5` holds `p 5` and `H` the mean `h`. -/
theorem combine_of (p : Fin 6 → EReal) (h : EReal)
    (u0 u1 u2 u3 u4 q0 q1 q2 q3 q4 P5 H : FVec Ideal S_ .f32) (j : S_.Idx)
    (hu0 : u0 j = Spec.c1 - p 0) (hu1 : u1 j = Spec.c1 - p 1) (hu2 : u2 j = Spec.c1 - p 2)
    (hu3 : u3 j = Spec.c1 - p 3) (hu4 : u4 j = Spec.c1 - p 4)
    (hq0 : q0 j = p 0) (hq1 : q1 j = p 1) (hq2 : q2 j = p 2) (hq3 : q3 j = p 3) (hq4 : q4 j = p 4)
    (hP5 : P5 j = p 5) (hH : H j = h) :
    addf
        (addf H
          (Host.divf (addf (addf (addf (addf (mulf u0 u0) (mulf u1 u1)) (mulf u2 u2)) (mulf u3 u3)) (mulf u4 u4))
            (subf (subf (subf (subf (subf (constant (F := Ideal) S_ .f32 0x40A00000#32) q0) q1) q2) q3) q4)))
        (subf (constant (F := Ideal) S_ .f32 0x3F800000#32) P5) j
      = Spec.combine p h := by
  simp only [addf_apply, mulf_apply, subf_apply, hostDivf_apply, constant_apply, hu0, hu1, hu2, hu3, hu4, hq0, hq1, hq2, hq3, hq4,
    hP5, hH]
  rfl

/-! ## One less each of the first five correlations -/

/-- One less a scalar operand. -/
theorem one_sub_of (q : FVec Ideal S_ .f32) (c : EReal) (j : S_.Idx) (hq : q j = c) :
    subf (constant (F := Ideal) S_ .f32 0x3F800000#32) q j = Spec.c1 - c := by
  rw [subf_apply, constant_apply, hq]
  rfl

theorem v150_apply (V0 : Valuation τ sig (Elt Ideal)) (j : S_.Idx) :
    res_main_v150 (F := Ideal) V0 j = Spec.c1 - corrAt (XV V0) (YV V0) 0 := by
  unfold res_main_v150
  exact one_sub_of _ _ j (v20_apply V0 j)

theorem v152_apply (V0 : Valuation τ sig (Elt Ideal)) (j : S_.Idx) :
    res_main_v152 (F := Ideal) V0 j = Spec.c1 - corrAt (XV V0) (YV V0) 1 := by
  unfold res_main_v152
  exact one_sub_of _ _ j (v40_apply V0 j)

theorem v155_apply (V0 : Valuation τ sig (Elt Ideal)) (j : S_.Idx) :
    res_main_v155 (F := Ideal) V0 j = Spec.c1 - corrAt (XV V0) (YV V0) 2 := by
  unfold res_main_v155
  exact one_sub_of _ _ j (v60_apply V0 j)

theorem v158_apply (V0 : Valuation τ sig (Elt Ideal)) (j : S_.Idx) :
    res_main_v158 (F := Ideal) V0 j = Spec.c1 - corrAt (XV V0) (YV V0) 3 := by
  unfold res_main_v158
  exact one_sub_of _ _ j (v80_apply V0 j)

theorem v161_apply (V0 : Valuation τ sig (Elt Ideal)) (j : S_.Idx) :
    res_main_v161 (F := Ideal) V0 j = Spec.c1 - corrAt (XV V0) (YV V0) 4 := by
  unfold res_main_v161
  exact one_sub_of _ _ j (v100_apply V0 j)

/-! ## The result -/

/-- The result buffer's composed term is the loss from centred sums of the argument arrays. -/
theorem value_eq (V0 : Valuation τ sig (Elt Ideal)) :
    val4 (F := Ideal) V0 (Proc.devRef .tc main_v167) = fun _ => Spec.centredLoss (XV V0) (YV V0) := by
  refine (val4_main_v167 V0).trans ?_
  funext j
  exact (combine_of (fun r => corrAt (XV V0) (YV V0) r) (hubMean (XV V0) (YV V0)) _ _ _ _ _ _ _ _ _ _ _ _ j
    (v150_apply V0 j) (v152_apply V0 j) (v155_apply V0 j) (v158_apply V0 j) (v161_apply V0 j)
    (v20_apply V0 j) (v40_apply V0 j) (v60_apply V0 j) (v80_apply V0 j) (v100_apply V0 j)
    (head_corr _ _ 5 _ _ (v106_apply V0) (v110_apply V0) _ _ j)
    (hubMean_of _ _ _ _ (v124_apply V0) (v134_apply V0) _ _ _ _ _ _ _ j)).trans (centredLoss_eq _ _).symm

/-- On every device, from any memory with zero counters: every weakly fair execution of the reference terminates with
    its result the loss from centred sums of the argument arrays, and the arguments unchanged. -/
theorem run_loss (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩
      (fun r => ∀ c : Dev Cert.ReferenceIdeal.nD,
        r.2.mem ((c.tc : Thread _ _).loc Cert.ReferenceIdeal.main_v167)
            = (fun _ => Cert.Spec.centredLoss (Cert.Spec.Xof (m ((c.tc : Thread _ _).loc Cert.ReferenceIdeal.main_arg0)))
                (Cert.Spec.Yof (m ((c.tc : Thread _ _).loc Cert.ReferenceIdeal.main_arg1))))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)) :=
  (θ_run (Cert.ReferenceIdeal.defs (F := Ideal)) _ _).mono
    (fun _ h c => ⟨(h c).1.trans ((val4_main_v167 (launchContents m c)).symm.trans (value_eq (launchContents m c))), (h c).2⟩)
    (Cert.ReferenceIdeal.Value.run (F := Ideal) m ρ)

end Cert.ReferenceIdeal.RefValue

end
-- ==== Proof.LibSumRange.lean ====
import Mathlib.Algebra.BigOperators.Fin
import Mathlib.Algebra.BigOperators.Intervals
import Mathlib.Tactic

/-!
# Sums over an initial segment of the naturals, split by quotient and remainder

In any commutative monoid, a sum over `r < a * b` is the double sum over the quotient `i < a` and the remainder
`j < b` of `r = i * b + j` (`sum_range_mul`); iterated three times, a sum over `r < J * K * A * S` is the fourfold sum
over the mixed-radix digits of `r` (`sum_range_mul4`); and the outermost of three range sums may be moved innermost
(`sum_residue_inner`). Together they re-group a sum over the rows of an array by block, group within the block and
residue within the group, whatever the three extents.
-/

namespace Cert.BN.Regroup

open Finset

variable {M : Type*} [AddCommMonoid M] (f : ℕ → M)

/-- A sum over `r < a * b`, split by quotient and remainder on division by `b`. -/
theorem sum_range_mul (a b : ℕ) :
    ∑ i ∈ range a, ∑ j ∈ range b, f (i * b + j) = ∑ r ∈ range (a * b), f r := by
  induction a with
  | zero => simp
  | succ a ih =>
    rw [Finset.sum_range_succ, ih, Nat.succ_mul, Finset.sum_range_add]

/-- Four nested levels: `r = ((j * K + k) * A + a) * S + s`. -/
theorem sum_range_mul4 (J K A S : ℕ) :
    ∑ j ∈ range J, ∑ k ∈ range K, ∑ a ∈ range A, ∑ s ∈ range S,
        f (((j * K + k) * A + a) * S + s)
      = ∑ r ∈ range (J * K * A * S), f r := by
  have h1 := sum_range_mul
    (fun n => ∑ a ∈ range A, ∑ s ∈ range S, f ((n * A + a) * S + s)) J K
  have h2 := sum_range_mul (fun m => ∑ s ∈ range S, f (m * S + s)) (J * K) A
  have h3 := sum_range_mul f (J * K * A) S
  exact h1.trans (h2.trans h3)

/-- The residue sum moved innermost: the order `s, k, a` becomes `k, a, s`. -/
theorem sum_residue_inner (S K A : ℕ) (F : ℕ → ℕ → ℕ → M) :
    ∑ s ∈ range S, ∑ k ∈ range K, ∑ a ∈ range A, F s k a
      = ∑ k ∈ range K, ∑ a ∈ range A, ∑ s ∈ range S, F s k a := by
  rw [Finset.sum_comm]
  refine Finset.sum_congr rfl fun k _ => ?_
  rw [Finset.sum_comm]

end Cert.BN.Regroup
-- ==== Proof.SumTiles.lean ====
/-
  The tiled sum is the plain sum.  A sample number `n < 4,000,000` is `(25 c + i) · 80000 + j` for exactly one half
  `c < 2`, tile `i < 25` and position `j < 80000`; so adding the two halves, each summed tile by tile, adds every
  sample once.  Only commutativity and associativity of addition are used, so nothing is assumed about the summands.
-/
import proofs.«168857_j4097398800619_2_alg».proof.Proof.Spec
import proofs.«168857_j4097398800619_2_alg».proof.Proof.LibSumRange

noncomputable section

namespace Cert.Spec

open scoped BigOperators

/-- The sum tile by tile, half by half, is the sum over all samples. -/
theorem tsum_eq (f : Fin 4000000 → EReal) : tsum f = ∑ n : Fin 4000000, f n := by
  classical
  -- `f` continued by zero beyond the last sample, so that sums over `Fin` become sums over initial segments of ℕ
  let g : ℕ → EReal := fun n => if h : n < 4000000 then f ⟨n, h⟩ else 0
  have hg : ∀ n : Fin 4000000, g n.val = f n := fun n => by
    simp only [g, dif_pos n.isLt, Fin.eta]
  -- one half, as a double sum over ℕ
  have hhalf : ∀ c : Fin 2, halfSum f c
      = ∑ i ∈ Finset.range 25, ∑ j ∈ Finset.range 80000, g ((c.val * 25 + i) * 80000 + j) := by
    intro c
    unfold halfSum
    rw [← Fin.sum_univ_eq_sum_range (fun i => ∑ j ∈ Finset.range 80000, g ((c.val * 25 + i) * 80000 + j)) 25]
    refine Finset.sum_congr rfl fun i _ => ?_
    rw [← Fin.sum_univ_eq_sum_range (fun j => g ((c.val * 25 + i.val) * 80000 + j)) 80000]
    refine Finset.sum_congr rfl fun j _ => ?_
    exact (hg (tileIdx c i j)).symm
  -- the plain sum, as a sum over ℕ
  have hall : ∑ n : Fin 4000000, f n = ∑ r ∈ Finset.range 4000000, g r := by
    rw [← Fin.sum_univ_eq_sum_range g 4000000]
    exact Finset.sum_congr rfl fun n _ => (hg n).symm
  -- quotient and remainder, twice
  have hsplit : ∑ c ∈ Finset.range 2, ∑ i ∈ Finset.range 25, ∑ j ∈ Finset.range 80000,
      g ((c * 25 + i) * 80000 + j) = ∑ r ∈ Finset.range 4000000, g r := by
    have h1 := Cert.BN.Regroup.sum_range_mul (fun m => ∑ j ∈ Finset.range 80000, g (m * 80000 + j)) 2 25
    have h2 := Cert.BN.Regroup.sum_range_mul g (2 * 25) 80000
    have h3 : ∑ r ∈ Finset.range (2 * 25 * 80000), g r = ∑ r ∈ Finset.range 4000000, g r :=
      congrArg (fun k => ∑ r ∈ Finset.range k, g r) (by norm_num : 2 * 25 * 80000 = 4000000)
    exact (h1.trans h2).trans h3
  rw [hall, ← hsplit, Finset.sum_range_succ, Finset.sum_range_one]
  unfold tsum
  rw [hhalf 0, hhalf 1]
  simp only [Fin.val_zero, Fin.val_one]

end Cert.Spec

end
-- ==== Proof.LibRealLift.lean ====
/-
  Finite arrays.  An array of extended reals that is the coercion of an array of reals stays one under every operation
  the two programs apply to finite data: sums, differences, products, a quotient by a nonzero real, `tanh`, `exp`, a
  change of float format (the identity), a matrix product into a zero accumulator, the host's `dot_general`, a sum
  along one axis (the kernel's and the host's), and every change of layout (which only re-indexes).  Each lemma names
  the real array the result is the coercion of, so that all further algebra is done over ℝ.
-/
import Idealize.ShloMosaic.PureOps.Ideal
import Idealize.ShloMosaic.PureOps.Ideal.Laws
import Idealize.ShloMosaic.Lib.ValueIdx
import Idealize.ShloMosaic.Lib.Pipeline.Value

noncomputable section

namespace Cert.RealLift

open Idealize.ShloMosaic

/-- `A` is the coercion of the real array `a`, entry by entry. -/
def IsR {ι : Type} (A : ι → EReal) (a : ι → ℝ) : Prop := ∀ i, A i = ((a i : ℝ) : EReal)

/-- The coercion of a finite sum of reals is the sum of the coercions. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A finite sum of products of finite entries is the coercion of the real sum of products. -/
theorem sum_mul_coe {ι : Type} (s : Finset ι) (f g : ι → EReal) (f' g' : ι → ℝ) (hf : ∀ i, f i = ((f' i : ℝ) : EReal))
    (hg : ∀ i, g i = ((g' i : ℝ) : EReal)) : ∑ i ∈ s, f i * g i = ((∑ i ∈ s, f' i * g' i : ℝ) : EReal) := by
  rw [coe_sum]
  exact Finset.sum_congr rfl fun i _ => by rw [hf i, hg i, EReal.coe_mul]

theorem sum_coe {ι : Type} (s : Finset ι) (f : ι → EReal) (f' : ι → ℝ) (hf : ∀ i, f i = ((f' i : ℝ) : EReal)) :
    ∑ i ∈ s, f i = ((∑ i ∈ s, f' i : ℝ) : EReal) := by
  rw [coe_sum]
  exact Finset.sum_congr rfl fun i _ => hf i

variable {s t : Shape} {φ : FTy}

namespace IsR

theorem of_eq {ι : Type} {A : ι → EReal} {a a' : ι → ℝ} (h : IsR A a) (e : ∀ i, a i = a' i) : IsR A a' :=
  fun i => (h i).trans (congrArg _ (e i))

theorem addf {A B : FVec Ideal s φ} {a b : s.Idx → ℝ} (hA : IsR A a) (hB : IsR B b) :
    IsR (Idealize.ShloMosaic.addf A B) (fun i => a i + b i) := fun i => by
  show A i + B i = _
  rw [hA i, hB i, EReal.coe_add]

theorem subf {A B : FVec Ideal s φ} {a b : s.Idx → ℝ} (hA : IsR A a) (hB : IsR B b) :
    IsR (Idealize.ShloMosaic.subf A B) (fun i => a i - b i) := fun i => by
  show A i - B i = _
  rw [hA i, hB i, EReal.coe_sub]

theorem mulf {A B : FVec Ideal s φ} {a b : s.Idx → ℝ} (hA : IsR A a) (hB : IsR B b) :
    IsR (Idealize.ShloMosaic.mulf A B) (fun i => a i * b i) := fun i => by
  show A i * B i = _
  rw [hA i, hB i, EReal.coe_mul]

/-- A quotient by a nonzero real. -/
theorem div_coe (x y : ℝ) (hy : y ≠ 0) : Ideal.div ((x : ℝ) : EReal) ((y : ℝ) : EReal) = ((x / y : ℝ) : EReal) := by
  rw [Ideal.div_coe hy, ← EReal.coe_mul, mul_one_div]

theorem divf {A B : FVec Ideal s φ} {a b : s.Idx → ℝ} (hA : IsR A a) (hB : IsR B b) (hb : ∀ i, b i ≠ 0) :
    IsR (Idealize.ShloMosaic.divf A B) (fun i => a i / b i) := fun i => by
  show Ideal.div (A i) (B i) = _
  rw [hA i, hB i, div_coe _ _ (hb i)]

theorem hostDivf {A B : FVec Ideal s φ} {a b : s.Idx → ℝ} (hA : IsR A a) (hB : IsR B b) (hb : ∀ i, b i ≠ 0) :
    IsR (Host.divf A B) (fun i => a i / b i) := fun i => by
  show Ideal.div (A i) (B i) = _
  rw [hA i, hB i, div_coe _ _ (hb i)]

theorem tanh {A : FVec Ideal s φ} {a : s.Idx → ℝ} (hA : IsR A a) :
    IsR (Idealize.ShloMosaic.tanh A) (fun i => Real.tanh (a i)) := fun i => by
  show Ideal.tanh (A i) = _
  rw [hA i]; rfl

theorem exp {A : FVec Ideal s φ} {a : s.Idx → ℝ} (hA : IsR A a) :
    IsR (Idealize.ShloMosaic.exp A) (fun i => Real.exp (a i)) := fun i => by
  show Ideal.exp (A i) = _
  rw [hA i]; rfl

theorem hostTanh {A : FVec Ideal s φ} {a : s.Idx → ℝ} (hA : IsR A a) :
    IsR (Host.tanh A) (fun i => Real.tanh (a i)) := fun i => by
  show Ideal.tanh (A i) = _
  rw [hA i]; rfl

theorem hostExp {A : FVec Ideal s φ} {a : s.Idx → ℝ} (hA : IsR A a) :
    IsR (Host.exp A) (fun i => Real.exp (a i)) := fun i => by
  show Ideal.exp (A i) = _
  rw [hA i]; rfl

/-- A change of float format is the identity on the extended reals. -/
theorem truncf {A : FVec Ideal s φ} {a : s.Idx → ℝ} (hA : IsR A a) (ψ : FTy) (h : ψ.bits < φ.bits) :
    IsR (Idealize.ShloMosaic.truncf ψ A h : FVec Ideal s ψ) a := fun i => hA i

theorem extf {A : FVec Ideal s φ} {a : s.Idx → ℝ} (hA : IsR A a) (ψ : FTy) (h : φ.bits < ψ.bits) :
    IsR (Idealize.ShloMosaic.extf ψ A h : FVec Ideal s ψ) a := fun i => hA i

/-- Layout operations only re-index. -/
theorem shapeCast {A : s.Idx → EReal} {a : s.Idx → ℝ} (hA : IsR A a) (h : s.ShapeCasts t) :
    IsR (Idealize.ShloMosaic.shapeCast t A h) (Idealize.ShloMosaic.shapeCast t a h) := fun _ => hA _

theorem broadcastTo {A : s.Idx → EReal} {a : s.Idx → ℝ} (hA : IsR A a) (h : s.Broadcasts t) :
    IsR (Idealize.ShloMosaic.broadcastTo t A h) (Idealize.ShloMosaic.broadcastTo t a h) := fun _ => hA _

theorem broadcastInDim {A : s.Idx → EReal} {a : s.Idx → ℝ} (hA : IsR A a) (dims : Fin s.rank → Fin t.rank)
    (h : s.BroadcastsInDim t dims) :
    IsR (Idealize.ShloMosaic.broadcastInDim t dims h A) (Idealize.ShloMosaic.broadcastInDim t dims h a) := fun _ => hA _

/-- A splat of a real. -/
theorem broadcast {x : EReal} {r : ℝ} (h : x = ((r : ℝ) : EReal)) : IsR (Idealize.ShloMosaic.broadcast s x) (fun _ => r) :=
  fun _ => h

theorem constant {b : BitVec φ.bits} {r : ℝ} (h : Ideal.ofBits φ b = ((r : ℝ) : EReal)) :
    IsR (Idealize.ShloMosaic.constant (F := Ideal) s φ b) (fun _ => r) := fun _ => h

/-- A matrix product of finite operands into the zero accumulator: the real sum of products over the contraction. -/
theorem matmul0 {sl sr so : Shape} {φ₁ φ₂ : FTy} (D : DotDims sl sr so) (prec : Option ContractPrecision)
    {A : FVec Ideal sl φ₁} {B : FVec Ideal sr φ₂} {a : sl.Idx → ℝ} {b : sr.Idx → ℝ} (hA : IsR A a) (hB : IsR B b) :
    IsR (Idealize.ShloMosaic.matmul D prec A B (Idealize.ShloMosaic.constant so .f32 0x00000000#32))
      (fun j => ∑ k : D.contr.Idx, a (D.lhsIdx j k) * b (D.rhsIdx j k)) := fun j => by
  refine (Ideal.matmul_constant_zero_apply D prec A B j).trans ?_
  exact sum_mul_coe _ _ _ _ _ (fun k => hA _) (fun k => hB _)

/-- The host's `dot_general` of finite operands. -/
theorem dotGeneral {sl sr so : Shape} {φ₁ φ₂ : FTy} (D : DotDims sl sr so) (prec : Option ContractPrecision)
    {A : FVec Ideal sl φ₁} {B : FVec Ideal sr φ₂} {a : sl.Idx → ℝ} {b : sr.Idx → ℝ} (hA : IsR A a) (hB : IsR B b) :
    IsR (Host.dotGeneral D prec A B) (fun j => ∑ k : D.contr.Idx, a (D.lhsIdx j k) * b (D.rhsIdx j k)) := fun j => by
  refine (Ideal.dotGeneral_apply D prec .single A B j).trans ?_
  exact sum_mul_coe _ _ _ _ _ (fun k => hA _) (fun k => hB _)

/-- The kernel's sum along one axis of a finite array. -/
theorem multiReduction_add {ax : Fin s.rank} {A : FVec Ideal s φ} {a : s.Idx → ℝ} (hA : IsR A a) (acc : BitVec φ.bits)
    (h : s.Reduces [ax] t) (hφ : FKind.Formats φ) (hacc : acc = FKind.add.neutral φ hφ) :
    IsR (Idealize.ShloMosaic.multiReduction .add [ax] t A acc h hφ hacc) (fun j => ∑ k : Fin (s.size ax), a (h.lift j k)) :=
  fun j => by
    refine (Ideal.multiReduction_add_single A acc h hφ hacc j).trans ?_
    exact sum_coe _ _ _ (fun k => hA _)

end IsR

end Cert.RealLift

end
-- ==== Proof.LossEq.lean ====
/-
  The two losses agree on real inputs.  After the tiled sums are recognised as plain sums, the mean weighted Huber
  term is the same expression in both; and for each head the covariance and the two variances agree because, over the
  reals and with `N` the number of samples, `x̄ = Σx / N` and `ȳ = Σy / N`,
  `Σ (x - x̄)(y - ȳ) = Σ xy - (Σx · Σy) / N`
  (expand the product; `Σ x̄ y = Σ x ȳ = N x̄ ȳ = Σx · Σy / N`).  The variances are the cases `y = x`.  Every
  quantity involved is the coercion of a real, so the identity passes to the extended reals; the correlation and the
  final combination are then applied to equal arguments.
-/
import proofs.«168857_j4097398800619_2_alg».proof.Proof.Spec
import proofs.«168857_j4097398800619_2_alg».proof.Proof.SumTiles
import proofs.«168857_j4097398800619_2_alg».proof.Proof.LibRealLift
import Mathlib.Tactic

noncomputable section

namespace Cert.Spec

open Idealize.ShloMosaic
open scoped BigOperators

/-- Over the reals: the centred cross sum is the raw cross sum less the product of the two sums over the count. -/
theorem cov_centred {ι : Type} [Fintype ι] (N : ℝ) (hN : N ≠ 0) (hc : (Fintype.card ι : ℝ) = N) (x y : ι → ℝ) :
    ∑ n, (x n - (∑ m, x m) / N) * (y n - (∑ m, y m) / N)
      = ∑ n, x n * y n - ((∑ n, x n) * (∑ n, y n)) / N := by
  have h : ∀ n, (x n - (∑ m, x m) / N) * (y n - (∑ m, y m) / N)
      = x n * y n - (∑ m, x m) / N * y n - (∑ m, y m) / N * x n + (∑ m, x m) / N * ((∑ m, y m) / N) := by
    intro n; ring
  simp only [h, Finset.sum_add_distrib, Finset.sum_sub_distrib, ← Finset.mul_sum, Finset.sum_const,
    Finset.card_univ, nsmul_eq_mul, hc]
  field_simp
  ring

/-- The sample count's float word denotes the real 4,000,000. -/
theorem cN_eq : cN = ((4000000 : ℝ) : EReal) := by
  unfold cN
  simp [Ideal.ofBits, Ideal.ieee]
  rw [← EReal.coe_mul]
  norm_num

/-- The raw-moment form on real entries is the coercion of the real raw-moment form. -/
theorem raw_coe (A B : Fin 4000000 → EReal) (x y : Fin 4000000 → ℝ) (hA : ∀ n, A n = ((x n : ℝ) : EReal))
    (hB : ∀ n, B n = ((y n : ℝ) : EReal)) :
    (∑ n, A n * B n) - Ideal.div ((∑ n, A n) * (∑ n, B n)) cN
      = ((∑ n, x n * y n - ((∑ n, x n) * (∑ n, y n)) / 4000000 : ℝ) : EReal) := by
  rw [cN_eq, Cert.RealLift.sum_mul_coe _ A B x y hA hB, Cert.RealLift.sum_coe _ A x hA,
    Cert.RealLift.sum_coe _ B y hB, ← EReal.coe_mul, Cert.RealLift.IsR.div_coe _ _ (by norm_num), ← EReal.coe_sub]

/-- The centred form on real entries is the coercion of the real centred form. -/
theorem centred_coe (A B : Fin 4000000 → EReal) (x y : Fin 4000000 → ℝ) (hA : ∀ n, A n = ((x n : ℝ) : EReal))
    (hB : ∀ n, B n = ((y n : ℝ) : EReal)) :
    ∑ n, (A n - Ideal.div (∑ m, A m) cN) * (B n - Ideal.div (∑ m, B m) cN)
      = ((∑ n, (x n - (∑ m, x m) / 4000000) * (y n - (∑ m, y m) / 4000000) : ℝ) : EReal) := by
  rw [cN_eq, Cert.RealLift.sum_coe _ A x hA, Cert.RealLift.sum_coe _ B y hB,
    Cert.RealLift.IsR.div_coe _ _ (by norm_num), Cert.RealLift.IsR.div_coe _ _ (by norm_num)]
  exact Cert.RealLift.sum_mul_coe _ _ _ _ _ (fun n => by rw [hA n, ← EReal.coe_sub])
    (fun n => by rw [hB n, ← EReal.coe_sub])

/-- Raw moments summed tile by tile, against centred sums over all samples, for two real families. -/
theorem moment_eq (A B : Fin 4000000 → EReal) (hA : ∀ n, ∃ x : ℝ, A n = ((x : ℝ) : EReal))
    (hB : ∀ n, ∃ y : ℝ, B n = ((y : ℝ) : EReal)) :
    tsum (fun n => A n * B n) - Ideal.div (tsum A * tsum B) cN
      = ∑ n, (A n - Ideal.div (∑ m, A m) cN) * (B n - Ideal.div (∑ m, B m) cN) := by
  choose x hx using hA
  choose y hy using hB
  rw [tsum_eq, tsum_eq, tsum_eq, raw_coe A B x y hx hy, centred_coe A B x y hx hy]
  exact congrArg _ (cov_centred 4000000 (by norm_num) (by simp) x y).symm

/-- On real inputs the loss from tiled raw moments is the loss from centred sums. -/
theorem tiledLoss_eq_centredLoss (X : Fin 4000000 → Fin 6 → EReal) (Y : Fin 4000000 → EReal)
    (hX : ∀ n r, ∃ x : ℝ, X n r = (x : EReal)) (hY : ∀ n, ∃ y : ℝ, Y n = (y : EReal)) :
    tiledLoss X Y = centredLoss X Y := by
  unfold tiledLoss centredLoss meanX meanY
  have hp : ∀ r : Fin 6,
      corr
        (tsum (fun n => X n r * Y n) - Ideal.div (tsum (fun n => X n r) * tsum Y) cN)
        (tsum (fun n => X n r * X n r) - Ideal.div (tsum (fun n => X n r) * tsum (fun n => X n r)) cN)
        (tsum (fun n => Y n * Y n) - Ideal.div (tsum Y * tsum Y) cN)
      = corr
        (∑ n : Fin 4000000, (X n r - Ideal.div (∑ n : Fin 4000000, X n r) cN) * (Y n - Ideal.div (∑ n : Fin 4000000, Y n) cN))
        (∑ n : Fin 4000000, (X n r - Ideal.div (∑ n : Fin 4000000, X n r) cN) * (X n r - Ideal.div (∑ n : Fin 4000000, X n r) cN))
        (∑ n : Fin 4000000, (Y n - Ideal.div (∑ n : Fin 4000000, Y n) cN) * (Y n - Ideal.div (∑ n : Fin 4000000, Y n) cN)) := by
    intro r
    rw [moment_eq (fun n => X n r) Y (fun n => hX n r) hY,
      moment_eq (fun n => X n r) (fun n => X n r) (fun n => hX n r) (fun n => hX n r),
      moment_eq Y Y hY hY]
  rw [funext hp, tsum_eq]

end Cert.Spec

end
-- ==== Proof.LibFiniteInputs.lean ====
/-
  Finite inputs.  A precondition of the form "every entry's absolute value is below +∞", taken over a whole array by an
  all-reduction, makes every entry of the array a real number: an all-reduction that is 1 has every compared entry 1;
  the word `0x7F800000` denotes `⊤`; and an extended real with `max x (-x) < ⊤` is neither infinity.
  Generic in the array's shape and in the axes reduced; the scalar shape is spelt literally so that any program's own
  abbreviation of it unifies.
-/
import Idealize.ShloMosaic.Lib.ReduceAll
import Idealize.ShloMosaic.Lib.ValueIdx
import Idealize.ShloMosaic.PureOps.Ideal.Laws

noncomputable section

namespace Cert.FiniteInputs

open Idealize.ShloMosaic Idealize.ShloMosaic.ValueIdx

/-- The scalar shape. -/
abbrev S0 : Shape := ⟨0, ![]⟩

instance : Subsingleton S0.Idx := ⟨fun a b => funext fun d => d.elim0⟩

/-- The word of +∞ denotes `⊤`. -/
theorem inf_f32 : Ideal.ofBits .f32 0x7F800000#32 = ⊤ := by simp [Ideal.ofBits, Ideal.ieee]

/-- An extended real whose absolute value compares below +∞ is a real. -/
theorem real_of_lt (x : EReal) (h : Ideal.cmp .olt (max x (-x)) (Ideal.ofBits .f32 0x7F800000#32) = 1#1) :
    ∃ r : ℝ, x = ((r : ℝ) : EReal) := by
  rw [inf_f32] at h
  have hlt : max x (-x) < ⊤ := by
    by_contra hn
    have : Ideal.cmp .olt (max x (-x)) ⊤ = 0#1 := by simp [Ideal.cmp, hn]
    rw [this] at h
    exact absurd h (by decide)
  induction x using EReal.rec with
  | bot => exact absurd hlt (by simp)
  | coe r => exact ⟨r, rfl⟩
  | top => exact absurd hlt (by simp)

/-- One array: the all-reduction of `|a| < +∞` is 1, so every entry of `a` is a real. -/
theorem all_real {s : Shape} {axes : List (Fin s.rank)} (a : FVec Ideal s .f32) (hb : S0.BroadcastsInDim s (![] : Fin 0 → Fin s.rank))
    (hr : s.ReducesTo axes S0) (hn : 0 < S0.numel)
    (e : Host.reduce IntOp.andi (cmpf .olt (Host.absf a) (broadcastInDim s ![] hb (constant (F := Ideal) S0 .f32 0x7F800000#32)))
      (constantI S0 1 1#1) hr hn ix0 = 1#1) (i : s.Idx) : ∃ r : ℝ, a i = ((r : ℝ) : EReal) :=
  real_of_lt (a i) (Host.reduce_andi_all _ _ hr hn ix0 e i)

end Cert.FiniteInputs

end
-- ==== Proof.Finite.lean ====
/-
  Finite inputs are real.  The precondition is the conjunction of two statements "every entry's absolute value is
  below +∞", one per argument array, each taken over the whole array by an all-reduction.  A conjunction of bits that
  is 1 has both bits 1; an all-reduction that is 1 has every compared entry 1; and an extended real whose absolute
  value is below `⊤` is a real.  So every prediction and every label is the coercion of a real number.
-/
import proofs.«168857_j4097398800619_2_alg».proof.Pre_finite_inputs
import proofs.«168857_j4097398800619_2_alg».proof.Proof.Gen.Pre_finite_inputs
import proofs.«168857_j4097398800619_2_alg».proof.Proof.Spec
import proofs.«168857_j4097398800619_2_alg».proof.Proof.LibFiniteInputs
import Idealize.ShloMosaic.Lib.Affine

noncomputable section

namespace Cert.Spec

open Idealize.ShloMosaic

/-- Under the finiteness precondition every prediction and every label is a real number. -/
theorem real_of_pre [Cert.Pre_finite_inputs.Facts]
    (a0 : (⟨2, ![4000000, 6]⟩ : Shape).Idx → EReal) (a1 : (⟨2, ![4000000, 1]⟩ : Shape).Idx → EReal)
    (h : Cert.Pre_finite_inputs.fn (F := Ideal) a0 a1 = fun _ => 1#1) :
    (∀ n r, ∃ x : ℝ, Xof a0 n r = (x : EReal)) ∧ (∀ n, ∃ y : ℝ, Yof a1 n = (y : EReal)) := by
  have h0 := congrFun h ValueIdx.ix0
  dsimp only [Cert.Pre_finite_inputs.fn, andi] at h0
  obtain ⟨e0, e1⟩ := IntOp.andi_eq_one.1 h0
  exact ⟨fun n r => Cert.FiniteInputs.all_real a0 _ _ _ e0 _, fun n => Cert.FiniteInputs.all_real a1 _ _ _ e1 _⟩

end Cert.Spec

end
-- ==== Proof.lean ====
/-
  The certificate: a loss from raw moments summed tile by tile equals the same loss from centred sums.

  Two programs compute, from 4,000,000 predictions of six heads and their labels, a weighted pseudo-Huber mean plus a
  penalty built from the six Pearson correlations of the heads with the labels. The first transposes the predictions and
  streams them through a pipelined region in two halves of twenty-five tiles, accumulating Σx, Σx², Σxy per head and
  Σy, Σy², the weighted Huber sum into one small block per half, then forms each correlation on the host from raw
  moments, (Σxy - Σx·Σy/N) / (√(Σx² - (Σx)²/N) · √(Σy² - (Σy)²/N)). The second centres every column by its mean and
  forms Σ(x - x̄)(y - ȳ) / (√Σ(x - x̄)² · √Σ(y - ȳ)²) directly.

  On the extended reals a sum may be regrouped freely, so the tiled sums are the whole sums; the weighted Huber terms
  are the same expression on both sides; and when every input is a real number — the precondition — the three centred
  sums expand to the raw-moment forms (this is where distributivity, hence finiteness, is used). The square roots and
  quotients are then applied to equal arguments and never opened.

  The frames: each program runs to its end without a fault and leaves its two argument arrays as launched — for the
  tiled program at both readings of its floats by running the region's body once per case of its one branch and
  following the accumulator block point by point; for the reference from its run.
-/
import proofs.«168857_j4097398800619_2_alg».proof.Defs
import proofs.«168857_j4097398800619_2_alg».proof.Proof.Gen.Kernel
import proofs.«168857_j4097398800619_2_alg».proof.Proof.Gen.KernelIdeal
import proofs.«168857_j4097398800619_2_alg».proof.Proof.Gen.ReferenceIdeal
import proofs.«168857_j4097398800619_2_alg».proof.Proof.Gen.Pre_finite_inputs
import proofs.«168857_j4097398800619_2_alg».proof.Proof.Gen.ReferenceIdeal.Run
import proofs.«168857_j4097398800619_2_alg».proof.Proof.K.Frame
import proofs.«168857_j4097398800619_2_alg».proof.Proof.KI.Frame
import proofs.«168857_j4097398800619_2_alg».proof.Proof.KLoss
import proofs.«168857_j4097398800619_2_alg».proof.Proof.RefLoss
import proofs.«168857_j4097398800619_2_alg».proof.Proof.LossEq
import proofs.«168857_j4097398800619_2_alg».proof.Proof.Finite

noncomputable section

namespace Cert.Proof

open Idealize.ShloMosaic Idealize.SL.Sem

/-- The tiled program, floats as machine words: it runs and its arguments end unchanged. -/
theorem frame_words : Cert.frame_Kernel := fun m ρ _ => Cert.Kernel.Fr.frame m ρ

/-- The same with floats as extended reals. -/
theorem frame_tiled : Cert.frame_KernelIdeal := fun m ρ _ => Cert.KernelIdeal.Fr.frame m ρ

/-- The reference runs and its arguments end unchanged: its run with the result dropped. -/
theorem frame_reference : Cert.frame_ReferenceIdeal := fun m ρ _ =>
  (θ_run Cert.ReferenceIdeal.defs _ _).mono (fun _ h c => (h c).2) (Cert.ReferenceIdeal.RefValue.run_loss m ρ)

/-- On real inputs both programs end at one number: the tiled loss of the arguments is their centred loss. -/
theorem algebraic : Cert.algebraic_KernelIdeal_ReferenceIdeal := by
  intro m ρ m' ρ' hpre hagree
  refine ⟨fun c => fun _ => Cert.Spec.tiledLoss
      (Cert.Spec.Xof (m ((c.tc : Thread Cert.KernelIdeal.nD Cert.KernelIdeal.τ).loc Cert.KernelIdeal.main_arg0)))
      (Cert.Spec.Yof (m ((c.tc : Thread Cert.KernelIdeal.nD Cert.KernelIdeal.τ).loc Cert.KernelIdeal.main_arg1))),
    Cert.KernelIdeal.KVal.run_loss m ρ, ?_⟩
  refine (θ_run Cert.ReferenceIdeal.defs _ _).mono (fun _ h c => ⟨(h c).1.trans ?_, (h c).2⟩)
    (Cert.ReferenceIdeal.RefValue.run_loss m' ρ')
  obtain ⟨hX, hY⟩ := Cert.Spec.real_of_pre _ _ (hpre c)
  rw [(hagree c).1, (hagree c).2]
  exact (congrArg (fun (v : EReal) => fun _ => v) (Cert.Spec.tiledLoss_eq_centredLoss _ _ hX hY)).symm

theorem claim : Cert.Claim :=
  ⟨Cert.Kernel.Gen.facts, Cert.KernelIdeal.Gen.facts, Cert.ReferenceIdeal.Gen.facts, Cert.Pre_finite_inputs.Gen.facts,
    frame_words, frame_tiled, frame_reference, trivial, algebraic⟩

end Cert.Proof

end
